-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S1 .f32) (main_arg7 : FVec F S128x128 .f32) (main_arg8 : FVec F S128 .f32) (main_arg9 : FVec F S128 .f32) (main_arg10 : FVec F S128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S1 .f32) (main_arg7 : FVec F S128x128 .f32) (main_arg8 : FVec F S128 .f32) (main_arg9 : FVec F S128 .f32) (main_arg10 : FVec F S128 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x1 : Shape := ⟨2, ![1, 1]⟩

abbrev nBuf : Space → Nat
  | .hbm => 100
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S50000x128, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x1, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S850000x1, .f32⟩
  | .hbm, ⟨78, _⟩ => ⟨S_, .i32⟩
  | .hbm, ⟨79, _⟩ => ⟨S850000, .i32⟩
  | .hbm, ⟨80, _⟩ => ⟨S850000, .i1⟩
  | .hbm, ⟨81, _⟩ => ⟨S_, .i32⟩
  | .hbm, ⟨82, _⟩ => ⟨S850000, .i32⟩
  | .hbm, ⟨83, _⟩ => ⟨S850000, .i32⟩
  | .hbm, ⟨84, _⟩ => ⟨S850000, .i32⟩
  | .hbm, ⟨85, _⟩ => ⟨S850000x1, .i32⟩
  | .hbm, ⟨86, _⟩ => ⟨S850000x128, .f32⟩
  | .hbm, ⟨87, _⟩ => ⟨S850000x128, .f32⟩
  | .hbm, ⟨88, _⟩ => ⟨S850000x128, .f32⟩
  | .hbm, ⟨89, _⟩ => ⟨S_, .f32⟩
  | .hbm, ⟨90, _⟩ => ⟨S50000x128, .f32⟩
  | .hbm, ⟨91, _⟩ => ⟨S850000x1, .i32⟩
  | .hbm, ⟨92, _⟩ => ⟨S50000x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x1, .f32⟩
  | .hbm, ⟨97, _⟩ => ⟨S1x128, .f32⟩
  | .hbm, ⟨98, _⟩ => ⟨S1x128, .f32⟩
  | .hbm, ⟨99, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x1, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x1, .f32⟩
  | .local _ .vmem, ⟨42, _⟩ => ⟨S5000x128, .f32⟩
  | .local _ .vmem, ⟨43, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48_0 : Ref sig .tc := ⟨.hbm, 73, rfl⟩
abbrev main_v48_1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68_0 : Ref sig .tc := ⟨.hbm, 97, rfl⟩
abbrev main_v68_1 : Ref sig .tc := ⟨.hbm, 98, rfl⟩
abbrev main_v69 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_scratch0 : Ref sig .tc := ⟨.vmem, 32, rfl⟩
abbrev cc4_scratch1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg5_0 : Ref sig .tc := ⟨.vmem, 40, rfl⟩
abbrev cc5_stg6_0 : Ref sig .tc := ⟨.vmem, 41, rfl⟩
abbrev cc5_stg7_0 : Ref sig .tc := ⟨.vmem, 42, rfl⟩
abbrev cc5_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem7_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48_0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48_1) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v49) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68_0) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68_1) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v67) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v69) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x1 : Shape := ⟨2, ![1, 1]⟩

abbrev nBuf : Space → Nat
  | .hbm => 204
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S1, .f32⟩
  | 7 => ⟨S128x128, .f32⟩
  | 8 => ⟨S128, .f32⟩
  | 9 => ⟨S128, .f32⟩
  | 10 => ⟨S128, .f32⟩
  | 11 => ⟨S1, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S_, .f32⟩
  | 20 => ⟨S850000, .f32⟩
  | 21 => ⟨S_, .f32⟩
  | 22 => ⟨S50000, .f32⟩
  | 23 => ⟨S850000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x128, .f32⟩
  | 54 => ⟨S850000x1, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .i1⟩
  | 106 => ⟨S1x1, .f32⟩
  | 107 => ⟨S50000x128, .f32⟩
  | 108 => ⟨S50000x128, .f32⟩
  | 109 => ⟨S50000x128, .f32⟩
  | 110 => ⟨S50000, .i32⟩
  | 111 => ⟨S850000, .i32⟩
  | 112 => ⟨S850000, .i32⟩
  | 113 => ⟨S_, .f32⟩
  | 114 => ⟨S850000, .f32⟩
  | 115 => ⟨S_, .f32⟩
  | 116 => ⟨S50000, .f32⟩
  | 117 => ⟨S850000x1, .i32⟩
  | 118 => ⟨S50000, .f32⟩
  | 119 => ⟨S_, .f32⟩
  | 120 => ⟨S50000, .f32⟩
  | 121 => ⟨S50000, .i1⟩
  | 122 => ⟨S50000, .f32⟩
  | 123 => ⟨S_, .f32⟩
  | 124 => ⟨S_, .f32⟩
  | 125 => ⟨S50000, .f32⟩
  | 126 => ⟨S50000, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000, .f32⟩
  | 18 => ⟨S850000, .f32⟩
  | 19 => ⟨S50000x128, .f32⟩
  | 20 => ⟨S850000x1, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x128, .f32⟩
  | 30 => ⟨S850000x128, .f32⟩
  | 31 => ⟨S850000x128, .f32⟩
  | 32 => ⟨S_, .f32⟩
  | 33 => ⟨S50000x128, .f32⟩
  | 34 => ⟨S850000x1, .i32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .i1⟩
  | 72 => ⟨S1x1, .f32⟩
  | 73 => ⟨S50000x128, .f32⟩
  | 74 => ⟨S50000x128, .f32⟩
  | 75 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_call2_v0 : Ref sig .tc := ⟨.hbm, 124, rfl⟩
abbrev main_call2_v1 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_21 : Ref sig .tc := ⟨.hbm, 137, rfl⟩
abbrev main_v98 : Ref sig .tc := ⟨.hbm, 138, rfl⟩
abbrev main_v99 : Ref sig .tc := ⟨.hbm, 139, rfl⟩
abbrev main_c_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_23 : Ref sig .tc := ⟨.hbm, 149, rfl⟩
abbrev main_v108 : Ref sig .tc := ⟨.hbm, 150, rfl⟩
abbrev main_v109 : Ref sig .tc := ⟨.hbm, 151, rfl⟩
abbrev main_c_24 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_25 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_cst_26 : Ref sig .tc := ⟨.hbm, 167, rfl⟩
abbrev main_v123 : Ref sig .tc := ⟨.hbm, 168, rfl⟩
abbrev main_cst_27 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_28 : Ref sig .tc := ⟨.hbm, 176, rfl⟩
abbrev main_v130 : Ref sig .tc := ⟨.hbm, 177, rfl⟩
abbrev main_cst_29 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_30 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_31 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S1_S1x1_1 : S1.BroadcastsInDim S1x1 (![1] : Fin 1 → Fin S1x1.rank)
  bcast_S1x1_S50000x128_0_1 : S1x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K_Region0.lean ====
/- Region 0: one grid point multiplies a block of 5000 rows by the whole 128×128 weight matrix and stores the
   5000×128 product into its output block. The block of rows is fetched at every point, the weights once; the output
   block is written back at every point. Stated at the contents `V` the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point (fetched at the first only; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_rows : Rect S5000x128 := Rect.unit (s := S5000x128) ![0, 0] S5000x128.size inb_S5000x128_S5000x128_0_0
abbrev r0_wts : Rect S128x128 := Rect.unit (s := S128x128) ![0, 0] S128x128.size inb_S128x128_S128x128_0_0

/-- The output block after the body: its one whole-block store of the product of the rows' block and the weights. -/
def out0_2 (x0 : Vec F S5000x128 .f32) (x1 : Vec F S128x128 .f32) : Vec F S5000x128 .f32 :=
  View.canon [⟨r0_rows, k0_pay1 (View.ld x0 r0_rows) (View.ld x1 r0_wts)⟩]

/-- The one store covers the output block. -/
theorem cover0_2 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging buffers: the two inputs at read contents, the output at anything; it ends with the inputs
    as they were and the output at the product. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body at point `t` each input's buffer at its
    block and the output's at the product of the two; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Regions

end
-- ==== Proof.K_Region1Runs.lean ====
/- Region 1: the column statistics of a 50000×128 array plus a bias row, over ten grid points of 5000 rows each. Two
   scratch rows carry the running column sums of the entries and of their squares from one point to the next: the first
   point zeroes them, every point adds its block's column sums, and the last point divides both by 50000 and stores the
   mean row and the mean of squares minus the squared mean into the two output rows, which are written back then only.
   Three control cases: the first point (A), the points in between (B), the last point (C). Stated at the contents `V`
   the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias row at every point (fetched at the first only; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the ten points -/

/-- "This is the first point": the condition of the zeroing branch, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the last point": the condition of the finishing branch. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and are not written back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The class invariant with the two scratch rows taken out of the scoped rest, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body in each case: the pieces its stores leave, found by running it -/

set_option maxHeartbeats 4000000 in
/-- Case A (first point): both scratch rows at anything; the two output rows untouched. -/
noncomputable def kernelRun1_A (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case B (a point in between): the scratch rows at what the point before left; the two output rows untouched. -/
noncomputable def kernelRun1_B (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case C (last point): the scratch rows at what the point before left; the two output rows stored. -/
noncomputable def kernelRun1_C (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Regions

end
-- ==== Proof.K_Region1.lean ====
/- Region 1, second half: what the two output rows and the two scratch rows hold after each grid point (by recursion
   on the point, through the three cases), the region's invariant — before the first point the scratch rows hold
   anything, afterwards the running sums the point before left —, the proof data and the body obligation. -/
import proofs.«112204_j28269474742836_1_alg».proof.Proof.K_Region1Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

abbrev Row1 := Vec F S1x128 .f32

/-! ## The pieces of each case cover the rows they are stored into -/

theorem scover1_A_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    ∀ y : S1x128.Idx, ∃ pc ∈ (kernelRun1_A c i arg1 harg1 arg2 harg2 arg3 harg3 arg4 harg4 arg5 harg5 arg6 harg6 hc0 hc1 x0 x1).2.2.1, y ∈ pc.1.set :=
  fun y => View.cover_of_tiledL (kernelRun1_A c i arg1 harg1 arg2 harg2 arg3 harg3 arg4 harg4 arg5 harg5 arg6 harg6 hc0 hc1 x0 x1).2.2.1 S1x128.size (by sl_kernel_rfl) y
theorem scover1_A_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    ∀ y : S1x128.Idx, ∃ pc ∈ (kernelRun1_A c i arg1 harg1 arg2 harg2 arg3 harg3 arg4 harg4 arg5 harg5 arg6 harg6 hc0 hc1 x0 x1).2.2.2.1, y ∈ pc.1.set :=
  fun y => View.cover_of_tiledL (kernelRun1_A c i arg1 harg1 arg2 harg2 arg3 harg3 arg4 harg4 arg5 harg5 arg6 harg6 hc0 hc1 x0 x1).2.2.2.1 S1x128.size (by sl_kernel_rfl) y
theorem scover1_B_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 xs0 xs1 : Vec F S1x128 .f32) :
    ∀ y : S1x128.Idx, ∃ pc ∈ (kernelRun1_B c i arg1 harg1 arg2 harg2 arg3 harg3 arg4 harg4 arg5 harg5 arg6 harg6 hc0 hc1 x0 x1 xs0 xs1).2.2.1, y ∈ pc.1.set :=
  fun y => View.cover_of_tiledL (kernelRun1_B c i arg1 harg1 arg2 harg2 arg3 harg3 arg4 harg4 arg5 harg5 arg6 harg6 hc0 hc1 x0 x1 xs0 xs1).2.2.1 S1x128.size (by sl_kernel_rfl) y
theorem scover1_B_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 xs0 xs1 : Vec F S1x128 .f32) :
    ∀ y : S1x128.Idx, ∃ pc ∈ (kernelRun1_B c i arg1 harg1 arg2 harg2 arg3 harg3 arg4 harg4 arg5 harg5 arg6 harg6 hc0 hc1 x0 x1 xs0 xs1).2.2.2.1, y ∈ pc.1.set :=
  fun y => View.cover_of_tiledL (kernelRun1_B c i arg1 harg1 arg2 harg2 arg3 harg3 arg4 harg4 arg5 harg5 arg6 harg6 hc0 hc1 x0 x1 xs0 xs1).2.2.2.1 S1x128.size (by sl_kernel_rfl) y
theorem scover1_C_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.2.1, y ∈ pc.1.set :=
  fun y => View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.2.2.1, y ∈ pc.1.set :=
  fun y => View.cover_of_tiledL (kernelRun1_C c i arg1 harg1 arg2 harg2 arg3 harg3 arg4 harg4 arg5 harg5 arg6 harg6 hc0 hc1 x0 x1 xs0 xs1).2.2.2.1 S1x128.size (by sl_kernel_rfl) y
theorem cover1_C_2 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).1, y ∈ pc.1.set :=
  fun y => View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.1, y ∈ pc.1.set :=
  fun y => View.cover_of_tiledL (kernelRun1_C c i arg1 harg1 arg2 harg2 arg3 harg3 arg4 harg4 arg5 harg5 arg6 harg6 hc0 hc1 x0 x1 xs0 xs1).2.1 S1x128.size (by sl_kernel_rfl) y

/-! ## What the four rows hold after each point -/

/-- After a first point: (mean row, variance row, sum row, square-sum row); the two output rows are placeholders there. -/
def stepA1 (c : Dev nD) (t : Fin cfg1.N) (h0 : t.val % 10 = 0) (h1 : ¬t.val % 10 = 9) : Row1 (F := F) × Row1 (F := F) × Row1 (F := F) × Row1 (F := F) :=
  (VO1_2.read (Elt F) (VO1_2.writes (Elt F) VO1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).1),
   VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.2.2.1))

/-- After a point in between, over the scratch rows the point before left. -/
def stepB1 (c : Dev nD) (t : Fin cfg1.N) (h0 : ¬t.val % 10 = 0) (h1 : ¬t.val % 10 = 9) (xs0 xs1 : Row1 (F := F)) : Row1 (F := F) × Row1 (F := F) × Row1 (F := F) × Row1 (F := F) :=
  (VO1_2.read (Elt F) (VO1_2.writes (Elt F) VO1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).1),
   VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.2.2.1))

/-- After the last point, over the scratch rows the point before left. -/
def stepC1 (c : Dev nD) (t : Fin cfg1.N) (h0 : ¬t.val % 10 = 0) (h1 : t.val % 10 = 9) (xs0 xs1 : Row1 (F := F)) : Row1 (F := F) × Row1 (F := F) × Row1 (F := F) × Row1 (F := F) :=
  (VO1_2.read (Elt F) (VO1_2.writes (Elt F) VO1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).1),
   VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.2.2.1))

/-- No point after the first is a first point (there are ten). -/
theorem ne0_1 {n : ℕ} (hn : n + 1 < cfg1.N) : ¬(n + 1) % 10 = 0 := by
  have hN : n + 1 < 10 := lt_of_lt_of_eq hn (show cfg1.N = 10 from N_1); omega

/-- THE ACCUMULATION: the four rows after the body at position `n`. -/
def outsAt1 (c : Dev nD) : (n : ℕ) → n < cfg1.N → Row1 (F := F) × Row1 (F := F) × Row1 (F := F) × Row1 (F := F)
  | 0, hn => stepA1 V c ⟨0, hn⟩ (Nat.zero_mod _) (by show ¬(0 : ℕ) % 10 = 9; decide)
  | n + 1, hn =>
    if h1 : (n + 1) % 10 = 9 then
      stepC1 V c ⟨n + 1, hn⟩ (ne0_1 hn) h1 (outsAt1 c n (Nat.lt_of_succ_lt hn)).2.2.1 (outsAt1 c n (Nat.lt_of_succ_lt hn)).2.2.2
    else
      stepB1 V c ⟨n + 1, hn⟩ (ne0_1 hn) h1 (outsAt1 c n (Nat.lt_of_succ_lt hn)).2.2.1 (outsAt1 c n (Nat.lt_of_succ_lt hn)).2.2.2

theorem outsAt1_A (c : Dev nD) (t : Fin cfg1.N) (h0 : t.val % 10 = 0) (h1 : ¬t.val % 10 = 9) :
    outsAt1 V c t.val t.isLt = stepA1 V c t h0 h1 := by
  obtain ⟨n, hn⟩ := t
  cases n with
  | zero => exact rfl
  | succ n => exact absurd h0 (ne0_1 hn)

theorem outsAt1_B (c : Dev nD) (t : Fin cfg1.N) (h0 : ¬t.val % 10 = 0) (h1 : ¬t.val % 10 = 9) :
    outsAt1 V c t.val t.isLt = stepB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt1_C (c : Dev nD) (t : Fin cfg1.N) (h0 : ¬t.val % 10 = 0) (h1 : t.val % 10 = 9) :
    outsAt1 V c t.val t.isLt = stepC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

/-! ## The invariant -/

/-- Before position `n`: at the first point the class invariant (scratch at anything); afterwards the two scratch rows at
    the running sums the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 10 = 9
  · -- the last point
    have h0 : ¬t.val % 10 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold stepC1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 _ _ _ _ _ _ _ _ _ _ _ _ _ _ _ _ _ _ _ _)
          · unfold owns; iexists _; isplitr
            swap; · iexact HS1
            ipureintro; exact View.read_writes_of_cover _ _ _ _ _ (scover1_C_1 _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 _ _ _ _ _ _ _ _ _ _ _ _ _ _ _ _ _ _ _ _)
    · unfold owns; iexists _; isplitr
      swap; · iexact H3
      ipureintro; exact View.read_writes_of_cover _ _ _ _ _ (cover1_C_3 _ _ _ _ _ _ _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 10 = 0
    · -- the first point
      have hz : t.val = 0 := by omega
      rw [outsAt1_A V c t h0 h1]
      unfold stepA1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 _ _ _ _ _ _ _ _ _ _ _ _ _ _ _ _ _ _)
            · unfold owns; iexists _; isplitr
              swap; · iexact HS1
              ipureintro; exact View.read_writes_of_cover _ _ _ _ _ (scover1_A_1 _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · -- a point in between
      have hz : t.val ≠ 0 := by omega
      rw [outsAt1_B V c t h0 h1]
      unfold stepB1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 _ _ _ _ _ _ _ _ _ _ _ _ _ _ _ _ _ _ _ _)
            · unfold owns; iexists _; isplitr
              swap; · iexact HS1
              ipureintro; exact View.read_writes_of_cover _ _ _ _ _ (scover1_B_1 _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch rows' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Regions

end
-- ==== Proof.K_Region2.lean ====
/- Region 2: one grid point normalises a block of 5000 rows — add the bias row, subtract the mean row, scale by the
   inverse square root of (variance row + ε), by the gain row, add the offset row, then keep positive entries and
   scale the others by the slope — and stores the 5000×128 result into its output block. The rows' block is fetched at
   every point, the six small operands once; the output block is written back at every point. Stated at the contents
   `V` the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1's staging buffer holds its whole (one-block) array at every point: fetched at the first only, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2's staging buffer holds its whole (one-block) array at every point: fetched at the first only, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3's staging buffer holds its whole (one-block) array at every point: fetched at the first only, its block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4's staging buffer holds its whole (one-block) array at every point: fetched at the first only, its block index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5's staging buffer holds its whole (one-block) array at every point: fetched at the first only, its block index never moves. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6's staging buffer holds its whole (one-block) array at every point: fetched at the first only, its block index never moves. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev r2_rows : Rect S5000x128 := Rect.unit (s := S5000x128) ![0, 0] S5000x128.size inb_S5000x128_S5000x128_0_0
abbrev r2_row : Rect S1x128 := Rect.unit (s := S1x128) ![0, 0] S1x128.size inb_S1x128_S1x128_0_0
abbrev r2_one : Rect S1x1 := Rect.unit (s := S1x1) ![0, 0] S1x1.size inb_S1x1_S1x1_0_0

/-- The output block after the body: its one whole-block store of the normalised, rectified rows. -/
def out2_7 (x0 : Vec F S5000x128 .f32) (x1 x2 x3 x4 x5 : Vec F S1x128 .f32) (x6 : Vec F S1x1 .f32) : Vec F S5000x128 .f32 :=
  View.canon [⟨r2_rows, k2_pay1 (View.ld x0 r2_rows) (View.ld x1 r2_row) (View.ld x2 r2_row) (View.ld x3 r2_row) (View.ld x4 r2_row) (View.ld x5 r2_row) (View.ld x6 r2_one)⟩]

/-- The one store covers the output block. -/
theorem cover2_7 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 2000000 in
/-- The body on whole staging buffers: the seven inputs at read contents, the output at anything; it ends with the inputs
    as they were and the output at the normalised rows. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S5000x128 .f32) (harg8 : arg8.IsWhole)
    (x0 : Vec F S5000x128 .f32) (x1 x2 x3 x4 x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__normalize_kernel i arg1 harg1 arg2 harg2 arg3 harg3 arg4 harg4 arg5 harg5 arg6 harg6 arg7 harg7 arg8 harg8) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body at point `t` each input's buffer at its
    block and the output's at the normalised rows; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Regions

end
-- ==== Proof.K_Region3.lean ====
/- Region 3: one grid point multiplies a block of 5000 rows by the whole 128×128 weight matrix and stores the
   5000×128 product into its output block. The block of rows is fetched at every point, the weights once; the output
   block is written back at every point. Stated at the contents `V` the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows' staging buffer holds the point's block of rows, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight matrix at every point (fetched at the first only; its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_rows : Rect S5000x128 := Rect.unit (s := S5000x128) ![0, 0] S5000x128.size inb_S5000x128_S5000x128_0_0
abbrev r3_wts : Rect S128x128 := Rect.unit (s := S128x128) ![0, 0] S128x128.size inb_S128x128_S128x128_0_0

/-- The output block after the body: its one whole-block store of the product of the rows' block and the weights. -/
def out3_2 (x0 : Vec F S5000x128 .f32) (x1 : Vec F S128x128 .f32) : Vec F S5000x128 .f32 :=
  View.canon [⟨r3_rows, k3_pay1 (View.ld x0 r3_rows) (View.ld x1 r3_wts)⟩]

/-- The one store covers the output block. -/
theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in
/-- The body on whole staging buffers: the two inputs at read contents, the output at anything; it ends with the inputs
    as they were and the output at the product. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as found; after the body at point `t` each input's buffer at its
    block and the output's at the product of the two; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Regions

end
-- ==== Proof.K_Region4Runs.lean ====
/- Region 4: the column statistics of a 50000×128 array plus a bias row, over ten grid points of 5000 rows each. Two
   scratch rows carry the running column sums of the entries and of their squares from one point to the next: the first
   point zeroes them, every point adds its block's column sums, and the last point divides both by 50000 and stores the
   mean row and the mean of squares minus the squared mean into the two output rows, which are written back then only.
   Three control cases: the first point (A), the points in between (B), the last point (C). Stated at the contents `V`
   the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' staging buffer holds the point's block of rows, whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the bias row at every point (fetched at the first only; its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions, decided over the ten points -/

/-- "This is the first point": the condition of the zeroing branch, from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- "This is the last point": the condition of the finishing branch. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two output rows are idle and are not written back. -/
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The memrefs the body is called with -/

abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows taken out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body in each case: the pieces its stores leave, found by running it -/

set_option maxHeartbeats 4000000 in
/-- Case A (first point): both scratch rows at anything; the two output rows untouched. -/
noncomputable def kernelRun4_A (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨[], [], ?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case B (a point in between): the scratch rows at what the point before left; the two output rows untouched. -/
noncomputable def kernelRun4_B (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨[], [], ?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case C (last point): the scratch rows at what the point before left; the two output rows stored. -/
noncomputable def kernelRun4_C (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, ?_, ?_, fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Regions

end
-- ==== Proof.K_Region4.lean ====
/- Region 4, second half: what the two output rows and the two scratch rows hold after each grid point (by recursion
   on the point, through the three cases), the region's invariant — before the first point the scratch rows hold
   anything, afterwards the running sums the point before left —, the proof data and the body obligation. -/
import proofs.«112204_j28269474742836_1_alg».proof.Proof.K_Region4Runs

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

abbrev Row4 := Vec F S1x128 .f32

/-! ## The pieces of each case cover the rows they are stored into -/

theorem scover4_A_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    ∀ y : S1x128.Idx, ∃ pc ∈ (kernelRun4_A c i arg1 harg1 arg2 harg2 arg3 harg3 arg4 harg4 arg5 harg5 arg6 harg6 hc0 hc1 x0 x1).2.2.1, y ∈ pc.1.set :=
  fun y => View.cover_of_tiledL (kernelRun4_A c i arg1 harg1 arg2 harg2 arg3 harg3 arg4 harg4 arg5 harg5 arg6 harg6 hc0 hc1 x0 x1).2.2.1 S1x128.size (by sl_kernel_rfl) y
theorem scover4_A_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    ∀ y : S1x128.Idx, ∃ pc ∈ (kernelRun4_A c i arg1 harg1 arg2 harg2 arg3 harg3 arg4 harg4 arg5 harg5 arg6 harg6 hc0 hc1 x0 x1).2.2.2.1, y ∈ pc.1.set :=
  fun y => View.cover_of_tiledL (kernelRun4_A c i arg1 harg1 arg2 harg2 arg3 harg3 arg4 harg4 arg5 harg5 arg6 harg6 hc0 hc1 x0 x1).2.2.2.1 S1x128.size (by sl_kernel_rfl) y
theorem scover4_B_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 xs0 xs1 : Vec F S1x128 .f32) :
    ∀ y : S1x128.Idx, ∃ pc ∈ (kernelRun4_B c i arg1 harg1 arg2 harg2 arg3 harg3 arg4 harg4 arg5 harg5 arg6 harg6 hc0 hc1 x0 x1 xs0 xs1).2.2.1, y ∈ pc.1.set :=
  fun y => View.cover_of_tiledL (kernelRun4_B c i arg1 harg1 arg2 harg2 arg3 harg3 arg4 harg4 arg5 harg5 arg6 harg6 hc0 hc1 x0 x1 xs0 xs1).2.2.1 S1x128.size (by sl_kernel_rfl) y
theorem scover4_B_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 xs0 xs1 : Vec F S1x128 .f32) :
    ∀ y : S1x128.Idx, ∃ pc ∈ (kernelRun4_B c i arg1 harg1 arg2 harg2 arg3 harg3 arg4 harg4 arg5 harg5 arg6 harg6 hc0 hc1 x0 x1 xs0 xs1).2.2.2.1, y ∈ pc.1.set :=
  fun y => View.cover_of_tiledL (kernelRun4_B c i arg1 harg1 arg2 harg2 arg3 harg3 arg4 harg4 arg5 harg5 arg6 harg6 hc0 hc1 x0 x1 xs0 xs1).2.2.2.1 S1x128.size (by sl_kernel_rfl) y
theorem scover4_C_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.2.1, y ∈ pc.1.set :=
  fun y => View.cover_of_tiledL (kernelRun4_C c i arg1 harg1 arg2 harg2 arg3 harg3 arg4 harg4 arg5 harg5 arg6 harg6 hc0 hc1 x0 x1 xs0 xs1).2.2.1 S1x128.size (by sl_kernel_rfl) y
theorem scover4_C_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.2.2.1, y ∈ pc.1.set :=
  fun y => View.cover_of_tiledL (kernelRun4_C c i arg1 harg1 arg2 harg2 arg3 harg3 arg4 harg4 arg5 harg5 arg6 harg6 hc0 hc1 x0 x1 xs0 xs1).2.2.2.1 S1x128.size (by sl_kernel_rfl) y
theorem cover4_C_2 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).1, y ∈ pc.1.set :=
  fun y => View.cover_of_tiledL (kernelRun4_C c i arg1 harg1 arg2 harg2 arg3 harg3 arg4 harg4 arg5 harg5 arg6 harg6 hc0 hc1 x0 x1 xs0 xs1).1 S1x128.size (by sl_kernel_rfl) y
theorem cover4_C_3 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.1, y ∈ pc.1.set :=
  fun y => View.cover_of_tiledL (kernelRun4_C c i arg1 harg1 arg2 harg2 arg3 harg3 arg4 harg4 arg5 harg5 arg6 harg6 hc0 hc1 x0 x1 xs0 xs1).2.1 S1x128.size (by sl_kernel_rfl) y

/-! ## What the four rows hold after each point -/

/-- After a first point: (mean row, variance row, sum row, square-sum row); the two output rows are placeholders there. -/
def stepA4 (c : Dev nD) (t : Fin cfg4.N) (h0 : t.val % 10 = 0) (h1 : ¬t.val % 10 = 9) : Row4 (F := F) × Row4 (F := F) × Row4 (F := F) × Row4 (F := F) :=
  (VO4_2.read (Elt F) (VO4_2.writes (Elt F) VO4_2.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).1),
   VO4_3.read (Elt F) (VO4_3.writes (Elt F) VO4_3.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.1),
   VS4_0.read (Elt F) (VS4_0.writes (Elt F) VS4_0.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.2.1),
   VS4_1.read (Elt F) (VS4_1.writes (Elt F) VS4_1.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.2.2.1))

/-- After a point in between, over the scratch rows the point before left. -/
def stepB4 (c : Dev nD) (t : Fin cfg4.N) (h0 : ¬t.val % 10 = 0) (h1 : ¬t.val % 10 = 9) (xs0 xs1 : Row4 (F := F)) : Row4 (F := F) × Row4 (F := F) × Row4 (F := F) × Row4 (F := F) :=
  (VO4_2.read (Elt F) (VO4_2.writes (Elt F) VO4_2.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).1),
   VO4_3.read (Elt F) (VO4_3.writes (Elt F) VO4_3.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.1),
   VS4_0.read (Elt F) (VS4_0.writes (Elt F) VS4_0.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.2.1),
   VS4_1.read (Elt F) (VS4_1.writes (Elt F) VS4_1.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.2.2.1))

/-- After the last point, over the scratch rows the point before left. -/
def stepC4 (c : Dev nD) (t : Fin cfg4.N) (h0 : ¬t.val % 10 = 0) (h1 : t.val % 10 = 9) (xs0 xs1 : Row4 (F := F)) : Row4 (F := F) × Row4 (F := F) × Row4 (F := F) × Row4 (F := F) :=
  (VO4_2.read (Elt F) (VO4_2.writes (Elt F) VO4_2.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).1),
   VO4_3.read (Elt F) (VO4_3.writes (Elt F) VO4_3.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.1),
   VS4_0.read (Elt F) (VS4_0.writes (Elt F) VS4_0.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.2.1),
   VS4_1.read (Elt F) (VS4_1.writes (Elt F) VS4_1.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.2.2.1))

/-- No point after the first is a first point (there are ten). -/
theorem ne0_4 {n : ℕ} (hn : n + 1 < cfg4.N) : ¬(n + 1) % 10 = 0 := by
  have hN : n + 1 < 10 := lt_of_lt_of_eq hn (show cfg4.N = 10 from N_4); omega

/-- THE ACCUMULATION: the four rows after the body at position `n`. -/
def outsAt4 (c : Dev nD) : (n : ℕ) → n < cfg4.N → Row4 (F := F) × Row4 (F := F) × Row4 (F := F) × Row4 (F := F)
  | 0, hn => stepA4 V c ⟨0, hn⟩ (Nat.zero_mod _) (by show ¬(0 : ℕ) % 10 = 9; decide)
  | n + 1, hn =>
    if h1 : (n + 1) % 10 = 9 then
      stepC4 V c ⟨n + 1, hn⟩ (ne0_4 hn) h1 (outsAt4 c n (Nat.lt_of_succ_lt hn)).2.2.1 (outsAt4 c n (Nat.lt_of_succ_lt hn)).2.2.2
    else
      stepB4 V c ⟨n + 1, hn⟩ (ne0_4 hn) h1 (outsAt4 c n (Nat.lt_of_succ_lt hn)).2.2.1 (outsAt4 c n (Nat.lt_of_succ_lt hn)).2.2.2

theorem outsAt4_A (c : Dev nD) (t : Fin cfg4.N) (h0 : t.val % 10 = 0) (h1 : ¬t.val % 10 = 9) :
    outsAt4 V c t.val t.isLt = stepA4 V c t h0 h1 := by
  obtain ⟨n, hn⟩ := t
  cases n with
  | zero => exact rfl
  | succ n => exact absurd h0 (ne0_4 hn)

theorem outsAt4_B (c : Dev nD) (t : Fin cfg4.N) (h0 : ¬t.val % 10 = 0) (h1 : ¬t.val % 10 = 9) :
    outsAt4 V c t.val t.isLt = stepB4 V c t h0 h1 (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt4_C (c : Dev nD) (t : Fin cfg4.N) (h0 : ¬t.val % 10 = 0) (h1 : t.val % 10 = 9) :
    outsAt4 V c t.val t.isLt = stepC4 V c t h0 h1 (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

/-! ## The invariant -/

/-- Before position `n`: at the first point the class invariant (scratch at anything); afterwards the two scratch rows at
    the running sums the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 10 = 9
  · -- the last point
    have h0 : ¬t.val % 10 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [show (dat4 V c).leavesExact 3 t = owns (c : Thread nD τ) (ms4_3 t) fullShare ((dat4 V c).after 3 t) from by
      unfold Dat.leavesExact; rw [liveAt4_3 t ((hcond4_1 t).mpr h1)], after4_3]
    rw [outsAt4_C V c t h0 h1]
    unfold stepC4; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 _ _ _ _ _ _ _ _ _ _ _ _ _ _ _ _ _ _ _ _)
          · unfold owns; iexists _; isplitr
            swap; · iexact HS1
            ipureintro; exact View.read_writes_of_cover _ _ _ _ _ (scover4_C_1 _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_C_2 _ _ _ _ _ _ _ _ _ _ _ _ _ _ _ _ _ _ _ _)
    · unfold owns; iexists _; isplitr
      swap; · iexact H3
      ipureintro; exact View.read_writes_of_cover _ _ _ _ _ (cover4_C_3 _ _ _ _ _ _ _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    by_cases h0 : t.val % 10 = 0
    · -- the first point
      have hz : t.val = 0 := by omega
      rw [outsAt4_A V c t h0 h1]
      unfold stepA4; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 _ _ _ _ _ _ _ _ _ _ _ _ _ _ _ _ _ _)
            · unfold owns; iexists _; isplitr
              swap; · iexact HS1
              ipureintro; exact View.read_writes_of_cover _ _ _ _ _ (scover4_A_1 _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · -- a point in between
      have hz : t.val ≠ 0 := by omega
      rw [outsAt4_B V c t h0 h1]
      unfold stepB4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 _ _ _ _ _ _ _ _ _ _ _ _ _ _ _ _ _ _ _ _)
            · unfold owns; iexists _; isplitr
              swap; · iexact HS1
              ipureintro; exact View.read_writes_of_cover _ _ _ _ _ (scover4_B_1 _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the scratch rows' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.Kernel.Regions

end
-- ==== Proof.K_Region5.lean ====
/- Region 5: one grid point normalises a block of 5000 rows — add the bias row, subtract the mean row, scale by the
   inverse square root of (variance row + ε), by the gain row, add the offset row, then keep positive entries and
   scale the others by the slope — and stores the 5000×128 result into its output block. The rows' block is fetched at
   every point, the six small operands once; the output block is written back at every point. Stated at the contents
   `V` the region is entered from, at any float instance. -/
import proofs.«112204_j28269474742836_1_alg».proof.Proof.Gen.Kernel.Launch
import proofs.«112204_j28269474742836_1_alg».proof.Proof.Gen.Kernel.Skeleton
import proofs.«112204_j28269474742836_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows' staging buffer holds the point's block of rows, whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1's staging buffer holds its whole (one-block) array at every point: fetched at the first only, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2's staging buffer holds its whole (one-block) array at every point: fetched at the first only, its block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3's staging buffer holds its whole (one-block) array at every point: fetched at the first only, its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Window 4's staging buffer holds its whole (one-block) array at every point: fetched at the first only, its block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Window 5's staging buffer holds its whole (one-block) array at every point: fetched at the first only, its block index never moves. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Window 6's staging buffer holds its whole (one-block) array at every point: fetched at the first only, its block index never moves. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev r5_rows : Rect S5000x128 := Rect.unit (s := S5000x128) ![0, 0] S5000x128.size inb_S5000x128_S5000x128_0_0
abbrev r5_row : Rect S1x128 := Rect.unit (s := S1x128) ![0, 0] S1x128.size inb_S1x128_S1x128_0_0
abbrev r5_one : Rect S1x1 := Rect.unit (s := S1x1) ![0, 0] S1x1.size inb_S1x1_S1x1_0_0

/-- The output block after the body: its one whole-block store of the normalised, rectified rows. -/
def out5_7 (x0 : Vec F S5000x128 .f32) (x1 x2 x3 x4 x5 : Vec F S1x128 .f32) (x6 : Vec F S1x1 .f32) : Vec F S5000x128 .f32 :=
  View.canon [⟨r5_rows, k5_pay1 (View.ld x0 r5_rows) (View.ld x1 r5_row) (View.ld x2 r5_row) (View.ld x3 r5_row) (View.ld x4 r5_row) (View.ld x5 r5_row) (View.ld x6 r5_one)⟩]

/-- The one store covers the output block. -/
theorem cover5_7 (p0 : Vec F S5000x128 .f32) (y : S5000x128.Idx) :
    ∃ pc ∈ ([⟨r5_rows, p0⟩] : List (View.Piece (Elt F) S5000x128 .f32)), y ∈ pc.1.set :=
  View.cover_of_tiled [⟨r5_rows, p0⟩] S5000x128.size (by rfl) y

set_option maxHeartbeats 2000000 in
/-- The body on whole staging buffers: the seven inputs at read contents, the output at anything; it ends with the inputs
    as they were and the output at the normalised rows. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S5000x128 .f32) (harg8 : arg8.IsWhole)
    (x0 : Vec F S5000x128 .f32) (x1 x2 x3 x4 x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E (cc5__normalize_kernel i arg1 harg1 arg2 harg2 arg3 harg3 arg4 harg4 arg5 harg5 arg6 harg6 arg7 harg7 arg8 harg8) K := by
  simp only [cc5__normalize_kernel_eq_skeleton]; unfold cc5__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The region's proof data on core `c`: the arrays as found; after the body at point `t` each input's buffer at its
    block and the output's at the normalised rows; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Regions

end
-- ==== Proof.K_Run.lean ====
/- The whole run of the program with its six kernel regions: the contents of every unscoped buffer at each boundary
   between a host stretch and a region, from the launch memory on (a region leaves its output arrays at what its
   write-backs fold to and every other buffer as it found it); each region as a segment over the thread state "every
   unscoped buffer at the boundary's contents, the generator register at some state, nothing owed"; and the run: every
   weakly fair execution terminates with every unscoped buffer at the last boundary's contents. The frame claim is that
   run read at the twelve argument arrays, which no host operation writes and no region changes. -/
import proofs.«112204_j28269474742836_1_alg».proof.Proof.K_Region0
import proofs.«112204_j28269474742836_1_alg».proof.Proof.K_Region1
import proofs.«112204_j28269474742836_1_alg».proof.Proof.K_Region2
import proofs.«112204_j28269474742836_1_alg».proof.Proof.K_Region3
import proofs.«112204_j28269474742836_1_alg».proof.Proof.K_Region4
import proofs.«112204_j28269474742836_1_alg».proof.Proof.K_Region5
import proofs.«112204_j28269474742836_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what its write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what its write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At region 2's exit: its arrays at what its write-backs leave, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- At region 5's exit: its arrays at what its write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-! ## The arguments end as launched -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := (W8_arr m ρ c 1).trans (((dat3 (V7 m ρ) c).arrAt_in 1 rfl _).trans (A_eq3 (V7 m ρ) c 1))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W11_main_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W11_main_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W11_main_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W11_main_arg11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl

/-! ## The proof data family and the thread state -/

def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V7 m ρ) c
  | ⟨4, _⟩ => fun c => dat4 (V9 m ρ) c
  | ⟨5, _⟩ => fun c => dat5 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W3`, left with them at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m ρ) c)
    unfold Pipeline.ΦA
    iintro ⟨Hp, -, Hr⟩
    isplitl [Hr]; · iexact Hr
    iexact Hp
  hout c := by
    rw [Pipeline.ownSems0_none]
    refine (hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W9`, left with them at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V9 m ρ) c)
    unfold Pipeline.ΦA
    iintro ⟨Hp, -, Hr⟩
    isplitl [Hr]; · iexact Hr
    iexact Hp
  hout c := by
    rw [Pipeline.ownSems0_none]
    refine (hout4 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W10`, left with them at `W11`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .region (reg3 m ρ),
    .host (hseg hostOps4 hostOps4_sub hostOps4_fresh (W8 m ρ)),
    .region (reg4 m ρ),
    .region (reg5 m ρ) ]

/-- The last region's exit state is the kit's final state beside the core owing nothing (the same three conjuncts, regrouped). -/
theorem last_link (c : Dev nD) :
    iprop(StableHlo.held (c : Thread nD τ) (Pipeline.ucRefs τ sig) (W11 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]
    · iexact Hh
    iexact Hp
  iexact HO

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c)⟩) (run m ρ)

end Cert.Kernel.Run

end
-- ==== Proof.KI_Region0.lean ====
/- Region 0: one grid point multiplies a block of 5000 rows by the whole 128×128 weight matrix and stores the
   5000×128 product into its output block. The block of rows is fetched at every point, the weights once; the output
   block is written back at every point. Stated at the contents `V` the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' staging buffer holds the point's block of rows, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point (fetched at the first only; its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_rows : Rect S5000x128 := Rect.unit (s := S5000x128) ![0, 0] S5000x128.size inb_S5000x128_S5000x128_0_0
abbrev r0_wts : Rect S128x128 := Rect.unit (s := S128x128) ![0, 0] S128x128.size inb_S128x128_S128x128_0_0

/-- The output block after the body: its one whole-block store of the product of the rows' block and the weights. -/
def out0_2 (x0 : Vec F S5000x128 .f32) (x1 : Vec F S128x128 .f32) : Vec F S5000x128 .f32 :=
  View.canon [⟨r0_rows, k0_pay1 (View.ld x0 r0_rows) (View.ld x1 r0_wts)⟩]

/-- The one store covers the output block. -/
theorem cover0_2 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

set_option maxHeartbeats 1000000 in
/-- The body on whole staging buffers: the two inputs at read contents, the output at anything; it ends with the inputs
    as they were and the output at the product. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as found; after the body at point `t` each input's buffer at its
    block and the output's at the product of the two; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Regions

end
-- ==== Proof.KI_Region1Runs.lean ====
/- Region 1: the column statistics of a 50000×128 array plus a bias row, over ten grid points of 5000 rows each. Two
   scratch rows carry the running column sums of the entries and of their squares from one point to the next: the first
   point zeroes them, every point adds its block's column sums, and the last point divides both by 50000 and stores the
   mean row and the mean of squares minus the squared mean into the two output rows, which are written back then only.
   Three control cases: the first point (A), the points in between (B), the last point (C). Stated at the contents `V`
   the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows' staging buffer holds the point's block of rows, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer holds the bias row at every point (fetched at the first only; its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions, decided over the ten points -/

/-- "This is the first point": the condition of the zeroing branch, from the grid coordinate. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)
/-- "This is the last point": the condition of the finishing branch. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the two output rows are idle and are not written back. -/
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
/-- At the last point they are live. -/
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## The memrefs the body is called with -/

abbrev VO1_2 : View sig .tc .vmem S1x128 .f32 := (Memref.whole cc1_stg2_0 : Memref sig .tc .vmem S1x128 .f32).view
abbrev VO1_3 : View sig .tc .vmem S1x128 .f32 := (Memref.whole cc1_stg3_0 : Memref sig .tc .vmem S1x128 .f32).view
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

/-- The class invariant with the two scratch rows taken out of the scoped rest, each owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## The body in each case: the pieces its stores leave, found by running it -/

set_option maxHeartbeats 4000000 in
/-- Case A (first point): both scratch rows at anything; the two output rows untouched. -/
noncomputable def kernelRun1_A (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i)
    (x0 : Vec F S5000x128 .f32) (x1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case B (a point in between): the scratch rows at what the point before left; the two output rows untouched. -/
noncomputable def kernelRun1_B (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨[], [], ?_, ?_, fun xi2 xi3 E K => ?run⟩
  case run =>
    simp only [cc1__stats_kernel_eq_skeleton]; unfold cc1__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case C (last point): the scratch rows at what the point before left; the two output rows stored. -/
noncomputable def kernelRun1_C (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__stats_kernel i arg1 harg1 arg2 harg2 arg3 harg3 arg4 harg4 arg5 harg5 arg6 harg6) K } := by
  refine ⟨?_, ?_, ?_, ?_, fun E K => ?run⟩
  case run =>
    simp only [cc1__stats_kernel_eq_skeleton]; unfold cc1__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Regions

end
-- ==== Proof.KI_Region1.lean ====
/- Region 1, second half: what the two output rows and the two scratch rows hold after each grid point (by recursion
   on the point, through the three cases), the region's invariant — before the first point the scratch rows hold
   anything, afterwards the running sums the point before left —, the proof data and the body obligation. -/
import proofs.«112204_j28269474742836_1_alg».proof.Proof.KI_Region1Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

abbrev Row1 := Vec F S1x128 .f32

/-! ## The pieces of each case cover the rows they are stored into -/

theorem scover1_A_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    ∀ y : S1x128.Idx, ∃ pc ∈ (kernelRun1_A c i arg1 harg1 arg2 harg2 arg3 harg3 arg4 harg4 arg5 harg5 arg6 harg6 hc0 hc1 x0 x1).2.2.1, y ∈ pc.1.set :=
  fun y => View.cover_of_tiledL (kernelRun1_A c i arg1 harg1 arg2 harg2 arg3 harg3 arg4 harg4 arg5 harg5 arg6 harg6 hc0 hc1 x0 x1).2.2.1 S1x128.size (by sl_kernel_rfl) y
theorem scover1_A_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond1_0 i) (hc1 : ¬cond1_1 i) (x0 : Vec F S5000x128 .f32) (x1 : Vec F S1x128 .f32) :
    ∀ y : S1x128.Idx, ∃ pc ∈ (kernelRun1_A c i arg1 harg1 arg2 harg2 arg3 harg3 arg4 harg4 arg5 harg5 arg6 harg6 hc0 hc1 x0 x1).2.2.2.1, y ∈ pc.1.set :=
  fun y => View.cover_of_tiledL (kernelRun1_A c i arg1 harg1 arg2 harg2 arg3 harg3 arg4 harg4 arg5 harg5 arg6 harg6 hc0 hc1 x0 x1).2.2.2.1 S1x128.size (by sl_kernel_rfl) y
theorem scover1_B_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 xs0 xs1 : Vec F S1x128 .f32) :
    ∀ y : S1x128.Idx, ∃ pc ∈ (kernelRun1_B c i arg1 harg1 arg2 harg2 arg3 harg3 arg4 harg4 arg5 harg5 arg6 harg6 hc0 hc1 x0 x1 xs0 xs1).2.2.1, y ∈ pc.1.set :=
  fun y => View.cover_of_tiledL (kernelRun1_B c i arg1 harg1 arg2 harg2 arg3 harg3 arg4 harg4 arg5 harg5 arg6 harg6 hc0 hc1 x0 x1 xs0 xs1).2.2.1 S1x128.size (by sl_kernel_rfl) y
theorem scover1_B_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : ¬cond1_1 i) (x0 : Vec F S5000x128 .f32) (x1 xs0 xs1 : Vec F S1x128 .f32) :
    ∀ y : S1x128.Idx, ∃ pc ∈ (kernelRun1_B c i arg1 harg1 arg2 harg2 arg3 harg3 arg4 harg4 arg5 harg5 arg6 harg6 hc0 hc1 x0 x1 xs0 xs1).2.2.2.1, y ∈ pc.1.set :=
  fun y => View.cover_of_tiledL (kernelRun1_B c i arg1 harg1 arg2 harg2 arg3 harg3 arg4 harg4 arg5 harg5 arg6 harg6 hc0 hc1 x0 x1 xs0 xs1).2.2.2.1 S1x128.size (by sl_kernel_rfl) y
theorem scover1_C_0 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.2.1, y ∈ pc.1.set :=
  fun y => View.cover_of_tiledL (kernelRun1_C c i arg1 harg1 arg2 harg2 arg3 harg3 arg4 harg4 arg5 harg5 arg6 harg6 hc0 hc1 x0 x1 xs0 xs1).2.2.1 S1x128.size (by sl_kernel_rfl) y
theorem scover1_C_1 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.2.2.1, y ∈ pc.1.set :=
  fun y => View.cover_of_tiledL (kernelRun1_C c i arg1 harg1 arg2 harg2 arg3 harg3 arg4 harg4 arg5 harg5 arg6 harg6 hc0 hc1 x0 x1 xs0 xs1).2.2.2.1 S1x128.size (by sl_kernel_rfl) y
theorem cover1_C_2 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).1, y ∈ pc.1.set :=
  fun y => View.cover_of_tiledL (kernelRun1_C c i arg1 harg1 arg2 harg2 arg3 harg3 arg4 harg4 arg5 harg5 arg6 harg6 hc0 hc1 x0 x1 xs0 xs1).1 S1x128.size (by sl_kernel_rfl) y
theorem cover1_C_3 (c : Dev nD) (i : grid1.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond1_0 i) (hc1 : cond1_1 i) (x0 : Vec F S5000x128 .f32) (x1 xs0 xs1 : Vec F S1x128 .f32) :
    ∀ y : S1x128.Idx, ∃ pc ∈ (kernelRun1_C c i arg1 harg1 arg2 harg2 arg3 harg3 arg4 harg4 arg5 harg5 arg6 harg6 hc0 hc1 x0 x1 xs0 xs1).2.1, y ∈ pc.1.set :=
  fun y => View.cover_of_tiledL (kernelRun1_C c i arg1 harg1 arg2 harg2 arg3 harg3 arg4 harg4 arg5 harg5 arg6 harg6 hc0 hc1 x0 x1 xs0 xs1).2.1 S1x128.size (by sl_kernel_rfl) y

/-! ## What the four rows hold after each point -/

/-- After a first point: (mean row, variance row, sum row, square-sum row); the two output rows are placeholders there. -/
def stepA1 (c : Dev nD) (t : Fin cfg1.N) (h0 : t.val % 10 = 0) (h1 : ¬t.val % 10 = 9) : Row1 (F := F) × Row1 (F := F) × Row1 (F := F) × Row1 (F := F) :=
  (VO1_2.read (Elt F) (VO1_2.writes (Elt F) VO1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).1),
   VO1_3.read (Elt F) (VO1_3.writes (Elt F) VO1_3.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.1),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.2.1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)).2.2.2.1))

/-- After a point in between, over the scratch rows the point before left. -/
def stepB1 (c : Dev nD) (t : Fin cfg1.N) (h0 : ¬t.val % 10 = 0) (h1 : ¬t.val % 10 = 9) (xs0 xs1 : Row1 (F := F)) : Row1 (F := F) × Row1 (F := F) × Row1 (F := F) × Row1 (F := F) :=
  (VO1_2.read (Elt F) (VO1_2.writes (Elt F) VO1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).1),
   VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.1),
   VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.2.1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) xs0 xs1).2.2.2.1))

/-- After the last point, over the scratch rows the point before left. -/
def stepC1 (c : Dev nD) (t : Fin cfg1.N) (h0 : ¬t.val % 10 = 0) (h1 : t.val % 10 = 9) (xs0 xs1 : Row1 (F := F)) : Row1 (F := F) × Row1 (F := F) × Row1 (F := F) × Row1 (F := F) :=
  (VO1_2.read (Elt F) (VO1_2.writes (Elt F) VO1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).1),
   VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) xs0 xs1).2.2.2.1))

/-- No point after the first is a first point (there are ten). -/
theorem ne0_1 {n : ℕ} (hn : n + 1 < cfg1.N) : ¬(n + 1) % 10 = 0 := by
  have hN : n + 1 < 10 := lt_of_lt_of_eq hn (show cfg1.N = 10 from N_1); omega

/-- THE ACCUMULATION: the four rows after the body at position `n`. -/
def outsAt1 (c : Dev nD) : (n : ℕ) → n < cfg1.N → Row1 (F := F) × Row1 (F := F) × Row1 (F := F) × Row1 (F := F)
  | 0, hn => stepA1 V c ⟨0, hn⟩ (Nat.zero_mod _) (by show ¬(0 : ℕ) % 10 = 9; decide)
  | n + 1, hn =>
    if h1 : (n + 1) % 10 = 9 then
      stepC1 V c ⟨n + 1, hn⟩ (ne0_1 hn) h1 (outsAt1 c n (Nat.lt_of_succ_lt hn)).2.2.1 (outsAt1 c n (Nat.lt_of_succ_lt hn)).2.2.2
    else
      stepB1 V c ⟨n + 1, hn⟩ (ne0_1 hn) h1 (outsAt1 c n (Nat.lt_of_succ_lt hn)).2.2.1 (outsAt1 c n (Nat.lt_of_succ_lt hn)).2.2.2

theorem outsAt1_A (c : Dev nD) (t : Fin cfg1.N) (h0 : t.val % 10 = 0) (h1 : ¬t.val % 10 = 9) :
    outsAt1 V c t.val t.isLt = stepA1 V c t h0 h1 := by
  obtain ⟨n, hn⟩ := t
  cases n with
  | zero => exact rfl
  | succ n => exact absurd h0 (ne0_1 hn)

theorem outsAt1_B (c : Dev nD) (t : Fin cfg1.N) (h0 : ¬t.val % 10 = 0) (h1 : ¬t.val % 10 = 9) :
    outsAt1 V c t.val t.isLt = stepB1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt1_C (c : Dev nD) (t : Fin cfg1.N) (h0 : ¬t.val % 10 = 0) (h1 : t.val % 10 = 9) :
    outsAt1 V c t.val t.isLt = stepC1 V c t h0 h1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

/-! ## The invariant -/

/-- Before position `n`: at the first point the class invariant (scratch at anything); afterwards the two scratch rows at
    the running sums the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2))
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 10 = 9
  · -- the last point
    have h0 : ¬t.val % 10 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold stepC1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover1_C_0 _ _ _ _ _ _ _ _ _ _ _ _ _ _ _ _ _ _ _ _)
          · unfold owns; iexists _; isplitr
            swap; · iexact HS1
            ipureintro; exact View.read_writes_of_cover _ _ _ _ _ (scover1_C_1 _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_C_2 _ _ _ _ _ _ _ _ _ _ _ _ _ _ _ _ _ _ _ _)
    · unfold owns; iexists _; isplitr
      swap; · iexact H3
      ipureintro; exact View.read_writes_of_cover _ _ _ _ _ (cover1_C_3 _ _ _ _ _ _ _ _ _ _ _ _ _ _ _ _ _ _ _ _)
  · rw [Dat.leavesExact_idle (dat1 V c) 2 t (idleAt1_2 t (fun h => h1 ((hcond1_1 t).mp h))) (noFlush1_2 t (fun h => h1 ((hcond1_1 t).mp h)))]
    rw [Dat.leavesExact_idle (dat1 V c) 3 t (idleAt1_3 t (fun h => h1 ((hcond1_1 t).mp h))) (noFlush1_3 t (fun h => h1 ((hcond1_1 t).mp h)))]
    by_cases h0 : t.val % 10 = 0
    · -- the first point
      have hz : t.val = 0 := by omega
      rw [outsAt1_A V c t h0 h1]
      unfold stepA1; (try dsimp only)
      rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩⟩
      iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 _ _ _ _ _ _ _ _ _ _ _ _ _ _ _ _ _ _)
            · unfold owns; iexists _; isplitr
              swap; · iexact HS1
              ipureintro; exact View.read_writes_of_cover _ _ _ _ _ (scover1_A_1 _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · -- a point in between
      have hz : t.val ≠ 0 := by omega
      rw [outsAt1_B V c t h0 h1]
      unfold stepB1; (try dsimp only)
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_B_0 _ _ _ _ _ _ _ _ _ _ _ _ _ _ _ _ _ _ _ _)
            · unfold owns; iexists _; isplitr
              swap; · iexact HS1
              ipureintro; exact View.read_writes_of_cover _ _ _ _ _ (scover1_B_1 _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch rows' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Regions

end
-- ==== Proof.KI_Region2.lean ====
/- Region 2: one grid point normalises a block of 5000 rows — add the bias row, subtract the mean row, scale by the
   inverse square root of (variance row + ε), by the gain row, add the offset row, then keep positive entries and
   scale the others by the slope — and stores the 5000×128 result into its output block. The rows' block is fetched at
   every point, the six small operands once; the output block is written back at every point. Stated at the contents
   `V` the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows' staging buffer holds the point's block of rows, whether or not it was fetched there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1's staging buffer holds its whole (one-block) array at every point: fetched at the first only, its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2's staging buffer holds its whole (one-block) array at every point: fetched at the first only, its block index never moves. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Window 3's staging buffer holds its whole (one-block) array at every point: fetched at the first only, its block index never moves. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Window 4's staging buffer holds its whole (one-block) array at every point: fetched at the first only, its block index never moves. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Window 5's staging buffer holds its whole (one-block) array at every point: fetched at the first only, its block index never moves. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Window 6's staging buffer holds its whole (one-block) array at every point: fetched at the first only, its block index never moves. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

abbrev r2_rows : Rect S5000x128 := Rect.unit (s := S5000x128) ![0, 0] S5000x128.size inb_S5000x128_S5000x128_0_0
abbrev r2_row : Rect S1x128 := Rect.unit (s := S1x128) ![0, 0] S1x128.size inb_S1x128_S1x128_0_0
abbrev r2_one : Rect S1x1 := Rect.unit (s := S1x1) ![0, 0] S1x1.size inb_S1x1_S1x1_0_0

/-- The output block after the body: its one whole-block store of the normalised, rectified rows. -/
def out2_7 (x0 : Vec F S5000x128 .f32) (x1 x2 x3 x4 x5 : Vec F S1x128 .f32) (x6 : Vec F S1x1 .f32) : Vec F S5000x128 .f32 :=
  View.canon [⟨r2_rows, k2_pay1 (View.ld x0 r2_rows) (View.ld x1 r2_row) (View.ld x2 r2_row) (View.ld x3 r2_row) (View.ld x4 r2_row) (View.ld x5 r2_row) (View.ld x6 r2_one)⟩]

/-- The one store covers the output block. -/
theorem cover2_7 (p0 : Vec F S5000x128 .f32) (y : S5000x128.Idx) :
    ∃ pc ∈ ([⟨r2_rows, p0⟩] : List (View.Piece (Elt F) S5000x128 .f32)), y ∈ pc.1.set :=
  View.cover_of_tiled [⟨r2_rows, p0⟩] S5000x128.size (by rfl) y

set_option maxHeartbeats 2000000 in
/-- The body on whole staging buffers: the seven inputs at read contents, the output at anything; it ends with the inputs
    as they were and the output at the normalised rows. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S5000x128 .f32) (harg8 : arg8.IsWhole)
    (x0 : Vec F S5000x128 .f32) (x1 x2 x3 x4 x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E (cc2__normalize_kernel i arg1 harg1 arg2 harg2 arg3 harg3 arg4 harg4 arg5 harg5 arg6 harg6 arg7 harg7 arg8 harg8) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The region's proof data on core `c`: the arrays as found; after the body at point `t` each input's buffer at its
    block and the output's at the normalised rows; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Regions

end
-- ==== Proof.KI_Region3.lean ====
/- Region 3: one grid point multiplies a block of 5000 rows by the whole 128×128 weight matrix and stores the
   5000×128 product into its output block. The block of rows is fetched at every point, the weights once; the output
   block is written back at every point. Stated at the contents `V` the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows' staging buffer holds the point's block of rows, whether or not it was fetched there. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight matrix at every point (fetched at the first only; its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_rows : Rect S5000x128 := Rect.unit (s := S5000x128) ![0, 0] S5000x128.size inb_S5000x128_S5000x128_0_0
abbrev r3_wts : Rect S128x128 := Rect.unit (s := S128x128) ![0, 0] S128x128.size inb_S128x128_S128x128_0_0

/-- The output block after the body: its one whole-block store of the product of the rows' block and the weights. -/
def out3_2 (x0 : Vec F S5000x128 .f32) (x1 : Vec F S128x128 .f32) : Vec F S5000x128 .f32 :=
  View.canon [⟨r3_rows, k3_pay1 (View.ld x0 r3_rows) (View.ld x1 r3_wts)⟩]

/-- The one store covers the output block. -/
theorem cover3_2 (p0 : Vec F S5000x128 .f32) (y : S5000x128.Idx) :
    ∃ pc ∈ ([⟨r3_rows, p0⟩] : List (View.Piece (Elt F) S5000x128 .f32)), y ∈ pc.1.set :=
  View.cover_of_tiled [⟨r3_rows, p0⟩] S5000x128.size (by rfl) y

set_option maxHeartbeats 1000000 in
/-- The body on whole staging buffers: the two inputs at read contents, the output at anything; it ends with the inputs
    as they were and the output at the product. -/
theorem sound_kernel3 (c : Dev nD) (E : Set ℕ) (i : grid3.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The region's proof data on core `c`: the arrays as found; after the body at point `t` each input's buffer at its
    block and the output's at the product of the two; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Regions

end
-- ==== Proof.KI_Region4Runs.lean ====
/- Region 4: the column statistics of a 50000×128 array plus a bias row, over ten grid points of 5000 rows each. Two
   scratch rows carry the running column sums of the entries and of their squares from one point to the next: the first
   point zeroes them, every point adds its block's column sums, and the last point divides both by 50000 and stores the
   mean row and the mean of squares minus the squared mean into the two output rows, which are written back then only.
   Three control cases: the first point (A), the points in between (B), the last point (C). Stated at the contents `V`
   the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows' staging buffer holds the point's block of rows, whether or not it was fetched there. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The bias row's staging buffer holds the bias row at every point (fetched at the first only; its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The two branch conditions, decided over the ten points -/

/-- "This is the first point": the condition of the zeroing branch, from the grid coordinate. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)
/-- "This is the last point": the condition of the finishing branch. -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point the two output rows are idle and are not written back. -/
theorem idleAt4_2 : ∀ t : Fin cfg4.N, ¬cond4_1 (grid4.coords t) → cfg4.idle 2 (grid4.coords t) = true := by decide +kernel
theorem idleAt4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
/-- At the last point they are live. -/
theorem liveAt4_2 : ∀ t : Fin cfg4.N, cond4_1 (grid4.coords t) → cfg4.idle 2 (grid4.coords t) = false := by decide +kernel
theorem liveAt4_3 : ∀ t : Fin cfg4.N, cond4_1 (grid4.coords t) → cfg4.idle 3 (grid4.coords t) = false := by decide +kernel

/-! ## The memrefs the body is called with -/

abbrev VO4_2 : View sig .tc .vmem S1x128 .f32 := (Memref.whole cc4_stg2_0 : Memref sig .tc .vmem S1x128 .f32).view
abbrev VO4_3 : View sig .tc .vmem S1x128 .f32 := (Memref.whole cc4_stg3_0 : Memref sig .tc .vmem S1x128 .f32).view
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

/-- The class invariant with the two scratch rows taken out of the scoped rest, each owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body in each case: the pieces its stores leave, found by running it -/

set_option maxHeartbeats 4000000 in
/-- Case A (first point): both scratch rows at anything; the two output rows untouched. -/
noncomputable def kernelRun4_A (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i)
    (x0 : Vec F S5000x128 .f32) (x1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨[], [], ?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case B (a point in between): the scratch rows at what the point before left; the two output rows untouched. -/
noncomputable def kernelRun4_B (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (xi2 xi3 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨[], [], ?_, ?_, fun xi2 xi3 E K => ?run⟩
  case run =>
    simp only [cc4__stats_kernel_eq_skeleton]; unfold cc4__stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- Case C (last point): the scratch rows at what the point before left; the two output rows stored. -/
noncomputable def kernelRun4_C (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i)
    (x0 : Vec F S5000x128 .f32) (x1 : Vec F S1x128 .f32) (xs0 xs1 : Vec F S1x128 .f32) :
    Σ' (L2 L3 LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__stats_kernel i arg1 harg1 arg2 harg2 arg3 harg3 arg4 harg4 arg5 harg5 arg6 harg6) K } := by
  refine ⟨?_, ?_, ?_, ?_, fun E K => ?run⟩
  case run =>
    simp only [cc4__stats_kernel_eq_skeleton]; unfold cc4__stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Regions

end
-- ==== Proof.KI_Region4.lean ====
/- Region 4, second half: what the two output rows and the two scratch rows hold after each grid point (by recursion
   on the point, through the three cases), the region's invariant — before the first point the scratch rows hold
   anything, afterwards the running sums the point before left —, the proof data and the body obligation. -/
import proofs.«112204_j28269474742836_1_alg».proof.Proof.KI_Region4Runs

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

abbrev Row4 := Vec F S1x128 .f32

/-! ## The pieces of each case cover the rows they are stored into -/

theorem scover4_A_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    ∀ y : S1x128.Idx, ∃ pc ∈ (kernelRun4_A c i arg1 harg1 arg2 harg2 arg3 harg3 arg4 harg4 arg5 harg5 arg6 harg6 hc0 hc1 x0 x1).2.2.1, y ∈ pc.1.set :=
  fun y => View.cover_of_tiledL (kernelRun4_A c i arg1 harg1 arg2 harg2 arg3 harg3 arg4 harg4 arg5 harg5 arg6 harg6 hc0 hc1 x0 x1).2.2.1 S1x128.size (by sl_kernel_rfl) y
theorem scover4_A_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : cond4_0 i) (hc1 : ¬cond4_1 i) (x0 : Vec F S5000x128 .f32) (x1 : Vec F S1x128 .f32) :
    ∀ y : S1x128.Idx, ∃ pc ∈ (kernelRun4_A c i arg1 harg1 arg2 harg2 arg3 harg3 arg4 harg4 arg5 harg5 arg6 harg6 hc0 hc1 x0 x1).2.2.2.1, y ∈ pc.1.set :=
  fun y => View.cover_of_tiledL (kernelRun4_A c i arg1 harg1 arg2 harg2 arg3 harg3 arg4 harg4 arg5 harg5 arg6 harg6 hc0 hc1 x0 x1).2.2.2.1 S1x128.size (by sl_kernel_rfl) y
theorem scover4_B_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 xs0 xs1 : Vec F S1x128 .f32) :
    ∀ y : S1x128.Idx, ∃ pc ∈ (kernelRun4_B c i arg1 harg1 arg2 harg2 arg3 harg3 arg4 harg4 arg5 harg5 arg6 harg6 hc0 hc1 x0 x1 xs0 xs1).2.2.1, y ∈ pc.1.set :=
  fun y => View.cover_of_tiledL (kernelRun4_B c i arg1 harg1 arg2 harg2 arg3 harg3 arg4 harg4 arg5 harg5 arg6 harg6 hc0 hc1 x0 x1 xs0 xs1).2.2.1 S1x128.size (by sl_kernel_rfl) y
theorem scover4_B_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : ¬cond4_1 i) (x0 : Vec F S5000x128 .f32) (x1 xs0 xs1 : Vec F S1x128 .f32) :
    ∀ y : S1x128.Idx, ∃ pc ∈ (kernelRun4_B c i arg1 harg1 arg2 harg2 arg3 harg3 arg4 harg4 arg5 harg5 arg6 harg6 hc0 hc1 x0 x1 xs0 xs1).2.2.2.1, y ∈ pc.1.set :=
  fun y => View.cover_of_tiledL (kernelRun4_B c i arg1 harg1 arg2 harg2 arg3 harg3 arg4 harg4 arg5 harg5 arg6 harg6 hc0 hc1 x0 x1 xs0 xs1).2.2.2.1 S1x128.size (by sl_kernel_rfl) y
theorem scover4_C_0 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.2.1, y ∈ pc.1.set :=
  fun y => View.cover_of_tiledL (kernelRun4_C c i arg1 harg1 arg2 harg2 arg3 harg3 arg4 harg4 arg5 harg5 arg6 harg6 hc0 hc1 x0 x1 xs0 xs1).2.2.1 S1x128.size (by sl_kernel_rfl) y
theorem scover4_C_1 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.2.2.1, y ∈ pc.1.set :=
  fun y => View.cover_of_tiledL (kernelRun4_C c i arg1 harg1 arg2 harg2 arg3 harg3 arg4 harg4 arg5 harg5 arg6 harg6 hc0 hc1 x0 x1 xs0 xs1).2.2.2.1 S1x128.size (by sl_kernel_rfl) y
theorem cover4_C_2 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).1, y ∈ pc.1.set :=
  fun y => View.cover_of_tiledL (kernelRun4_C c i arg1 harg1 arg2 harg2 arg3 harg3 arg4 harg4 arg5 harg5 arg6 harg6 hc0 hc1 x0 x1 xs0 xs1).1 S1x128.size (by sl_kernel_rfl) y
theorem cover4_C_3 (c : Dev nD) (i : grid4.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole) (hc0 : ¬cond4_0 i) (hc1 : cond4_1 i) (x0 : Vec F S5000x128 .f32) (x1 xs0 xs1 : Vec F S1x128 .f32) :
    ∀ y : S1x128.Idx, ∃ pc ∈ (kernelRun4_C c i arg1 harg1 arg2 harg2 arg3 harg3 arg4 harg4 arg5 harg5 arg6 harg6 hc0 hc1 x0 x1 xs0 xs1).2.1, y ∈ pc.1.set :=
  fun y => View.cover_of_tiledL (kernelRun4_C c i arg1 harg1 arg2 harg2 arg3 harg3 arg4 harg4 arg5 harg5 arg6 harg6 hc0 hc1 x0 x1 xs0 xs1).2.1 S1x128.size (by sl_kernel_rfl) y

/-! ## What the four rows hold after each point -/

/-- After a first point: (mean row, variance row, sum row, square-sum row); the two output rows are placeholders there. -/
def stepA4 (c : Dev nD) (t : Fin cfg4.N) (h0 : t.val % 10 = 0) (h1 : ¬t.val % 10 = 9) : Row4 (F := F) × Row4 (F := F) × Row4 (F := F) × Row4 (F := F) :=
  (VO4_2.read (Elt F) (VO4_2.writes (Elt F) VO4_2.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).1),
   VO4_3.read (Elt F) (VO4_3.writes (Elt F) VO4_3.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.1),
   VS4_0.read (Elt F) (VS4_0.writes (Elt F) VS4_0.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.2.1),
   VS4_1.read (Elt F) (VS4_1.writes (Elt F) VS4_1.junk (kernelRun4_A c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)).2.2.2.1))

/-- After a point in between, over the scratch rows the point before left. -/
def stepB4 (c : Dev nD) (t : Fin cfg4.N) (h0 : ¬t.val % 10 = 0) (h1 : ¬t.val % 10 = 9) (xs0 xs1 : Row4 (F := F)) : Row4 (F := F) × Row4 (F := F) × Row4 (F := F) × Row4 (F := F) :=
  (VO4_2.read (Elt F) (VO4_2.writes (Elt F) VO4_2.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).1),
   VO4_3.read (Elt F) (VO4_3.writes (Elt F) VO4_3.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.1),
   VS4_0.read (Elt F) (VS4_0.writes (Elt F) VS4_0.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.2.1),
   VS4_1.read (Elt F) (VS4_1.writes (Elt F) VS4_1.junk (kernelRun4_B c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) xs0 xs1).2.2.2.1))

/-- After the last point, over the scratch rows the point before left. -/
def stepC4 (c : Dev nD) (t : Fin cfg4.N) (h0 : ¬t.val % 10 = 0) (h1 : t.val % 10 = 9) (xs0 xs1 : Row4 (F := F)) : Row4 (F := F) × Row4 (F := F) × Row4 (F := F) × Row4 (F := F) :=
  (VO4_2.read (Elt F) (VO4_2.writes (Elt F) VO4_2.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).1),
   VO4_3.read (Elt F) (VO4_3.writes (Elt F) VO4_3.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.1),
   VS4_0.read (Elt F) (VS4_0.writes (Elt F) VS4_0.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.2.1),
   VS4_1.read (Elt F) (VS4_1.writes (Elt F) VS4_1.junk (kernelRun4_C c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) xs0 xs1).2.2.2.1))

/-- No point after the first is a first point (there are ten). -/
theorem ne0_4 {n : ℕ} (hn : n + 1 < cfg4.N) : ¬(n + 1) % 10 = 0 := by
  have hN : n + 1 < 10 := lt_of_lt_of_eq hn (show cfg4.N = 10 from N_4); omega

/-- THE ACCUMULATION: the four rows after the body at position `n`. -/
def outsAt4 (c : Dev nD) : (n : ℕ) → n < cfg4.N → Row4 (F := F) × Row4 (F := F) × Row4 (F := F) × Row4 (F := F)
  | 0, hn => stepA4 V c ⟨0, hn⟩ (Nat.zero_mod _) (by show ¬(0 : ℕ) % 10 = 9; decide)
  | n + 1, hn =>
    if h1 : (n + 1) % 10 = 9 then
      stepC4 V c ⟨n + 1, hn⟩ (ne0_4 hn) h1 (outsAt4 c n (Nat.lt_of_succ_lt hn)).2.2.1 (outsAt4 c n (Nat.lt_of_succ_lt hn)).2.2.2
    else
      stepB4 V c ⟨n + 1, hn⟩ (ne0_4 hn) h1 (outsAt4 c n (Nat.lt_of_succ_lt hn)).2.2.1 (outsAt4 c n (Nat.lt_of_succ_lt hn)).2.2.2

theorem outsAt4_A (c : Dev nD) (t : Fin cfg4.N) (h0 : t.val % 10 = 0) (h1 : ¬t.val % 10 = 9) :
    outsAt4 V c t.val t.isLt = stepA4 V c t h0 h1 := by
  obtain ⟨n, hn⟩ := t
  cases n with
  | zero => exact rfl
  | succ n => exact absurd h0 (ne0_4 hn)

theorem outsAt4_B (c : Dev nD) (t : Fin cfg4.N) (h0 : ¬t.val % 10 = 0) (h1 : ¬t.val % 10 = 9) :
    outsAt4 V c t.val t.isLt = stepB4 V c t h0 h1 (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact absurd (Nat.zero_mod _) h0
  | succ n => exact (dif_neg h1).trans rfl

theorem outsAt4_C (c : Dev nD) (t : Fin cfg4.N) (h0 : ¬t.val % 10 = 0) (h1 : t.val % 10 = 9) :
    outsAt4 V c t.val t.isLt = stepC4 V c t h0 h1 (outsAt4 V c (t.val - 1) (Nat.lt_of_le_of_lt (Nat.sub_le _ _) t.isLt)).2.2.1 (outsAt4 V c (t.val - 1) (Nat.lt_of_le_of_lt (Nat.sub_le _ _) t.isLt)).2.2.2 := by
  obtain ⟨n, hn⟩ := t
  cases n with
  | zero => exact absurd (Nat.zero_mod _) h0
  | succ n => exact (dif_pos h1).trans rfl

/-! ## The invariant -/

/-- Before position `n`: at the first point the class invariant (scratch at anything); afterwards the two scratch rows at
    the running sums the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2.2.1) ∗ owns (c : Thread nD τ) scM4_1 fullShare ((outsAt4 V c n hn).2.2.2))
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.1) ∗ owns (c : Thread nD τ) scM4_1 fullShare ((outsAt4 V c (n - 1) (by omega)).2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 10 = 9
  · -- the last point
    have h0 : ¬t.val % 10 = 0 := by omega
    have hz : t.val ≠ 0 := by omega
    rw [show (dat4 V c).leavesExact 2 t = owns (c : Thread nD τ) (ms4_2 t) fullShare ((dat4 V c).after 2 t) from by
      unfold Dat.leavesExact; rw [liveAt4_2 t ((hcond4_1 t).mpr h1)], after4_2]
    rw [show (dat4 V c).leavesExact 3 t = owns (c : Thread nD τ) (ms4_3 t) fullShare ((dat4 V c).after 3 t) from by
      unfold Dat.leavesExact; rw [liveAt4_3 t ((hcond4_1 t).mpr h1)], after4_3]
    rw [outsAt4_C V c t h0 h1]
    unfold stepC4; (try dsimp only)
    rw [PhiS4_castSucc V c t, PhiS4_pos V c _ _ hz]
    iintro ⟨⟨⟨⟨HS0, HS1⟩, Hrest⟩, Hg⟩, Ho, ⟨%d0, H0⟩, ⟨%d1, H1⟩, ⟨%d2, H2⟩, ⟨%d3, H3⟩⟩
    iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover4_C_0 _ _ _ _ _ _ _ _ _ _ _ _ _ _ _ _ _ _ _ _)
          · unfold owns; iexists _; isplitr
            swap; · iexact HS1
            ipureintro; exact View.read_writes_of_cover _ _ _ _ _ (scover4_C_1 _ _ _ _ _ _ _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover4_C_2 _ _ _ _ _ _ _ _ _ _ _ _ _ _ _ _ _ _ _ _)
    · unfold owns; iexists _; isplitr
      swap; · iexact H3
      ipureintro; exact View.read_writes_of_cover _ _ _ _ _ (cover4_C_3 _ _ _ _ _ _ _ _ _ _ _ _ _ _ _ _ _ _ _ _)
  · rw [Dat.leavesExact_idle (dat4 V c) 2 t (idleAt4_2 t (fun h => h1 ((hcond4_1 t).mp h))) (noFlush4_2 t (fun h => h1 ((hcond4_1 t).mp h)))]
    rw [Dat.leavesExact_idle (dat4 V c) 3 t (idleAt4_3 t (fun h => h1 ((hcond4_1 t).mp h))) (noFlush4_3 t (fun h => h1 ((hcond4_1 t).mp h)))]
    by_cases h0 : t.val % 10 = 0
    · -- the first point
      have hz : t.val = 0 := by omega
      rw [outsAt4_A V c t h0 h1]
      unfold stepA4; (try dsimp only)
      rw [PhiS4_castSucc V c t, PhiS4_zero V c _ _ hz, PhiA4_eq]
      iintro ⟨⟨⟨⟨HS0, HS1⟩, Hrest⟩, Hg⟩, Ho, ⟨%d0, H0⟩, ⟨%d1, H1⟩, ⟨%d2, H2⟩, ⟨%d3, H3⟩⟩
      iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_A_0 _ _ _ _ _ _ _ _ _ _ _ _ _ _ _ _ _ _)
            · unfold owns; iexists _; isplitr
              swap; · iexact HS1
              ipureintro; exact View.read_writes_of_cover _ _ _ _ _ (scover4_A_1 _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3
    · -- a point in between
      have hz : t.val ≠ 0 := by omega
      rw [outsAt4_B V c t h0 h1]
      unfold stepB4; (try dsimp only)
      rw [PhiS4_castSucc V c t, PhiS4_pos V c _ _ hz]
      iintro ⟨⟨⟨⟨HS0, HS1⟩, Hrest⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover4_B_0 _ _ _ _ _ _ _ _ _ _ _ _ _ _ _ _ _ _ _ _)
            · unfold owns; iexists _; isplitr
              swap; · iexact HS1
              ipureintro; exact View.read_writes_of_cover _ _ _ _ _ (scover4_B_1 _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the scratch rows' contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 10 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.Regions

end
-- ==== Proof.KI_Region5.lean ====
/- Region 5: one grid point normalises a block of 5000 rows — add the bias row, subtract the mean row, scale by the
   inverse square root of (variance row + ε), by the gain row, add the offset row, then keep positive entries and
   scale the others by the slope — and stores the 5000×128 result into its output block. The rows' block is fetched at
   every point, the six small operands once; the output block is written back at every point. Stated at the contents
   `V` the region is entered from, at any float instance. -/
import proofs.«112204_j28269474742836_1_alg».proof.Proof.Gen.KernelIdeal.Launch
import proofs.«112204_j28269474742836_1_alg».proof.Proof.Gen.KernelIdeal.Skeleton
import proofs.«112204_j28269474742836_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The rows' staging buffer holds the point's block of rows, whether or not it was fetched there. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1's staging buffer holds its whole (one-block) array at every point: fetched at the first only, its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2's staging buffer holds its whole (one-block) array at every point: fetched at the first only, its block index never moves. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Window 3's staging buffer holds its whole (one-block) array at every point: fetched at the first only, its block index never moves. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Window 4's staging buffer holds its whole (one-block) array at every point: fetched at the first only, its block index never moves. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Window 5's staging buffer holds its whole (one-block) array at every point: fetched at the first only, its block index never moves. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Window 6's staging buffer holds its whole (one-block) array at every point: fetched at the first only, its block index never moves. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

abbrev r5_rows : Rect S5000x128 := Rect.unit (s := S5000x128) ![0, 0] S5000x128.size inb_S5000x128_S5000x128_0_0
abbrev r5_row : Rect S1x128 := Rect.unit (s := S1x128) ![0, 0] S1x128.size inb_S1x128_S1x128_0_0
abbrev r5_one : Rect S1x1 := Rect.unit (s := S1x1) ![0, 0] S1x1.size inb_S1x1_S1x1_0_0

/-- The output block after the body: its one whole-block store of the normalised, rectified rows. -/
def out5_7 (x0 : Vec F S5000x128 .f32) (x1 x2 x3 x4 x5 : Vec F S1x128 .f32) (x6 : Vec F S1x1 .f32) : Vec F S5000x128 .f32 :=
  View.canon [⟨r5_rows, k5_pay1 (View.ld x0 r5_rows) (View.ld x1 r5_row) (View.ld x2 r5_row) (View.ld x3 r5_row) (View.ld x4 r5_row) (View.ld x5 r5_row) (View.ld x6 r5_one)⟩]

/-- The one store covers the output block. -/
theorem cover5_7 (p0 : Vec F S5000x128 .f32) (y : S5000x128.Idx) :
    ∃ pc ∈ ([⟨r5_rows, p0⟩] : List (View.Piece (Elt F) S5000x128 .f32)), y ∈ pc.1.set :=
  View.cover_of_tiled [⟨r5_rows, p0⟩] S5000x128.size (by rfl) y

set_option maxHeartbeats 2000000 in
/-- The body on whole staging buffers: the seven inputs at read contents, the output at anything; it ends with the inputs
    as they were and the output at the normalised rows. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x1 .f32) (harg7 : arg7.IsWhole) (arg8 : Memref sig .tc .vmem S5000x128 .f32) (harg8 : arg8.IsWhole)
    (x0 : Vec F S5000x128 .f32) (x1 x2 x3 x4 x5 : Vec F S1x128 .f32) (x6 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E (cc5__normalize_kernel i arg1 harg1 arg2 harg2 arg3 harg3 arg4 harg4 arg5 harg5 arg6 harg6 arg7 harg7 arg8 harg8) K := by
  simp only [cc5__normalize_kernel_eq_skeleton]; unfold cc5__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

/-- The region's proof data on core `c`: the arrays as found; after the body at point `t` each input's buffer at its
    block and the output's at the normalised rows; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) (iblk5 V c 6 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Regions

end
-- ==== Proof.KI_Run.lean ====
/- The whole run of the program with its six kernel regions: the contents of every unscoped buffer at each boundary
   between a host stretch and a region, from the launch memory on (a region leaves its output arrays at what its
   write-backs fold to and every other buffer as it found it); each region as a segment over the thread state "every
   unscoped buffer at the boundary's contents, the generator register at some state, nothing owed"; and the run: every
   weakly fair execution terminates with every unscoped buffer at the last boundary's contents. The frame claim is that
   run read at the twelve argument arrays, which no host operation writes and no region changes. -/
import proofs.«112204_j28269474742836_1_alg».proof.Proof.KI_Region0
import proofs.«112204_j28269474742836_1_alg».proof.Proof.KI_Region1
import proofs.«112204_j28269474742836_1_alg».proof.Proof.KI_Region2
import proofs.«112204_j28269474742836_1_alg».proof.Proof.KI_Region3
import proofs.«112204_j28269474742836_1_alg».proof.Proof.KI_Region4
import proofs.«112204_j28269474742836_1_alg».proof.Proof.KI_Region5
import proofs.«112204_j28269474742836_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Regions
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- At region 0's exit: its arrays at what its write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At region 1's exit: its arrays at what its write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- At region 2's exit: its arrays at what its write-backs leave, every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- At region 3's exit: its arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what its write-backs leave, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- At region 5's exit: its arrays at what its write-backs leave, every other buffer as entered. -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev V11 : (c : Dev nD) → (b : Ref sig .tc) → Buf (Elt F) ((c : Thread nD τ).loc b) := fun c b => W11 m ρ c b
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-! ## The arguments end as launched -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := (W4_arr m ρ c 1).trans (((dat0 (V3 m ρ) c).arrAt_in 1 rfl _).trans (A_eq0 (V3 m ρ) c 1))
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := (W8_arr m ρ c 1).trans (((dat3 (V7 m ρ) c).arrAt_in 1 rfl _).trans (A_eq3 (V7 m ρ) c 1))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W11_main_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W11_main_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W11_main_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W11_main_arg11 (c : Dev nD) : W11 m ρ c (Proc.devRef .tc main_arg11) = m ((c : Thread nD τ).loc main_arg11) :=
  calc W11 m ρ c (Proc.devRef .tc main_arg11)
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl

/-! ## The proof data family and the thread state -/

def pdats : (p : Fin 6) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V7 m ρ) c
  | ⟨4, _⟩ => fun c => dat4 (V9 m ρ) c
  | ⟨5, _⟩ => fun c => dat5 (V10 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W3`, left with them at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V5 m ρ) c)
    unfold Pipeline.ΦA
    iintro ⟨Hp, -, Hr⟩
    isplitl [Hr]; · iexact Hr
    iexact Hp
  hout c := by
    rw [Pipeline.ownSems0_none]
    refine (hout1 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W9`, left with them at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V9 m ρ) c)
    unfold Pipeline.ΦA
    iintro ⟨Hp, -, Hr⟩
    isplitl [Hr]; · iexact Hr
    iexact Hp
  hout c := by
    rw [Pipeline.ownSems0_none]
    refine (hout4 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W10`, left with them at `W11`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .region (reg3 m ρ),
    .host (hseg hostOps4 hostOps4_sub hostOps4_fresh (W8 m ρ)),
    .region (reg4 m ρ),
    .region (reg5 m ρ) ]

/-- The last region's exit state is the kit's final state beside the core owing nothing (the same three conjuncts, regrouped). -/
theorem last_link (c : Dev nD) :
    iprop(StableHlo.held (c : Thread nD τ) (Pipeline.ucRefs τ sig) (W11 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]
    · iexact Hh
    iexact Hp
  iexact HO

theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c)⟩) (run m ρ)

end Cert.KernelIdeal.Run

end
-- ==== Proof.KI_Value0.lean ====
/- The value of region 0: after its ten points the output array holds, at row r and column q, the sum over k of
   (left operand at (r, k)) · (right operand at (k, q)) — each point writes the block of 5000 rows it computed from its
   block of rows of the left operand and the whole right operand, and the ten blocks tile the 50000 rows. -/
import proofs.«112204_j28269474742836_1_alg».proof.Proof.KI_Region0
import Idealize.ShloMosaic.Lib.Pipeline.Value
import Idealize.ShloMosaic.Lib.ValueIdx
import Idealize.ShloMosaic.PureOps.Ideal.Laws

set_option maxRecDepth 16384

noncomputable section

namespace Cert.KernelIdeal.Value0

open Cert.KernelIdeal Cert.KernelIdeal.Gen Cert.KernelIdeal.Regions
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `r`, column `q` of the product of a 50000×128 array with a 128×128 array, as a sum over the shared axis. -/
def mm (A : S50000x128.Idx → EReal) (B : S128x128.Idx → EReal) : S50000x128.Idx → EReal := fun i =>
  ∑ k : Fin 128, A (fun a => match a with | ⟨0, _⟩ => ⟨(i 0).val, (i 0).isLt⟩ | ⟨1, _⟩ => ⟨k.val, k.isLt⟩)
    * B (fun a => match a with | ⟨0, _⟩ => ⟨k.val, k.isLt⟩ | ⟨1, _⟩ => ⟨(i 1).val, (i 1).isLt⟩)

theorem hz : (![0, 0] : Fin 2 → Nat) = fun _ => 0 := funext fun a => by fin_cases a <;> rfl

/-! ## The body's product at an index of the block -/

theorem lhsB_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhsB_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhsB_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

abbrev lB (j : S5000x128.Idx) (k : Fin 128) : S5000x128.Idx := fun a => match a with
  | ⟨0, _⟩ => ⟨(j 0).val, (j 0).isLt⟩
  | ⟨1, _⟩ => ⟨k.val, k.isLt⟩
abbrev rB (j : S5000x128.Idx) (k : Fin 128) : S128x128.Idx := fun a => match a with
  | ⟨0, _⟩ => ⟨k.val, k.isLt⟩
  | ⟨1, _⟩ => ⟨(j 1).val, (j 1).isLt⟩

/-- The body's payload at an index of its block: the sum over the shared axis. -/
theorem pay_apply (x0 : Vec Ideal S5000x128 .f32) (x1 : Vec Ideal S128x128 .f32) (j : S5000x128.Idx) :
    k0_pay1 (F := Ideal) x0 x1 j = ∑ k : Fin 128, ((x0 (lB j k) : EReal) * (x1 (rB j k) : EReal)) := by
  have e : k0_pay1 (F := Ideal) x0 x1 = matmul (φ₁ := .f32) (φ₂ := .f32) dot_S5000x128_S128x128_S5000x128_1_0_0_1_n_n none x0 x1 (constant S5000x128 .f32 0x00000000#32) := by
    unfold k0_pay1
    first | rfl | (simp only [shapeCast_self])
  rw [e]
  refine (Ideal.matmul_constant_zero_apply dot_S5000x128_S128x128_S5000x128_1_0_0_1_n_n none x0 x1 j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lB j k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx j ((ValueIdx.contrEquiv1 dot_S5000x128_S128x128_S5000x128_1_0_0_1_n_n 128 rfl rfl).symm k) = rB j k := funext fun a => Fin.ext (by
    match a with
    | ⟨0, _⟩ => exact (rhsB_0 _ _).trans hk
    | ⟨1, _⟩ => exact rhsB_1 _ _)
  rw [el, er]

/-! ## From blocks to the array -/

/-- The printed index maps over the ten points: the rows' block moves with the output's block; the weights' block and
    every column block index stay at zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- WHAT POINT `t` WRITES BACK is block `t` of the product of the two operand arrays as the region finds them. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine (pay_apply _ _ j).trans ?_
  show _ = mm (V c main_arg0) (V c main_arg2) (((cfg0.win 2).blk t).view.emb j)
  unfold mm
  refine Finset.sum_congr rfl fun k _ => ?_
  have hj0 : (j 0).val < 5000 := (j 0).isLt
  have hj1 : (j 1).val < 128 := (j 1).isLt
  have hk : k.val < 128 := k.isLt
  have hl : ((cfg0.win 0).blk t).view.emb (lB j k)
      = (fun a => match a with | ⟨0, _⟩ => ⟨((((cfg0.win 2).blk t).view.emb j) 0).val, ((((cfg0.win 2).blk t).view.emb j) 0).isLt⟩ | ⟨1, _⟩ => ⟨k.val, k.isLt⟩ : S50000x128.Idx) := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (rB j k)
      = (fun a => match a with | ⟨0, _⟩ => ⟨k.val, k.isLt⟩ | ⟨1, _⟩ => ⟨((((cfg0.win 2).blk t).view.emb j) 1).val, ((((cfg0.win 2).blk t).view.emb j) 1).isLt⟩ : S128x128.Idx) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  refine congrArg₂ (fun a b : EReal => a * b) ?_ ?_
  · show V c main_arg0 (((cfg0.win 0).blk t).view.emb (lB j k)) = _
    rw [hl]
  · show V c main_arg2 (((cfg0.win 1).blk t).view.emb (rB j k)) = _
    rw [hr]

theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some point's block: row `r` in the block of point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the product of the two operand arrays as found. -/
theorem final (c : Dev nD) : (dat0 V c).arrAt 2 cfg0.N = mm (V c main_arg0) (V c main_arg2) :=
  (dat0 V c).arrAt_eq_of_cover 2 (mm (V c main_arg0) (V c main_arg2)) (fun t _ => flushed_eq V c t) cover

end Cert.KernelIdeal.Value0

end
-- ==== Proof.KI_Value1P.lean ====
/- The value of region 1, first part: what each case's stores leave in the four rows, as the kernel's own arithmetic of
   the point's block of rows, the bias row and the scratch rows the point before left. -/
import proofs.«112204_j28269474742836_1_alg».proof.Proof.KI_Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value1

open Cert.KernelIdeal Cert.KernelIdeal.Gen Cert.KernelIdeal.Regions
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem sA_0 (c : Dev nD) (t : Fin cfg1.N) (h0 : t.val % 10 = 0) (h1 : ¬t.val % 10 = 9) :
    (stepA1 V c t h0 h1).2.2.1 = k1_pay4 (iblk1 V c 0 t) (iblk1 V c 1 t) (k1_pay1 (F := F)) := by
  unfold stepA1
  dsimp only
  rw [View.read_writes_eq_canon _ _ _ (scover1_A_0 _ _ _ _ _ _ _ _ _ _ _ _ _ _ _ _ _ _)]
  unfold kernelRun1_A
  dsimp only
  sl_unfold_words
  rw [View.canon_cons_unit_zero hz]
  simp only [View.readCov_unit_zero (S := S1x128) _ hz]
  simp only [View.readAt_eq_ld, Memref.IsWhole.read_unread, View.ld_unit_zero (S := S5000x128) hz, View.ld_unit_zero (S := S1x128) hz]

theorem sA_1 (c : Dev nD) (t : Fin cfg1.N) (h0 : t.val % 10 = 0) (h1 : ¬t.val % 10 = 9) :
    (stepA1 V c t h0 h1).2.2.2 = k1_pay5 (iblk1 V c 0 t) (iblk1 V c 1 t) (k1_pay2 (F := F)) := by
  unfold stepA1
  dsimp only
  rw [View.read_writes_eq_canon _ _ _ (scover1_A_1 _ _ _ _ _ _ _ _ _ _ _ _ _ _ _ _ _ _)]
  unfold kernelRun1_A
  dsimp only
  sl_unfold_words
  rw [View.canon_cons_unit_zero hz]
  simp only [View.readCov_unit_zero (S := S1x128) _ hz]
  simp only [View.readAt_eq_ld, Memref.IsWhole.read_unread, View.ld_unit_zero (S := S5000x128) hz, View.ld_unit_zero (S := S1x128) hz]

theorem sB_0 (c : Dev nD) (t : Fin cfg1.N) (h0 : ¬t.val % 10 = 0) (h1 : ¬t.val % 10 = 9) (xs0 xs1 : Vec F S1x128 .f32) :
    (stepB1 V c t h0 h1 xs0 xs1).2.2.1 = k1_pay4 (iblk1 V c 0 t) (iblk1 V c 1 t) xs0 := by
  unfold stepB1
  dsimp only
  rw [View.read_writes_eq_canon _ _ _ (scover1_B_0 _ _ _ _ _ _ _ _ _ _ _ _ _ _ _ _ _ _ _ _)]
  unfold kernelRun1_B
  dsimp only
  sl_unfold_words
  rw [View.canon_unit_zero hz]
  simp only [View.readAt_eq_ld, Memref.IsWhole.read_unread, View.ld_unit_zero (S := S5000x128) hz, View.ld_unit_zero (S := S1x128) hz]
  exact congrArg (k1_pay4 (iblk1 V c 0 t) (iblk1 V c 1 t)) ((Memref.isWhole_whole cc1_scratch0).read_unread _)

theorem sB_1 (c : Dev nD) (t : Fin cfg1.N) (h0 : ¬t.val % 10 = 0) (h1 : ¬t.val % 10 = 9) (xs0 xs1 : Vec F S1x128 .f32) :
    (stepB1 V c t h0 h1 xs0 xs1).2.2.2 = k1_pay5 (iblk1 V c 0 t) (iblk1 V c 1 t) xs1 := by
  unfold stepB1
  dsimp only
  rw [View.read_writes_eq_canon _ _ _ (scover1_B_1 _ _ _ _ _ _ _ _ _ _ _ _ _ _ _ _ _ _ _ _)]
  unfold kernelRun1_B
  dsimp only
  sl_unfold_words
  rw [View.canon_unit_zero hz]
  simp only [View.readAt_eq_ld, Memref.IsWhole.read_unread, View.ld_unit_zero (S := S5000x128) hz, View.ld_unit_zero (S := S1x128) hz]
  exact congrArg (k1_pay5 (iblk1 V c 0 t) (iblk1 V c 1 t)) ((Memref.isWhole_whole cc1_scratch1).read_unread _)

theorem sC_0 (c : Dev nD) (t : Fin cfg1.N) (h0 : ¬t.val % 10 = 0) (h1 : t.val % 10 = 9) (xs0 xs1 : Vec F S1x128 .f32) :
    (stepC1 V c t h0 h1 xs0 xs1).2.2.1 = k1_pay4 (iblk1 V c 0 t) (iblk1 V c 1 t) xs0 := by
  unfold stepC1
  dsimp only
  rw [View.read_writes_eq_canon _ _ _ (scover1_C_0 _ _ _ _ _ _ _ _ _ _ _ _ _ _ _ _ _ _ _ _)]
  unfold kernelRun1_C
  dsimp only
  sl_unfold_words
  rw [View.canon_unit_zero hz]
  simp only [View.readAt_eq_ld, Memref.IsWhole.read_unread, View.ld_unit_zero (S := S5000x128) hz, View.ld_unit_zero (S := S1x128) hz]
  exact congrArg (k1_pay4 (iblk1 V c 0 t) (iblk1 V c 1 t)) ((Memref.isWhole_whole cc1_scratch0).read_unread _)

theorem sC_1 (c : Dev nD) (t : Fin cfg1.N) (h0 : ¬t.val % 10 = 0) (h1 : t.val % 10 = 9) (xs0 xs1 : Vec F S1x128 .f32) :
    (stepC1 V c t h0 h1 xs0 xs1).2.2.2 = k1_pay5 (iblk1 V c 0 t) (iblk1 V c 1 t) xs1 := by
  unfold stepC1
  dsimp only
  rw [View.read_writes_eq_canon _ _ _ (scover1_C_1 _ _ _ _ _ _ _ _ _ _ _ _ _ _ _ _ _ _ _ _)]
  unfold kernelRun1_C
  dsimp only
  sl_unfold_words
  rw [View.canon_unit_zero hz]
  simp only [View.readAt_eq_ld, Memref.IsWhole.read_unread, View.ld_unit_zero (S := S5000x128) hz, View.ld_unit_zero (S := S1x128) hz]
  exact congrArg (k1_pay5 (iblk1 V c 0 t) (iblk1 V c 1 t)) ((Memref.isWhole_whole cc1_scratch1).read_unread _)

theorem oC_2 (c : Dev nD) (t : Fin cfg1.N) (h0 : ¬t.val % 10 = 0) (h1 : t.val % 10 = 9) (xs0 xs1 : Vec F S1x128 .f32) :
    (stepC1 V c t h0 h1 xs0 xs1).1 = k1_pay6 (k1_pay4 (iblk1 V c 0 t) (iblk1 V c 1 t) xs0) := by
  unfold stepC1
  dsimp only
  rw [View.read_writes_eq_canon _ _ _ (cover1_C_2 _ _ _ _ _ _ _ _ _ _ _ _ _ _ _ _ _ _ _ _)]
  unfold kernelRun1_C
  dsimp only
  sl_unfold_words
  rw [View.canon_unit_zero hz]
  simp only [View.readCov_unit_zero (S := S1x128) _ hz]
  simp only [View.readAt_eq_ld, Memref.IsWhole.read_unread, View.ld_unit_zero (S := S5000x128) hz, View.ld_unit_zero (S := S1x128) hz]
  exact congrArg (fun s => k1_pay6 (k1_pay4 (iblk1 V c 0 t) (iblk1 V c 1 t) s)) ((Memref.isWhole_whole cc1_scratch0).read_unread _)

theorem oC_3 (c : Dev nD) (t : Fin cfg1.N) (h0 : ¬t.val % 10 = 0) (h1 : t.val % 10 = 9) (xs0 xs1 : Vec F S1x128 .f32) :
    (stepC1 V c t h0 h1 xs0 xs1).2.1 = k1_pay7 (k1_pay4 (iblk1 V c 0 t) (iblk1 V c 1 t) xs0) (k1_pay5 (iblk1 V c 0 t) (iblk1 V c 1 t) xs1) := by
  unfold stepC1
  dsimp only
  rw [View.read_writes_eq_canon _ _ _ (cover1_C_3 _ _ _ _ _ _ _ _ _ _ _ _ _ _ _ _ _ _ _ _)]
  unfold kernelRun1_C
  dsimp only
  sl_unfold_words
  rw [View.canon_unit_zero hz]
  simp only [View.readCov_unit_zero (S := S1x128) _ hz]
  simp only [View.readAt_eq_ld, Memref.IsWhole.read_unread, View.ld_unit_zero (S := S5000x128) hz, View.ld_unit_zero (S := S1x128) hz]
  exact congrArg₂ (fun a b => k1_pay7 (k1_pay4 (iblk1 V c 0 t) (iblk1 V c 1 t) a) (k1_pay5 (iblk1 V c 0 t) (iblk1 V c 1 t) b)) ((Memref.isWhole_whole cc1_scratch0).read_unread _) ((Memref.isWhole_whole cc1_scratch1).read_unread _)

end Cert.KernelIdeal.Value1

end
-- ==== Proof.KI_Value1.lean ====
/- The value of region 1, second part: the running column sums. With g(R, q) the entry of the rows array at (R, q)
   plus the bias at q: after point t the first scratch row holds, at column q, the sum of g(R, q) over the first
   5000·(t+1) rows, and the second the sum of the squares; so after the tenth point they hold the sums over all 50000
   rows, and the two output rows hold that sum over 50000 and the square-sum over 50000 minus the square of the former. -/
import proofs.«112204_j28269474742836_1_alg».proof.Proof.KI_Value1P

set_option maxRecDepth 16384

noncomputable section

namespace Cert.KernelIdeal.Value1

open Cert.KernelIdeal Cert.KernelIdeal.Gen Cert.KernelIdeal.Regions
open Idealize.ShloMosaic Idealize.ShloMosaic.TcCoe Idealize.ShloMosaic.Tactic Idealize.SL.Sem
open Idealize.ShloMosaic.Pipeline (Dat)
open Idealize.ShloMosaic.ValueIdx

/-! ## Indices -/

abbrev colOf (q : S1x128.Idx) : S128.Idx := fun a => match a with
  | ⟨0, _⟩ => ⟨(q 1).val, (q 1).isLt⟩
abbrev cell (r : Fin 5000) (q : S1x128.Idx) : S5000x128.Idx := fun a => match a with
  | ⟨0, _⟩ => ⟨r.val, r.isLt⟩
  | ⟨1, _⟩ => ⟨(q 1).val, (q 1).isLt⟩
abbrev rowQ (q : S1x128.Idx) : S1x128.Idx := fun a => match a with
  | ⟨0, _⟩ => (⟨0, Nat.zero_lt_one⟩ : Fin 1)
  | ⟨1, _⟩ => ⟨(q 1).val, (q 1).isLt⟩
abbrev cellW (R : Fin 50000) (q : S1x128.Idx) : S50000x128.Idx := fun a => match a with
  | ⟨0, _⟩ => ⟨R.val, R.isLt⟩
  | ⟨1, _⟩ => ⟨(q 1).val, (q 1).isLt⟩

/-! ## The body's arithmetic at a column -/

/-- The column sum over a block's 5000 rows. -/
theorem red_apply (src : FVec Ideal S5000x128 .f32) (j : S128.Idx) :
    multiReduction .add [0] S128 src 0x00000000#32 reduces_S5000x128_S128 (.inl rfl) rfl j
      = ∑ k : Fin 5000, (src (fun a => match a with | ⟨0, _⟩ => ⟨k.val, k.isLt⟩ | ⟨1, _⟩ => ⟨(j 0).val, (j 0).isLt⟩) : EReal) := by
  refine (Ideal.multiReduction_add_single src 0x00000000#32 reduces_S5000x128_S128 (.inl rfl) rfl j).trans ?_
  refine Finset.sum_congr rfl fun k _ => congrArg src ?_
  funext c; apply Fin.ext
  fin_cases c <;> rfl

theorem bcast_row (x : Vec Ideal S1x128 .f32) (j : S5000x128.Idx) :
    broadcastTo S5000x128 x broadcasts_S1x128_S5000x128 j = x (fun a => match a with | ⟨0, _⟩ => (⟨0, Nat.zero_lt_one⟩ : Fin 1) | ⟨1, _⟩ => ⟨(j 1).val, (j 1).isLt⟩) :=
  broadcastTo_apply x _ j _ (fun a => by fin_cases a <;> rfl)

theorem addUnit_apply (v : FVec Ideal S128 .f32) (q : S1x128.Idx) :
    shapeCast S1x128 v shapeCasts_S128_S1x128 q = v (colOf q) := by
  refine (shapeCast_addUnit_apply (n := 1) ![128] v shapeCasts_S128_S1x128 q).trans ?_
  refine congrArg v ?_
  funext a; apply Fin.ext
  fin_cases a; rfl

/-- An entry of the block plus the bias at its column. -/
theorem pay3_apply (x0 : Vec Ideal S5000x128 .f32) (x1 : Vec Ideal S1x128 .f32) (j : S5000x128.Idx) :
    k1_pay3 (F := Ideal) x0 x1 j = (x0 j : EReal) + (x1 (fun a => match a with | ⟨0, _⟩ => (⟨0, Nat.zero_lt_one⟩ : Fin 1) | ⟨1, _⟩ => ⟨(j 1).val, (j 1).isLt⟩) : EReal) := by
  unfold k1_pay3
  simp only [shapeCast_self]
  show (x0 j : EReal) + broadcastTo S5000x128 x1 broadcasts_S1x128_S5000x128 j = _
  rw [bcast_row]

/-- The sum row's update at column `q`: what it held plus the block's column sum of (entry + bias). -/
theorem pay4_apply (x0 : Vec Ideal S5000x128 .f32) (x1 s : Vec Ideal S1x128 .f32) (q : S1x128.Idx) :
    k1_pay4 (F := Ideal) x0 x1 s q = (s q : EReal) + ∑ r : Fin 5000, ((x0 (cell r q) : EReal) + (x1 (rowQ q) : EReal)) := by
  unfold k1_pay4
  simp only [shapeCast_self]
  show (s q : EReal) + shapeCast S1x128 _ shapeCasts_S128_S1x128 q = _
  rw [addUnit_apply, red_apply]
  refine congrArg (fun z : EReal => (s q : EReal) + z) (Finset.sum_congr rfl fun r _ => ?_)
  show k1_pay3 (F := Ideal) x0 x1 _ = _
  rw [pay3_apply]

/-- The square-sum row's update at column `q`. -/
theorem pay5_apply (x0 : Vec Ideal S5000x128 .f32) (x1 s : Vec Ideal S1x128 .f32) (q : S1x128.Idx) :
    k1_pay5 (F := Ideal) x0 x1 s q = (s q : EReal) + ∑ r : Fin 5000, (((x0 (cell r q) : EReal) + (x1 (rowQ q) : EReal)) * ((x0 (cell r q) : EReal) + (x1 (rowQ q) : EReal))) := by
  unfold k1_pay5
  simp only [shapeCast_self]
  show (s q : EReal) + shapeCast S1x128 _ shapeCasts_S128_S1x128 q = _
  rw [addUnit_apply, red_apply]
  refine congrArg (fun z : EReal => (s q : EReal) + z) (Finset.sum_congr rfl fun r _ => ?_)
  show (k1_pay3 (F := Ideal) x0 x1 _ : EReal) * (k1_pay3 (F := Ideal) x0 x1 _ : EReal) = _
  rw [pay3_apply]

theorem pay1_apply (q : S1x128.Idx) : k1_pay1 (F := Ideal) q = (0 : EReal) := by
  unfold k1_pay1
  simp only [shapeCast_self]
  show Ideal.ofBits .f32 0x00000000#32 = 0
  exact Ideal.ofBits_zero_f32
theorem pay2_apply (q : S1x128.Idx) : k1_pay2 (F := Ideal) q = (0 : EReal) := by
  unfold k1_pay2
  simp only [shapeCast_self]
  show Ideal.ofBits .f32 0x00000000#32 = 0
  exact Ideal.ofBits_zero_f32

theorem pay6_apply (s : Vec Ideal S1x128 .f32) (q : S1x128.Idx) :
    k1_pay6 (F := Ideal) s q = Ideal.div (s q) (Ideal.ofBits .f32 0x47435000#32) := rfl
theorem pay7_apply (s s' : Vec Ideal S1x128 .f32) (q : S1x128.Idx) :
    k1_pay7 (F := Ideal) s s' q = Ideal.div (s' q) (Ideal.ofBits .f32 0x47435000#32)
      - Ideal.div (s q) (Ideal.ofBits .f32 0x47435000#32) * Ideal.div (s q) (Ideal.ofBits .f32 0x47435000#32) := rfl

/-! ## The accumulation over the ten points -/

variable (W : (c : Dev nD) → (b : Ref sig .tc) → Buf (Elt Ideal) ((c : Thread nD τ).loc b)) (c : Dev nD)

omit W c in
/-- Entry (R, q) of a 50000×128 array plus a bias row's entry at q; zero past the last row. -/
def g (A : S50000x128.Idx → EReal) (b : S1x128.Idx → EReal) (R : ℕ) (q : S1x128.Idx) : EReal :=
  if h : R < 50000 then A (cellW ⟨R, h⟩ q) + b (rowQ q) else 0

/-- The rows' block of point `t` starts at row 5000·t; the bias row's block is the bias row. -/
theorem idx_in : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- One block's (entry + bias) at local row `r` is g at row 5000·t + r. -/
theorem blk_g (t : Fin cfg1.N) (r : Fin 5000) (q : S1x128.Idx) :
    (fun a b : EReal => a + b) (iblk1 W c 0 t (cell r q)) (iblk1 W c 1 t (rowQ q)) = g (W c main_v43) (W c main_v44) (5000 * t.val + r.val) q := by
  obtain ⟨e0, e1, e2, e3⟩ := idx_in t
  have hN : t.val < 10 := lt_of_lt_of_eq t.isLt (show cfg1.N = 10 from N_1)
  have hr : r.val < 5000 := r.isLt
  have hq : (q 1).val < 128 := (q 1).isLt
  have hlt : 5000 * t.val + r.val < 50000 := by omega
  unfold g
  rw [dif_pos hlt]
  have ha : ((cfg1.win 0).blk t).view.emb (cell r q) = cellW ⟨5000 * t.val + r.val, hlt⟩ q := by
    funext a; apply Fin.ext
    match a with
    | ⟨0, _⟩ => show win1_0.index t (0 : Fin 2) * 5000 + 1 * r.val = 5000 * t.val + r.val; omega
    | ⟨1, _⟩ => show win1_0.index t (1 : Fin 2) * 128 + 1 * (q 1).val = (q 1).val; omega
  have hb : ((cfg1.win 1).blk t).view.emb (rowQ q) = rowQ q := by
    funext a; apply Fin.ext
    match a with
    | ⟨0, _⟩ => show win1_1.index t (0 : Fin 2) * 1 + 1 * 0 = 0; omega
    | ⟨1, _⟩ => show win1_1.index t (1 : Fin 2) * 128 + 1 * (q 1).val = (q 1).val; omega
  refine congrArg₂ (fun a b : EReal => a + b) ?_ ?_
  · show W c main_v43 (((cfg1.win 0).blk t).view.emb (cell r q)) = _
    rw [ha]
  · show W c main_v44 (((cfg1.win 1).blk t).view.emb (rowQ q)) = _
    rw [hb]

/-- The same with the starting row named. -/
theorem blk_g' (t : Fin cfg1.N) (N : ℕ) (hN : N = 5000 * t.val) (r : Fin 5000) (q : S1x128.Idx) :
    (fun a b : EReal => a + b) (iblk1 W c 0 t (cell r q)) (iblk1 W c 1 t (rowQ q)) = g (W c main_v43) (W c main_v44) (N + r.val) q := by
  subst hN; exact blk_g W c t r q

omit W c in
/-- One point's update of the sum row, over plain vectors: if the row held the sum of `f` over the first `N` rows and
    the block's entries plus bias are `f` at rows `N … N+4999`, it now holds the sum over the first `N + 5000`. -/
theorem step4 (x0 : Vec Ideal S5000x128 .f32) (x1 s : Vec Ideal S1x128 .f32) (q : S1x128.Idx) (f : ℕ → EReal) (N : ℕ)
    (hs : (s q : EReal) = ∑ R ∈ Finset.range N, f R)
    (hx : ∀ r : Fin 5000, (x0 (cell r q) : EReal) + (x1 (rowQ q) : EReal) = f (N + r.val)) :
    (k1_pay4 (F := Ideal) x0 x1 s q : EReal) = ∑ R ∈ Finset.range (N + 5000), f R := by
  rw [pay4_apply, hs, Finset.sum_range_add]
  refine congrArg (fun z : EReal => _ + z) ?_
  rw [← Fin.sum_univ_eq_sum_range (fun x => f (N + x)) 5000]
  exact Finset.sum_congr rfl fun r _ => hx r

omit W c in
/-- The same for the square-sum row. -/
theorem step5 (x0 : Vec Ideal S5000x128 .f32) (x1 s : Vec Ideal S1x128 .f32) (q : S1x128.Idx) (f : ℕ → EReal) (N : ℕ)
    (hs : (s q : EReal) = ∑ R ∈ Finset.range N, f R * f R)
    (hx : ∀ r : Fin 5000, (x0 (cell r q) : EReal) + (x1 (rowQ q) : EReal) = f (N + r.val)) :
    (k1_pay5 (F := Ideal) x0 x1 s q : EReal) = ∑ R ∈ Finset.range (N + 5000), f R * f R := by
  rw [pay5_apply, hs, Finset.sum_range_add (fun R => f R * f R)]
  refine congrArg (fun z : EReal => _ + z) ?_
  rw [← Fin.sum_univ_eq_sum_range (fun x => f (N + x) * f (N + x)) 5000]
  exact Finset.sum_congr rfl fun r _ => by rw [hx r]

/-- THE RUNNING SUMS: after point `n` the two scratch rows hold, at column `q`, the sums of g and of g² over the first
    5000·n + 5000 rows. -/
theorem acc (n : ℕ) (hn : n < cfg1.N) (q : S1x128.Idx) :
    ((outsAt1 W c n hn).2.2.1 q : EReal) = ∑ R ∈ Finset.range (5000 * n + 5000), g (W c main_v43) (W c main_v44) R q
    ∧ ((outsAt1 W c n hn).2.2.2 q : EReal) = ∑ R ∈ Finset.range (5000 * n + 5000), g (W c main_v43) (W c main_v44) R q * g (W c main_v43) (W c main_v44) R q := by
  induction n with
  | zero =>
    have e : outsAt1 W c 0 hn = stepA1 W c ⟨0, hn⟩ (Nat.zero_mod _) (by show ¬(0 : ℕ) % 10 = 9; decide) :=
      outsAt1_A W c ⟨0, hn⟩ (Nat.zero_mod _) (by show ¬(0 : ℕ) % 10 = 9; decide)
    rw [e]
    constructor
    · rw [sA_0 W c ⟨0, hn⟩]
      exact step4 (iblk1 W c 0 ⟨0, hn⟩) (iblk1 W c 1 ⟨0, hn⟩) (k1_pay1 (F := Ideal)) q (fun R => g (W c main_v43) (W c main_v44) R q) (5000 * 0)
        ((pay1_apply q).trans (Finset.sum_range_zero _).symm) (fun r => blk_g' W c ⟨0, hn⟩ (5000 * 0) rfl r q)
    · rw [sA_1 W c ⟨0, hn⟩]
      exact step5 (iblk1 W c 0 ⟨0, hn⟩) (iblk1 W c 1 ⟨0, hn⟩) (k1_pay2 (F := Ideal)) q (fun R => g (W c main_v43) (W c main_v44) R q) (5000 * 0)
        ((pay2_apply q).trans (Finset.sum_range_zero _).symm) (fun r => blk_g' W c ⟨0, hn⟩ (5000 * 0) rfl r q)
  | succ n ih =>
    have hn' : n < cfg1.N := Nat.lt_of_succ_lt hn
    obtain ⟨ih0, ih1⟩ := ih hn'
    have h0 : ¬(n + 1) % 10 = 0 := ne0_1 hn
    have hN : 5000 * n + 5000 = 5000 * (n + 1) := by ring
    rw [hN] at ih0 ih1
    by_cases h1 : (n + 1) % 10 = 9
    · have e : outsAt1 W c (n + 1) hn = stepC1 W c ⟨n + 1, hn⟩ h0 h1 (outsAt1 W c n hn').2.2.1 (outsAt1 W c n hn').2.2.2 := dif_pos h1
      rw [e]
      constructor
      · rw [sC_0 W c ⟨n + 1, hn⟩]
        exact step4 (iblk1 W c 0 ⟨n + 1, hn⟩) (iblk1 W c 1 ⟨n + 1, hn⟩) _ q (fun R => g (W c main_v43) (W c main_v44) R q) (5000 * (n + 1)) ih0
          (fun r => blk_g' W c ⟨n + 1, hn⟩ (5000 * (n + 1)) rfl r q)
      · rw [sC_1 W c ⟨n + 1, hn⟩]
        exact step5 (iblk1 W c 0 ⟨n + 1, hn⟩) (iblk1 W c 1 ⟨n + 1, hn⟩) _ q (fun R => g (W c main_v43) (W c main_v44) R q) (5000 * (n + 1)) ih1
          (fun r => blk_g' W c ⟨n + 1, hn⟩ (5000 * (n + 1)) rfl r q)
    · have e : outsAt1 W c (n + 1) hn = stepB1 W c ⟨n + 1, hn⟩ h0 h1 (outsAt1 W c n hn').2.2.1 (outsAt1 W c n hn').2.2.2 := dif_neg h1
      rw [e]
      constructor
      · rw [sB_0 W c ⟨n + 1, hn⟩]
        exact step4 (iblk1 W c 0 ⟨n + 1, hn⟩) (iblk1 W c 1 ⟨n + 1, hn⟩) _ q (fun R => g (W c main_v43) (W c main_v44) R q) (5000 * (n + 1)) ih0
          (fun r => blk_g' W c ⟨n + 1, hn⟩ (5000 * (n + 1)) rfl r q)
      · rw [sB_1 W c ⟨n + 1, hn⟩]
        exact step5 (iblk1 W c 0 ⟨n + 1, hn⟩) (iblk1 W c 1 ⟨n + 1, hn⟩) _ q (fun R => g (W c main_v43) (W c main_v44) R q) (5000 * (n + 1)) ih1
          (fun r => blk_g' W c ⟨n + 1, hn⟩ (5000 * (n + 1)) rfl r q)

/-! ## The two output rows -/

omit W c in
theorem g_congr (A : S50000x128.Idx → EReal) (b : S1x128.Idx → EReal) (R : ℕ) (q q' : S1x128.Idx) (h : (q 1).val = (q' 1).val) : g A b R q = g A b R q' := by
  unfold g
  have e1 : ∀ hR : R < 50000, cellW ⟨R, hR⟩ q = cellW ⟨R, hR⟩ q' := fun hR => by
    funext a; apply Fin.ext
    match a with
    | ⟨0, _⟩ => rfl
    | ⟨1, _⟩ => exact h
  have e2 : rowQ q = rowQ q' := by
    funext a; apply Fin.ext
    match a with
    | ⟨0, _⟩ => rfl
    | ⟨1, _⟩ => exact h
  by_cases hR : R < 50000
  · rw [dif_pos hR, dif_pos hR, e1 hR, e2]
  · rw [dif_neg hR, dif_neg hR]

omit W c in
/-- The column mean of (entry + bias) over the 50000 rows. -/
def meanRow (A : S50000x128.Idx → EReal) (b : S1x128.Idx → EReal) (q : S1x128.Idx) : EReal :=
  Ideal.div (∑ R ∈ Finset.range 50000, g A b R q) (Ideal.ofBits .f32 0x47435000#32)
omit W c in
/-- The column mean of squares minus the squared column mean. -/
def varRow (A : S50000x128.Idx → EReal) (b : S1x128.Idx → EReal) (q : S1x128.Idx) : EReal :=
  Ideal.div (∑ R ∈ Finset.range 50000, g A b R q * g A b R q) (Ideal.ofBits .f32 0x47435000#32) - meanRow A b q * meanRow A b q

omit W c in
theorem meanRow_congr (A : S50000x128.Idx → EReal) (b : S1x128.Idx → EReal) (q q' : S1x128.Idx) (h : (q 1).val = (q' 1).val) :
    meanRow A b q = meanRow A b q' := by
  unfold meanRow
  simp only [fun R => g_congr A b R q q' h]
omit W c in
theorem varRow_congr (A : S50000x128.Idx → EReal) (b : S1x128.Idx → EReal) (q q' : S1x128.Idx) (h : (q 1).val = (q' 1).val) :
    varRow A b q = varRow A b q' := by
  unfold varRow
  rw [meanRow_congr A b q q' h]
  simp only [fun R => g_congr A b R q q' h]

/-- After the tenth point the two output rows hold the mean and that variance. -/
theorem out_last (hn : 9 < cfg1.N) (q : S1x128.Idx) :
    ((outsAt1 W c 9 hn).1 q : EReal) = meanRow (W c main_v43) (W c main_v44) q ∧ ((outsAt1 W c 9 hn).2.1 q : EReal) = varRow (W c main_v43) (W c main_v44) q := by
  have hn' : 8 < cfg1.N := Nat.lt_of_succ_lt hn
  have h0 : ¬(8 + 1) % 10 = 0 := by decide
  have h1 : (8 + 1) % 10 = 9 := rfl
  have e : outsAt1 W c (8 + 1) hn = stepC1 W c ⟨8 + 1, hn⟩ h0 h1 (outsAt1 W c 8 hn').2.2.1 (outsAt1 W c 8 hn').2.2.2 := dif_pos h1
  obtain ⟨a0, a1⟩ := acc W c (8 + 1) hn q
  rw [show 5000 * (8 + 1) + 5000 = 50000 from rfl] at a0 a1
  have s0 : (outsAt1 W c (8 + 1) hn).2.2.1 = k1_pay4 (iblk1 W c 0 ⟨8 + 1, hn⟩) (iblk1 W c 1 ⟨8 + 1, hn⟩) (outsAt1 W c 8 hn').2.2.1 := by
    rw [e]; exact sC_0 W c ⟨8 + 1, hn⟩ h0 h1 _ _
  have s1 : (outsAt1 W c (8 + 1) hn).2.2.2 = k1_pay5 (iblk1 W c 0 ⟨8 + 1, hn⟩) (iblk1 W c 1 ⟨8 + 1, hn⟩) (outsAt1 W c 8 hn').2.2.2 := by
    rw [e]; exact sC_1 W c ⟨8 + 1, hn⟩ h0 h1 _ _
  have o2 : (outsAt1 W c (8 + 1) hn).1 = k1_pay6 ((outsAt1 W c (8 + 1) hn).2.2.1) := by
    rw [s0, e]; exact oC_2 W c ⟨8 + 1, hn⟩ h0 h1 _ _
  have o3 : (outsAt1 W c (8 + 1) hn).2.1 = k1_pay7 ((outsAt1 W c (8 + 1) hn).2.2.1) ((outsAt1 W c (8 + 1) hn).2.2.2) := by
    rw [s0, s1, e]; exact oC_3 W c ⟨8 + 1, hn⟩ h0 h1 _ _
  constructor
  · show ((outsAt1 W c (8 + 1) hn).1 q : EReal) = _
    rw [o2, pay6_apply, a0]; rfl
  · show ((outsAt1 W c (8 + 1) hn).2.1 q : EReal) = _
    rw [o3, pay7_apply, a0, a1]; rfl

theorem idx_out : ∀ t : Fin cfg1.N, win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem nine_lt : 9 < cfg1.N := by have : cfg1.N = 10 := N_1; omega

theorem last_pt (t : Fin cfg1.N) (h : t.val % 10 = 9) : t = ⟨9, nine_lt⟩ := by
  apply Fin.ext
  have hN : t.val < 10 := lt_of_lt_of_eq t.isLt (show cfg1.N = 10 from N_1)
  show t.val = 9
  omega

/-- THE MEAN ROW after the region. -/
theorem final2 : (dat1 W c).arrAt 2 cfg1.N = meanRow (W c main_v43) (W c main_v44) := by
  refine (dat1 W c).arrAt_eq_of_cover 2 (meanRow (W c main_v43) (W c main_v44)) (fun t hf => ?_) (fun i => ?_)
  · have ht := last_pt t ((flush1_2 t).mp hf)
    obtain ⟨e0, e1, -, -⟩ := idx_out t
    show (cfg1.win 2).cut (grid1.coords t) ((dat1 W c).after 2 t) = _
    rw [after1_2]
    funext y
    have hy : (((cfg1.win 2).blk t).view.emb y 1).val = (y 1).val := by
      show win1_2.index t (1 : Fin 2) * 128 + 1 * (y 1).val = (y 1).val; omega
    show ((outsAt1 W c t.val t.isLt).1 y : EReal) = meanRow (W c main_v43) (W c main_v44) (((cfg1.win 2).blk t).view.emb y)
    subst ht
    rw [(out_last W c nine_lt y).1]
    exact meanRow_congr _ _ _ _ hy.symm
  · refine ⟨⟨9, nine_lt⟩, (flush1_2 _).mpr rfl, ?_⟩
    obtain ⟨e0, e1, -, -⟩ := idx_out ⟨9, nine_lt⟩
    show i ∈ ((View.whole main_v48_0).slice (win1_2.rect ⟨9, nine_lt⟩)).set
    rw [View.set_slice_whole, Rect.mem_set_unit]
    intro a
    have hi0 : (i 0).val < 1 := (i 0).isLt
    have hi1 : (i 1).val < 128 := (i 1).isLt
    match a with
    | ⟨0, _⟩ => show win1_2.index ⟨9, nine_lt⟩ (0 : Fin 2) * 1 ≤ (i 0).val ∧ (i 0).val < win1_2.index ⟨9, nine_lt⟩ (0 : Fin 2) * 1 + 1; omega
    | ⟨1, _⟩ => show win1_2.index ⟨9, nine_lt⟩ (1 : Fin 2) * 128 ≤ (i 1).val ∧ (i 1).val < win1_2.index ⟨9, nine_lt⟩ (1 : Fin 2) * 128 + 128; omega

/-- THE VARIANCE ROW after the region. -/
theorem final3 : (dat1 W c).arrAt 3 cfg1.N = varRow (W c main_v43) (W c main_v44) := by
  refine (dat1 W c).arrAt_eq_of_cover 3 (varRow (W c main_v43) (W c main_v44)) (fun t hf => ?_) (fun i => ?_)
  · have ht := last_pt t ((flush1_3 t).mp hf)
    obtain ⟨-, -, e0, e1⟩ := idx_out t
    show (cfg1.win 3).cut (grid1.coords t) ((dat1 W c).after 3 t) = _
    rw [after1_3]
    funext y
    have hy : (((cfg1.win 3).blk t).view.emb y 1).val = (y 1).val := by
      show win1_3.index t (1 : Fin 2) * 128 + 1 * (y 1).val = (y 1).val; omega
    show ((outsAt1 W c t.val t.isLt).2.1 y : EReal) = varRow (W c main_v43) (W c main_v44) (((cfg1.win 3).blk t).view.emb y)
    subst ht
    rw [(out_last W c nine_lt y).2]
    exact varRow_congr _ _ _ _ hy.symm
  · refine ⟨⟨9, nine_lt⟩, (flush1_3 _).mpr rfl, ?_⟩
    obtain ⟨-, -, e0, e1⟩ := idx_out ⟨9, nine_lt⟩
    show i ∈ ((View.whole main_v48_1).slice (win1_3.rect ⟨9, nine_lt⟩)).set
    rw [View.set_slice_whole, Rect.mem_set_unit]
    intro a
    have hi0 : (i 0).val < 1 := (i 0).isLt
    have hi1 : (i 1).val < 128 := (i 1).isLt
    match a with
    | ⟨0, _⟩ => show win1_3.index ⟨9, nine_lt⟩ (0 : Fin 2) * 1 ≤ (i 0).val ∧ (i 0).val < win1_3.index ⟨9, nine_lt⟩ (0 : Fin 2) * 1 + 1; omega
    | ⟨1, _⟩ => show win1_3.index ⟨9, nine_lt⟩ (1 : Fin 2) * 128 ≤ (i 1).val ∧ (i 1).val < win1_3.index ⟨9, nine_lt⟩ (1 : Fin 2) * 128 + 128; omega

end Cert.KernelIdeal.Value1

end
-- ==== Proof.KI_Value2.lean ====
/- The value of region 2: after its ten points the output array holds, at row r and column q, the entry of the rows
   array at (r, q) plus the bias at q, minus the mean at q, times the inverse square root of (variance at q + ε), times
   the gain at q, plus the offset at q — kept if positive, else scaled by the slope. Each point writes its block of 5000
   rows and the ten blocks tile the 50000 rows. -/
import proofs.«112204_j28269474742836_1_alg».proof.Proof.KI_Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value2

open Cert.KernelIdeal Cert.KernelIdeal.Gen Cert.KernelIdeal.Regions
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One entry: normalise, apply gain and offset, then the leaky rectifier. -/
def nrmS (x b mu v g be al : EReal) : EReal :=
  Scalar.select (FloatOps.cmpf (F := Ideal) .ogt ((((x + b) - mu) * FloatOps.rsqrt (F := Ideal) (φ := .f32) (v + Ideal.ofBits .f32 0x3727C5AC#32)) * g + be) (Ideal.ofBits .f32 0x00000000#32))
    ((((x + b) - mu) * FloatOps.rsqrt (F := Ideal) (φ := .f32) (v + Ideal.ofBits .f32 0x3727C5AC#32)) * g + be)
    (al * ((((x + b) - mu) * FloatOps.rsqrt (F := Ideal) (φ := .f32) (v + Ideal.ofBits .f32 0x3727C5AC#32)) * g + be))

/-- Column `q` of a one-row array, from an index of the block / of the array. -/
abbrev rowOf (j : S5000x128.Idx) : S1x128.Idx := fun a => match a with
  | ⟨0, _⟩ => (⟨0, Nat.zero_lt_one⟩ : Fin 1)
  | ⟨1, _⟩ => ⟨(j 1).val, (j 1).isLt⟩
abbrev rowOfW (i : S50000x128.Idx) : S1x128.Idx := fun a => match a with
  | ⟨0, _⟩ => (⟨0, Nat.zero_lt_one⟩ : Fin 1)
  | ⟨1, _⟩ => ⟨(i 1).val, (i 1).isLt⟩
abbrev oneIdx : S1x1.Idx := fun a => match a with
  | ⟨0, _⟩ => (⟨0, Nat.zero_lt_one⟩ : Fin 1)
  | ⟨1, _⟩ => (⟨0, Nat.zero_lt_one⟩ : Fin 1)

/-- The whole-array function. -/
def nrm (X : S50000x128.Idx → EReal) (b mu v g be : S1x128.Idx → EReal) (al : S1x1.Idx → EReal) : S50000x128.Idx → EReal := fun i =>
  nrmS (X i) (b (rowOfW i)) (mu (rowOfW i)) (v (rowOfW i)) (g (rowOfW i)) (be (rowOfW i)) (al oneIdx)

theorem hz : (![0, 0] : Fin 2 → Nat) = fun _ => 0 := funext fun a => by fin_cases a <;> rfl

/-- The body's payload at an index of the block. -/
theorem pay_apply (x0 : Vec Ideal S5000x128 .f32) (x1 x2 x3 x4 x5 : Vec Ideal S1x128 .f32) (x6 : Vec Ideal S1x1 .f32) (j : S5000x128.Idx) :
    k2_pay1 (F := Ideal) x0 x1 x2 x3 x4 x5 x6 j = nrmS (x0 j) (x1 (rowOf j)) (x2 (rowOf j)) (x3 (rowOf j)) (x4 (rowOf j)) (x5 (rowOf j)) (x6 oneIdx) := by
  have hb : ∀ (x : Vec Ideal S1x128 .f32), broadcastTo S5000x128 x broadcasts_S1x128_S5000x128 j = x (rowOf j) := fun x =>
    broadcastTo_apply x _ j (rowOf j) (fun a => by fin_cases a <;> rfl)
  have ha : broadcastTo S5000x128 x6 broadcasts_S1x1_S5000x128 j = x6 oneIdx :=
    broadcastTo_apply x6 _ j oneIdx (fun a => by fin_cases a <;> rfl)
  unfold k2_pay1 nrmS
  simp only [shapeCast_self]
  show Scalar.select _ _ _ = _
  simp only [select_apply, cmpf_apply, mulf_apply, addf_apply, subf_apply, broadcast_apply, hb, ha]
  rfl

/-! ## From blocks to the array -/

theorem idx_facts0 : ∀ t : Fin cfg2.N, win2_0.index t (0 : Fin 2) = win2_7.index t (0 : Fin 2) ∧ win2_0.index t (1 : Fin 2) = 0
    ∧ win2_7.index t (1 : Fin 2) = 0 ∧ win2_7.index t (0 : Fin 2) ≤ 9 :=
  (by decide +kernel : ∀ t : Fin grid2.N, _)
theorem idx_facts1 : ∀ t : Fin cfg2.N, win2_1.index t (0 : Fin 2) = 0 ∧ win2_1.index t (1 : Fin 2) = 0 :=
  (by decide +kernel : ∀ t : Fin grid2.N, _)
theorem idx_facts2 : ∀ t : Fin cfg2.N, win2_2.index t (0 : Fin 2) = 0 ∧ win2_2.index t (1 : Fin 2) = 0 :=
  (by decide +kernel : ∀ t : Fin grid2.N, _)
theorem idx_facts3 : ∀ t : Fin cfg2.N, win2_3.index t (0 : Fin 2) = 0 ∧ win2_3.index t (1 : Fin 2) = 0 :=
  (by decide +kernel : ∀ t : Fin grid2.N, _)
theorem idx_facts4 : ∀ t : Fin cfg2.N, win2_4.index t (0 : Fin 2) = 0 ∧ win2_4.index t (1 : Fin 2) = 0 :=
  (by decide +kernel : ∀ t : Fin grid2.N, _)
theorem idx_facts5 : ∀ t : Fin cfg2.N, win2_5.index t (0 : Fin 2) = 0 ∧ win2_5.index t (1 : Fin 2) = 0 :=
  (by decide +kernel : ∀ t : Fin grid2.N, _)
theorem idx_facts6 : ∀ t : Fin cfg2.N, win2_6.index t (0 : Fin 2) = 0 ∧ win2_6.index t (1 : Fin 2) = 0 :=
  (by decide +kernel : ∀ t : Fin grid2.N, _)

theorem idx_onto : ∀ q0 : Fin 10, ∃ t : Fin cfg2.N, win2_7.index t = ![q0.val, 0] :=
  (by decide +kernel : ∀ q0 : Fin 10, ∃ t : Fin grid2.N, win2_7.index t = ![q0.val, 0])

set_option maxHeartbeats 4000000 in
/-- WHAT POINT `t` WRITES BACK is block `t` of the normalised array. -/
theorem flushed_eq (c : Dev nD) (t : Fin cfg2.N) :
    (dat2 V c).flushed 7 t = ((cfg2.win 7).blk t).view.read (Elt Ideal)
      (nrm (V c main_v43) (V c main_v44) (V c main_v48_0) (V c main_v48_1) (V c main_v45) (V c main_v46) (V c main_v47)) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz, View.ld_unit_zero (S := S1x1) hz]
  obtain ⟨e00, e01, e71, e70⟩ := idx_facts0 t
  obtain ⟨e10, e11⟩ := idx_facts1 t
  obtain ⟨e20, e21⟩ := idx_facts2 t
  obtain ⟨e30, e31⟩ := idx_facts3 t
  obtain ⟨e40, e41⟩ := idx_facts4 t
  obtain ⟨e50, e51⟩ := idx_facts5 t
  obtain ⟨e60, e61⟩ := idx_facts6 t
  funext j
  refine (pay_apply _ _ _ _ _ _ _ j).trans ?_
  have hj0 : (j 0).val < 5000 := (j 0).isLt
  have hj1 : (j 1).val < 128 := (j 1).isLt
  have h0 : ((cfg2.win 0).blk t).view.emb j = ((cfg2.win 7).blk t).view.emb j := by
    funext a; apply Fin.ext
    match a with
    | ⟨0, _⟩ => show win2_0.index t (0 : Fin 2) * 5000 + 1 * (j 0).val = win2_7.index t (0 : Fin 2) * 5000 + 1 * (j 0).val; omega
    | ⟨1, _⟩ => show win2_0.index t (1 : Fin 2) * 128 + 1 * (j 1).val = win2_7.index t (1 : Fin 2) * 128 + 1 * (j 1).val; omega
  have h1 : ((cfg2.win 1).blk t).view.emb (rowOf j) = rowOfW (((cfg2.win 7).blk t).view.emb j) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_7.index t (1 : Fin 2) * 128 + 1 * (j 1).val; omega
  have h2 : ((cfg2.win 2).blk t).view.emb (rowOf j) = rowOfW (((cfg2.win 7).blk t).view.emb j) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_7.index t (1 : Fin 2) * 128 + 1 * (j 1).val; omega
  have h3 : ((cfg2.win 3).blk t).view.emb (rowOf j) = rowOfW (((cfg2.win 7).blk t).view.emb j) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_7.index t (1 : Fin 2) * 128 + 1 * (j 1).val; omega
  have h4 : ((cfg2.win 4).blk t).view.emb (rowOf j) = rowOfW (((cfg2.win 7).blk t).view.emb j) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_7.index t (1 : Fin 2) * 128 + 1 * (j 1).val; omega
  have h5 : ((cfg2.win 5).blk t).view.emb (rowOf j) = rowOfW (((cfg2.win 7).blk t).view.emb j) := by
    funext a; apply Fin.ext
    match a with
    | ⟨0, _⟩ => show win2_5.index t (0 : Fin 2) * 1 + 1 * 0 = 0; omega
    | ⟨1, _⟩ => show win2_5.index t (1 : Fin 2) * 128 + 1 * (j 1).val = win2_7.index t (1 : Fin 2) * 128 + 1 * (j 1).val; omega
  have h6 : ((cfg2.win 6).blk t).view.emb oneIdx = oneIdx := by
    funext a; apply Fin.ext
    match a with
    | ⟨0, _⟩ => show win2_6.index t (0 : Fin 2) * 1 + 1 * 0 = 0; omega
    | ⟨1, _⟩ => show win2_6.index t (1 : Fin 2) * 1 + 1 * 0 = 0; omega
  have g0 : iblk2 V c 0 t j = V c main_v43 (((cfg2.win 7).blk t).view.emb j) := by
    show V c main_v43 (((cfg2.win 0).blk t).view.emb j) = _
    rw [h0]
  have g1 : iblk2 V c 1 t (rowOf j) = V c main_v44 (rowOfW (((cfg2.win 7).blk t).view.emb j)) := by
    show V c main_v44 (((cfg2.win 1).blk t).view.emb (rowOf j)) = _
    rw [h1]
  have g2 : iblk2 V c 2 t (rowOf j) = V c main_v48_0 (rowOfW (((cfg2.win 7).blk t).view.emb j)) := by
    show V c main_v48_0 (((cfg2.win 2).blk t).view.emb (rowOf j)) = _
    rw [h2]
  have g3 : iblk2 V c 3 t (rowOf j) = V c main_v48_1 (rowOfW (((cfg2.win 7).blk t).view.emb j)) := by
    show V c main_v48_1 (((cfg2.win 3).blk t).view.emb (rowOf j)) = _
    rw [h3]
  have g4 : iblk2 V c 4 t (rowOf j) = V c main_v45 (rowOfW (((cfg2.win 7).blk t).view.emb j)) := by
    show V c main_v45 (((cfg2.win 4).blk t).view.emb (rowOf j)) = _
    rw [h4]
  have g5 : iblk2 V c 5 t (rowOf j) = V c main_v46 (rowOfW (((cfg2.win 7).blk t).view.emb j)) := by
    show V c main_v46 (((cfg2.win 5).blk t).view.emb (rowOf j)) = _
    rw [h5]
  have g6 : iblk2 V c 6 t oneIdx = V c main_v47 oneIdx := by
    show V c main_v47 (((cfg2.win 6).blk t).view.emb oneIdx) = _
    rw [h6]
  rw [g0, g1, g2, g3, g4, g5, g6]
  rfl

theorem mem_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v49).slice (win2_7.rect t)).set ↔ _
  rw [View.set_slice_whole, Rect.mem_set_unit]
  exact Iff.rfl

theorem cover (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := idx_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- THE OUTPUT ARRAY after the region. -/
theorem final (c : Dev nD) : (dat2 V c).arrAt 7 cfg2.N
    = nrm (V c main_v43) (V c main_v44) (V c main_v48_0) (V c main_v48_1) (V c main_v45) (V c main_v46) (V c main_v47) :=
  (dat2 V c).arrAt_eq_of_cover 7 _ (fun t _ => flushed_eq V c t) cover

end Cert.KernelIdeal.Value2

end
-- ==== Proof.KI_Value3.lean ====
/- The value of region 3: after its ten points the output array holds, at row r and column q, the sum over k of
   (left operand at (r, k)) · (right operand at (k, q)) — each point writes the block of 5000 rows it computed from its
   block of rows of the left operand and the whole right operand, and the ten blocks tile the 50000 rows. -/
import proofs.«112204_j28269474742836_1_alg».proof.Proof.KI_Region3
import Idealize.ShloMosaic.Lib.Pipeline.Value
import Idealize.ShloMosaic.Lib.ValueIdx
import Idealize.ShloMosaic.PureOps.Ideal.Laws

set_option maxRecDepth 16384

noncomputable section

namespace Cert.KernelIdeal.Value3

open Cert.KernelIdeal Cert.KernelIdeal.Gen Cert.KernelIdeal.Regions
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Row `r`, column `q` of the product of a 50000×128 array with a 128×128 array, as a sum over the shared axis. -/
def mm (A : S50000x128.Idx → EReal) (B : S128x128.Idx → EReal) : S50000x128.Idx → EReal := fun i =>
  ∑ k : Fin 128, A (fun a => match a with | ⟨0, _⟩ => ⟨(i 0).val, (i 0).isLt⟩ | ⟨1, _⟩ => ⟨k.val, k.isLt⟩)
    * B (fun a => match a with | ⟨0, _⟩ => ⟨k.val, k.isLt⟩ | ⟨1, _⟩ => ⟨(i 1).val, (i 1).isLt⟩)

theorem hz : (![0, 0] : Fin 2 → Nat) = fun _ => 0 := funext fun a => by fin_cases a <;> rfl

/-! ## The body's product at an index of the block -/

theorem lhsB_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhsB_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhsB_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

abbrev lB (j : S5000x128.Idx) (k : Fin 128) : S5000x128.Idx := fun a => match a with
  | ⟨0, _⟩ => ⟨(j 0).val, (j 0).isLt⟩
  | ⟨1, _⟩ => ⟨k.val, k.isLt⟩
abbrev rB (j : S5000x128.Idx) (k : Fin 128) : S128x128.Idx := fun a => match a with
  | ⟨0, _⟩ => ⟨k.val, k.isLt⟩
  | ⟨1, _⟩ => ⟨(j 1).val, (j 1).isLt⟩

/-- The body's payload at an index of its block: the sum over the shared axis. -/
theorem pay_apply (x0 : Vec Ideal S5000x128 .f32) (x1 : Vec Ideal S128x128 .f32) (j : S5000x128.Idx) :
    k3_pay1 (F := Ideal) x0 x1 j = ∑ k : Fin 128, ((x0 (lB j k) : EReal) * (x1 (rB j k) : EReal)) := by
  have e : k3_pay1 (F := Ideal) x0 x1 = matmul (φ₁ := .f32) (φ₂ := .f32) dot_S5000x128_S128x128_S5000x128_1_0_0_1_n_n none x0 x1 (constant S5000x128 .f32 0x00000000#32) := by
    unfold k3_pay1
    first | rfl | (simp only [shapeCast_self])
  rw [e]
  refine (Ideal.matmul_constant_zero_apply dot_S5000x128_S128x128_S5000x128_1_0_0_1_n_n none x0 x1 j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lB j k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx j ((ValueIdx.contrEquiv1 dot_S5000x128_S128x128_S5000x128_1_0_0_1_n_n 128 rfl rfl).symm k) = rB j k := funext fun a => Fin.ext (by
    match a with
    | ⟨0, _⟩ => exact (rhsB_0 _ _).trans hk
    | ⟨1, _⟩ => exact rhsB_1 _ _)
  rw [el, er]

/-! ## From blocks to the array -/

/-- The printed index maps over the ten points: the rows' block moves with the output's block; the weights' block and
    every column block index stay at zero. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block of rows is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- WHAT POINT `t` WRITES BACK is block `t` of the product of the two operand arrays as the region finds them. -/
theorem flushed_eq (c : Dev nD) (t : Fin cfg3.N) :
    (dat3 V c).flushed 2 t = ((cfg3.win 2).blk t).view.read (Elt Ideal) (mm (V c main_v49) (V c main_arg7)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  refine (pay_apply _ _ j).trans ?_
  show _ = mm (V c main_v49) (V c main_arg7) (((cfg3.win 2).blk t).view.emb j)
  unfold mm
  refine Finset.sum_congr rfl fun k _ => ?_
  have hj0 : (j 0).val < 5000 := (j 0).isLt
  have hj1 : (j 1).val < 128 := (j 1).isLt
  have hk : k.val < 128 := k.isLt
  have hl : ((cfg3.win 0).blk t).view.emb (lB j k)
      = (fun a => match a with | ⟨0, _⟩ => ⟨((((cfg3.win 2).blk t).view.emb j) 0).val, ((((cfg3.win 2).blk t).view.emb j) 0).isLt⟩ | ⟨1, _⟩ => ⟨k.val, k.isLt⟩ : S50000x128.Idx) := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have hr : ((cfg3.win 1).blk t).view.emb (rB j k)
      = (fun a => match a with | ⟨0, _⟩ => ⟨k.val, k.isLt⟩ | ⟨1, _⟩ => ⟨((((cfg3.win 2).blk t).view.emb j) 1).val, ((((cfg3.win 2).blk t).view.emb j) 1).isLt⟩ : S128x128.Idx) := by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  refine congrArg₂ (fun a b : EReal => a * b) ?_ ?_
  · show V c main_v49 (((cfg3.win 0).blk t).view.emb (lB j k)) = _
    rw [hl]
  · show V c main_arg7 (((cfg3.win 1).blk t).view.emb (rB j k)) = _
    rw [hr]

theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v50).slice (win3_2.rect t)).set ↔ _
  rw [View.set_slice_whole, Rect.mem_set_unit]
  exact Iff.rfl

/-- Every index of the output array is in some point's block: row `r` in the block of point `r / 5000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the region: the product of the two operand arrays as found. -/
theorem final (c : Dev nD) : (dat3 V c).arrAt 2 cfg3.N = mm (V c main_v49) (V c main_arg7) :=
  (dat3 V c).arrAt_eq_of_cover 2 (mm (V c main_v49) (V c main_arg7)) (fun t _ => flushed_eq V c t) cover

end Cert.KernelIdeal.Value3

end
-- ==== Proof.KI_Value4P.lean ====
/- The value of region 4, first part: what each case's stores leave in the four rows, as the kernel's own arithmetic of
   the point's block of rows, the bias row and the scratch rows the point before left. -/
import proofs.«112204_j28269474742836_1_alg».proof.Proof.KI_Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value4

open Cert.KernelIdeal Cert.KernelIdeal.Gen Cert.KernelIdeal.Regions
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

theorem sA_0 (c : Dev nD) (t : Fin cfg4.N) (h0 : t.val % 10 = 0) (h1 : ¬t.val % 10 = 9) :
    (stepA4 V c t h0 h1).2.2.1 = k4_pay4 (iblk4 V c 0 t) (iblk4 V c 1 t) (k4_pay1 (F := F)) := by
  unfold stepA4
  dsimp only
  rw [View.read_writes_eq_canon _ _ _ (scover4_A_0 _ _ _ _ _ _ _ _ _ _ _ _ _ _ _ _ _ _)]
  unfold kernelRun4_A
  dsimp only
  sl_unfold_words
  rw [View.canon_cons_unit_zero hz]
  simp only [View.readCov_unit_zero (S := S1x128) _ hz]
  simp only [View.readAt_eq_ld, Memref.IsWhole.read_unread, View.ld_unit_zero (S := S5000x128) hz, View.ld_unit_zero (S := S1x128) hz]

theorem sA_1 (c : Dev nD) (t : Fin cfg4.N) (h0 : t.val % 10 = 0) (h1 : ¬t.val % 10 = 9) :
    (stepA4 V c t h0 h1).2.2.2 = k4_pay5 (iblk4 V c 0 t) (iblk4 V c 1 t) (k4_pay2 (F := F)) := by
  unfold stepA4
  dsimp only
  rw [View.read_writes_eq_canon _ _ _ (scover4_A_1 _ _ _ _ _ _ _ _ _ _ _ _ _ _ _ _ _ _)]
  unfold kernelRun4_A
  dsimp only
  sl_unfold_words
  rw [View.canon_cons_unit_zero hz]
  simp only [View.readCov_unit_zero (S := S1x128) _ hz]
  simp only [View.readAt_eq_ld, Memref.IsWhole.read_unread, View.ld_unit_zero (S := S5000x128) hz, View.ld_unit_zero (S := S1x128) hz]

theorem sB_0 (c : Dev nD) (t : Fin cfg4.N) (h0 : ¬t.val % 10 = 0) (h1 : ¬t.val % 10 = 9) (xs0 xs1 : Vec F S1x128 .f32) :
    (stepB4 V c t h0 h1 xs0 xs1).2.2.1 = k4_pay4 (iblk4 V c 0 t) (iblk4 V c 1 t) xs0 := by
  unfold stepB4
  dsimp only
  rw [View.read_writes_eq_canon _ _ _ (scover4_B_0 _ _ _ _ _ _ _ _ _ _ _ _ _ _ _ _ _ _ _ _)]
  unfold kernelRun4_B
  dsimp only
  sl_unfold_words
  rw [View.canon_unit_zero hz]
  simp only [View.readAt_eq_ld, Memref.IsWhole.read_unread, View.ld_unit_zero (S := S5000x128) hz, View.ld_unit_zero (S := S1x128) hz]
  exact congrArg (k4_pay4 (iblk4 V c 0 t) (iblk4 V c 1 t)) ((Memref.isWhole_whole cc4_scratch0).read_unread _)

theorem sB_1 (c : Dev nD) (t : Fin cfg4.N) (h0 : ¬t.val % 10 = 0) (h1 : ¬t.val % 10 = 9) (xs0 xs1 : Vec F S1x128 .f32) :
    (stepB4 V c t h0 h1 xs0 xs1).2.2.2 = k4_pay5 (iblk4 V c 0 t) (iblk4 V c 1 t) xs1 := by
  unfold stepB4
  dsimp only
  rw [View.read_writes_eq_canon _ _ _ (scover4_B_1 _ _ _ _ _ _ _ _ _ _ _ _ _ _ _ _ _ _ _ _)]
  unfold kernelRun4_B
  dsimp only
  sl_unfold_words
  rw [View.canon_unit_zero hz]
  simp only [View.readAt_eq_ld, Memref.IsWhole.read_unread, View.ld_unit_zero (S := S5000x128) hz, View.ld_unit_zero (S := S1x128) hz]
  exact congrArg (k4_pay5 (iblk4 V c 0 t) (iblk4 V c 1 t)) ((Memref.isWhole_whole cc4_scratch1).read_unread _)

theorem sC_0 (c : Dev nD) (t : Fin cfg4.N) (h0 : ¬t.val % 10 = 0) (h1 : t.val % 10 = 9) (xs0 xs1 : Vec F S1x128 .f32) :
    (stepC4 V c t h0 h1 xs0 xs1).2.2.1 = k4_pay4 (iblk4 V c 0 t) (iblk4 V c 1 t) xs0 := by
  unfold stepC4
  dsimp only
  rw [View.read_writes_eq_canon _ _ _ (scover4_C_0 _ _ _ _ _ _ _ _ _ _ _ _ _ _ _ _ _ _ _ _)]
  unfold kernelRun4_C
  dsimp only
  sl_unfold_words
  rw [View.canon_unit_zero hz]
  simp only [View.readAt_eq_ld, Memref.IsWhole.read_unread, View.ld_unit_zero (S := S5000x128) hz, View.ld_unit_zero (S := S1x128) hz]
  exact congrArg (k4_pay4 (iblk4 V c 0 t) (iblk4 V c 1 t)) ((Memref.isWhole_whole cc4_scratch0).read_unread _)

theorem sC_1 (c : Dev nD) (t : Fin cfg4.N) (h0 : ¬t.val % 10 = 0) (h1 : t.val % 10 = 9) (xs0 xs1 : Vec F S1x128 .f32) :
    (stepC4 V c t h0 h1 xs0 xs1).2.2.2 = k4_pay5 (iblk4 V c 0 t) (iblk4 V c 1 t) xs1 := by
  unfold stepC4
  dsimp only
  rw [View.read_writes_eq_canon _ _ _ (scover4_C_1 _ _ _ _ _ _ _ _ _ _ _ _ _ _ _ _ _ _ _ _)]
  unfold kernelRun4_C
  dsimp only
  sl_unfold_words
  rw [View.canon_unit_zero hz]
  simp only [View.readAt_eq_ld, Memref.IsWhole.read_unread, View.ld_unit_zero (S := S5000x128) hz, View.ld_unit_zero (S := S1x128) hz]
  exact congrArg (k4_pay5 (iblk4 V c 0 t) (iblk4 V c 1 t)) ((Memref.isWhole_whole cc4_scratch1).read_unread _)

theorem oC_2 (c : Dev nD) (t : Fin cfg4.N) (h0 : ¬t.val % 10 = 0) (h1 : t.val % 10 = 9) (xs0 xs1 : Vec F S1x128 .f32) :
    (stepC4 V c t h0 h1 xs0 xs1).1 = k4_pay6 (k4_pay4 (iblk4 V c 0 t) (iblk4 V c 1 t) xs0) := by
  unfold stepC4
  dsimp only
  rw [View.read_writes_eq_canon _ _ _ (cover4_C_2 _ _ _ _ _ _ _ _ _ _ _ _ _ _ _ _ _ _ _ _)]
  unfold kernelRun4_C
  dsimp only
  sl_unfold_words
  rw [View.canon_unit_zero hz]
  simp only [View.readCov_unit_zero (S := S1x128) _ hz]
  simp only [View.readAt_eq_ld, Memref.IsWhole.read_unread, View.ld_unit_zero (S := S5000x128) hz, View.ld_unit_zero (S := S1x128) hz]
  exact congrArg (fun s => k4_pay6 (k4_pay4 (iblk4 V c 0 t) (iblk4 V c 1 t) s)) ((Memref.isWhole_whole cc4_scratch0).read_unread _)

theorem oC_3 (c : Dev nD) (t : Fin cfg4.N) (h0 : ¬t.val % 10 = 0) (h1 : t.val % 10 = 9) (xs0 xs1 : Vec F S1x128 .f32) :
    (stepC4 V c t h0 h1 xs0 xs1).2.1 = k4_pay7 (k4_pay4 (iblk4 V c 0 t) (iblk4 V c 1 t) xs0) (k4_pay5 (iblk4 V c 0 t) (iblk4 V c 1 t) xs1) := by
  unfold stepC4
  dsimp only
  rw [View.read_writes_eq_canon _ _ _ (cover4_C_3 _ _ _ _ _ _ _ _ _ _ _ _ _ _ _ _ _ _ _ _)]
  unfold kernelRun4_C
  dsimp only
  sl_unfold_words
  rw [View.canon_unit_zero hz]
  simp only [View.readCov_unit_zero (S := S1x128) _ hz]
  simp only [View.readAt_eq_ld, Memref.IsWhole.read_unread, View.ld_unit_zero (S := S5000x128) hz, View.ld_unit_zero (S := S1x128) hz]
  exact congrArg₂ (fun a b => k4_pay7 (k4_pay4 (iblk4 V c 0 t) (iblk4 V c 1 t) a) (k4_pay5 (iblk4 V c 0 t) (iblk4 V c 1 t) b)) ((Memref.isWhole_whole cc4_scratch0).read_unread _) ((Memref.isWhole_whole cc4_scratch1).read_unread _)

end Cert.KernelIdeal.Value4

end
-- ==== Proof.KI_Value4.lean ====
/- The value of region 4, second part: the running column sums. With g(R, q) the entry of the rows array at (R, q)
   plus the bias at q: after point t the first scratch row holds, at column q, the sum of g(R, q) over the first
   5000·(t+1) rows, and the second the sum of the squares; so after the tenth point they hold the sums over all 50000
   rows, and the two output rows hold that sum over 50000 and the square-sum over 50000 minus the square of the former. -/
import proofs.«112204_j28269474742836_1_alg».proof.Proof.KI_Value4P

set_option maxRecDepth 16384

noncomputable section

namespace Cert.KernelIdeal.Value4

open Cert.KernelIdeal Cert.KernelIdeal.Gen Cert.KernelIdeal.Regions
open Idealize.ShloMosaic Idealize.ShloMosaic.TcCoe Idealize.ShloMosaic.Tactic Idealize.SL.Sem
open Idealize.ShloMosaic.Pipeline (Dat)
open Idealize.ShloMosaic.ValueIdx

/-! ## Indices -/

abbrev colOf (q : S1x128.Idx) : S128.Idx := fun a => match a with
  | ⟨0, _⟩ => ⟨(q 1).val, (q 1).isLt⟩
abbrev cell (r : Fin 5000) (q : S1x128.Idx) : S5000x128.Idx := fun a => match a with
  | ⟨0, _⟩ => ⟨r.val, r.isLt⟩
  | ⟨1, _⟩ => ⟨(q 1).val, (q 1).isLt⟩
abbrev rowQ (q : S1x128.Idx) : S1x128.Idx := fun a => match a with
  | ⟨0, _⟩ => (⟨0, Nat.zero_lt_one⟩ : Fin 1)
  | ⟨1, _⟩ => ⟨(q 1).val, (q 1).isLt⟩
abbrev cellW (R : Fin 50000) (q : S1x128.Idx) : S50000x128.Idx := fun a => match a with
  | ⟨0, _⟩ => ⟨R.val, R.isLt⟩
  | ⟨1, _⟩ => ⟨(q 1).val, (q 1).isLt⟩

/-! ## The body's arithmetic at a column -/

/-- The column sum over a block's 5000 rows. -/
theorem red_apply (src : FVec Ideal S5000x128 .f32) (j : S128.Idx) :
    multiReduction .add [0] S128 src 0x00000000#32 reduces_S5000x128_S128 (.inl rfl) rfl j
      = ∑ k : Fin 5000, (src (fun a => match a with | ⟨0, _⟩ => ⟨k.val, k.isLt⟩ | ⟨1, _⟩ => ⟨(j 0).val, (j 0).isLt⟩) : EReal) := by
  refine (Ideal.multiReduction_add_single src 0x00000000#32 reduces_S5000x128_S128 (.inl rfl) rfl j).trans ?_
  refine Finset.sum_congr rfl fun k _ => congrArg src ?_
  funext c; apply Fin.ext
  fin_cases c <;> rfl

theorem bcast_row (x : Vec Ideal S1x128 .f32) (j : S5000x128.Idx) :
    broadcastTo S5000x128 x broadcasts_S1x128_S5000x128 j = x (fun a => match a with | ⟨0, _⟩ => (⟨0, Nat.zero_lt_one⟩ : Fin 1) | ⟨1, _⟩ => ⟨(j 1).val, (j 1).isLt⟩) :=
  broadcastTo_apply x _ j _ (fun a => by fin_cases a <;> rfl)

theorem addUnit_apply (v : FVec Ideal S128 .f32) (q : S1x128.Idx) :
    shapeCast S1x128 v shapeCasts_S128_S1x128 q = v (colOf q) := by
  refine (shapeCast_addUnit_apply (n := 1) ![128] v shapeCasts_S128_S1x128 q).trans ?_
  refine congrArg v ?_
  funext a; apply Fin.ext
  fin_cases a; rfl

/-- An entry of the block plus the bias at its column. -/
theorem pay3_apply (x0 : Vec Ideal S5000x128 .f32) (x1 : Vec Ideal S1x128 .f32) (j : S5000x128.Idx) :
    k4_pay3 (F := Ideal) x0 x1 j = (x0 j : EReal) + (x1 (fun a => match a with | ⟨0, _⟩ => (⟨0, Nat.zero_lt_one⟩ : Fin 1) | ⟨1, _⟩ => ⟨(j 1).val, (j 1).isLt⟩) : EReal) := by
  unfold k4_pay3
  simp only [shapeCast_self]
  show (x0 j : EReal) + broadcastTo S5000x128 x1 broadcasts_S1x128_S5000x128 j = _
  rw [bcast_row]

/-- The sum row's update at column `q`: what it held plus the block's column sum of (entry + bias). -/
theorem pay4_apply (x0 : Vec Ideal S5000x128 .f32) (x1 s : Vec Ideal S1x128 .f32) (q : S1x128.Idx) :
    k4_pay4 (F := Ideal) x0 x1 s q = (s q : EReal) + ∑ r : Fin 5000, ((x0 (cell r q) : EReal) + (x1 (rowQ q) : EReal)) := by
  unfold k4_pay4
  simp only [shapeCast_self]
  show (s q : EReal) + shapeCast S1x128 _ shapeCasts_S128_S1x128 q = _
  rw [addUnit_apply, red_apply]
  refine congrArg (fun z : EReal => (s q : EReal) + z) (Finset.sum_congr rfl fun r _ => ?_)
  show k4_pay3 (F := Ideal) x0 x1 _ = _
  rw [pay3_apply]

/-- The square-sum row's update at column `q`. -/
theorem pay5_apply (x0 : Vec Ideal S5000x128 .f32) (x1 s : Vec Ideal S1x128 .f32) (q : S1x128.Idx) :
    k4_pay5 (F := Ideal) x0 x1 s q = (s q : EReal) + ∑ r : Fin 5000, (((x0 (cell r q) : EReal) + (x1 (rowQ q) : EReal)) * ((x0 (cell r q) : EReal) + (x1 (rowQ q) : EReal))) := by
  unfold k4_pay5
  simp only [shapeCast_self]
  show (s q : EReal) + shapeCast S1x128 _ shapeCasts_S128_S1x128 q = _
  rw [addUnit_apply, red_apply]
  refine congrArg (fun z : EReal => (s q : EReal) + z) (Finset.sum_congr rfl fun r _ => ?_)
  show (k4_pay3 (F := Ideal) x0 x1 _ : EReal) * (k4_pay3 (F := Ideal) x0 x1 _ : EReal) = _
  rw [pay3_apply]

theorem pay1_apply (q : S1x128.Idx) : k4_pay1 (F := Ideal) q = (0 : EReal) := by
  unfold k4_pay1
  simp only [shapeCast_self]
  show Ideal.ofBits .f32 0x00000000#32 = 0
  exact Ideal.ofBits_zero_f32
theorem pay2_apply (q : S1x128.Idx) : k4_pay2 (F := Ideal) q = (0 : EReal) := by
  unfold k4_pay2
  simp only [shapeCast_self]
  show Ideal.ofBits .f32 0x00000000#32 = 0
  exact Ideal.ofBits_zero_f32

theorem pay6_apply (s : Vec Ideal S1x128 .f32) (q : S1x128.Idx) :
    k4_pay6 (F := Ideal) s q = Ideal.div (s q) (Ideal.ofBits .f32 0x47435000#32) := rfl
theorem pay7_apply (s s' : Vec Ideal S1x128 .f32) (q : S1x128.Idx) :
    k4_pay7 (F := Ideal) s s' q = Ideal.div (s' q) (Ideal.ofBits .f32 0x47435000#32)
      - Ideal.div (s q) (Ideal.ofBits .f32 0x47435000#32) * Ideal.div (s q) (Ideal.ofBits .f32 0x47435000#32) := rfl

/-! ## The accumulation over the ten points -/

variable (W : (c : Dev nD) → (b : Ref sig .tc) → Buf (Elt Ideal) ((c : Thread nD τ).loc b)) (c : Dev nD)

omit W c in
/-- Entry (R, q) of a 50000×128 array plus a bias row's entry at q; zero past the last row. -/
def g (A : S50000x128.Idx → EReal) (b : S1x128.Idx → EReal) (R : ℕ) (q : S1x128.Idx) : EReal :=
  if h : R < 50000 then A (cellW ⟨R, h⟩ q) + b (rowQ q) else 0

/-- The rows' block of point `t` starts at row 5000·t; the bias row's block is the bias row. -/
theorem idx_in : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- One block's (entry + bias) at local row `r` is g at row 5000·t + r. -/
theorem blk_g (t : Fin cfg4.N) (r : Fin 5000) (q : S1x128.Idx) :
    (fun a b : EReal => a + b) (iblk4 W c 0 t (cell r q)) (iblk4 W c 1 t (rowQ q)) = g (W c main_v63) (W c main_v64) (5000 * t.val + r.val) q := by
  obtain ⟨e0, e1, e2, e3⟩ := idx_in t
  have hN : t.val < 10 := lt_of_lt_of_eq t.isLt (show cfg4.N = 10 from N_4)
  have hr : r.val < 5000 := r.isLt
  have hq : (q 1).val < 128 := (q 1).isLt
  have hlt : 5000 * t.val + r.val < 50000 := by omega
  unfold g
  rw [dif_pos hlt]
  have ha : ((cfg4.win 0).blk t).view.emb (cell r q) = cellW ⟨5000 * t.val + r.val, hlt⟩ q := by
    funext a; apply Fin.ext
    match a with
    | ⟨0, _⟩ => show win4_0.index t (0 : Fin 2) * 5000 + 1 * r.val = 5000 * t.val + r.val; omega
    | ⟨1, _⟩ => show win4_0.index t (1 : Fin 2) * 128 + 1 * (q 1).val = (q 1).val; omega
  have hb : ((cfg4.win 1).blk t).view.emb (rowQ q) = rowQ q := by
    funext a; apply Fin.ext
    match a with
    | ⟨0, _⟩ => show win4_1.index t (0 : Fin 2) * 1 + 1 * 0 = 0; omega
    | ⟨1, _⟩ => show win4_1.index t (1 : Fin 2) * 128 + 1 * (q 1).val = (q 1).val; omega
  refine congrArg₂ (fun a b : EReal => a + b) ?_ ?_
  · show W c main_v63 (((cfg4.win 0).blk t).view.emb (cell r q)) = _
    rw [ha]
  · show W c main_v64 (((cfg4.win 1).blk t).view.emb (rowQ q)) = _
    rw [hb]

/-- The same with the starting row named. -/
theorem blk_g' (t : Fin cfg4.N) (N : ℕ) (hN : N = 5000 * t.val) (r : Fin 5000) (q : S1x128.Idx) :
    (fun a b : EReal => a + b) (iblk4 W c 0 t (cell r q)) (iblk4 W c 1 t (rowQ q)) = g (W c main_v63) (W c main_v64) (N + r.val) q := by
  subst hN; exact blk_g W c t r q

omit W c in
/-- One point's update of the sum row, over plain vectors: if the row held the sum of `f` over the first `N` rows and
    the block's entries plus bias are `f` at rows `N … N+4999`, it now holds the sum over the first `N + 5000`. -/
theorem step4 (x0 : Vec Ideal S5000x128 .f32) (x1 s : Vec Ideal S1x128 .f32) (q : S1x128.Idx) (f : ℕ → EReal) (N : ℕ)
    (hs : (s q : EReal) = ∑ R ∈ Finset.range N, f R)
    (hx : ∀ r : Fin 5000, (x0 (cell r q) : EReal) + (x1 (rowQ q) : EReal) = f (N + r.val)) :
    (k4_pay4 (F := Ideal) x0 x1 s q : EReal) = ∑ R ∈ Finset.range (N + 5000), f R := by
  rw [pay4_apply, hs, Finset.sum_range_add]
  refine congrArg (fun z : EReal => _ + z) ?_
  rw [← Fin.sum_univ_eq_sum_range (fun x => f (N + x)) 5000]
  exact Finset.sum_congr rfl fun r _ => hx r

omit W c in
/-- The same for the square-sum row. -/
theorem step5 (x0 : Vec Ideal S5000x128 .f32) (x1 s : Vec Ideal S1x128 .f32) (q : S1x128.Idx) (f : ℕ → EReal) (N : ℕ)
    (hs : (s q : EReal) = ∑ R ∈ Finset.range N, f R * f R)
    (hx : ∀ r : Fin 5000, (x0 (cell r q) : EReal) + (x1 (rowQ q) : EReal) = f (N + r.val)) :
    (k4_pay5 (F := Ideal) x0 x1 s q : EReal) = ∑ R ∈ Finset.range (N + 5000), f R * f R := by
  rw [pay5_apply, hs, Finset.sum_range_add (fun R => f R * f R)]
  refine congrArg (fun z : EReal => _ + z) ?_
  rw [← Fin.sum_univ_eq_sum_range (fun x => f (N + x) * f (N + x)) 5000]
  exact Finset.sum_congr rfl fun r _ => by rw [hx r]

/-- THE RUNNING SUMS: after point `n` the two scratch rows hold, at column `q`, the sums of g and of g² over the first
    5000·n + 5000 rows. -/
theorem acc (n : ℕ) (hn : n < cfg4.N) (q : S1x128.Idx) :
    ((outsAt4 W c n hn).2.2.1 q : EReal) = ∑ R ∈ Finset.range (5000 * n + 5000), g (W c main_v63) (W c main_v64) R q
    ∧ ((outsAt4 W c n hn).2.2.2 q : EReal) = ∑ R ∈ Finset.range (5000 * n + 5000), g (W c main_v63) (W c main_v64) R q * g (W c main_v63) (W c main_v64) R q := by
  induction n with
  | zero =>
    have e : outsAt4 W c 0 hn = stepA4 W c ⟨0, hn⟩ (Nat.zero_mod _) (by show ¬(0 : ℕ) % 10 = 9; decide) :=
      outsAt4_A W c ⟨0, hn⟩ (Nat.zero_mod _) (by show ¬(0 : ℕ) % 10 = 9; decide)
    rw [e]
    constructor
    · rw [sA_0 W c ⟨0, hn⟩]
      exact step4 (iblk4 W c 0 ⟨0, hn⟩) (iblk4 W c 1 ⟨0, hn⟩) (k4_pay1 (F := Ideal)) q (fun R => g (W c main_v63) (W c main_v64) R q) (5000 * 0)
        ((pay1_apply q).trans (Finset.sum_range_zero _).symm) (fun r => blk_g' W c ⟨0, hn⟩ (5000 * 0) rfl r q)
    · rw [sA_1 W c ⟨0, hn⟩]
      exact step5 (iblk4 W c 0 ⟨0, hn⟩) (iblk4 W c 1 ⟨0, hn⟩) (k4_pay2 (F := Ideal)) q (fun R => g (W c main_v63) (W c main_v64) R q) (5000 * 0)
        ((pay2_apply q).trans (Finset.sum_range_zero _).symm) (fun r => blk_g' W c ⟨0, hn⟩ (5000 * 0) rfl r q)
  | succ n ih =>
    have hn' : n < cfg4.N := Nat.lt_of_succ_lt hn
    obtain ⟨ih0, ih1⟩ := ih hn'
    have h0 : ¬(n + 1) % 10 = 0 := ne0_4 hn
    have hN : 5000 * n + 5000 = 5000 * (n + 1) := by ring
    rw [hN] at ih0 ih1
    by_cases h1 : (n + 1) % 10 = 9
    · have e : outsAt4 W c (n + 1) hn = stepC4 W c ⟨n + 1, hn⟩ h0 h1 (outsAt4 W c n hn').2.2.1 (outsAt4 W c n hn').2.2.2 := dif_pos h1
      rw [e]
      constructor
      · rw [sC_0 W c ⟨n + 1, hn⟩]
        exact step4 (iblk4 W c 0 ⟨n + 1, hn⟩) (iblk4 W c 1 ⟨n + 1, hn⟩) _ q (fun R => g (W c main_v63) (W c main_v64) R q) (5000 * (n + 1)) ih0
          (fun r => blk_g' W c ⟨n + 1, hn⟩ (5000 * (n + 1)) rfl r q)
      · rw [sC_1 W c ⟨n + 1, hn⟩]
        exact step5 (iblk4 W c 0 ⟨n + 1, hn⟩) (iblk4 W c 1 ⟨n + 1, hn⟩) _ q (fun R => g (W c main_v63) (W c main_v64) R q) (5000 * (n + 1)) ih1
          (fun r => blk_g' W c ⟨n + 1, hn⟩ (5000 * (n + 1)) rfl r q)
    · have e : outsAt4 W c (n + 1) hn = stepB4 W c ⟨n + 1, hn⟩ h0 h1 (outsAt4 W c n hn').2.2.1 (outsAt4 W c n hn').2.2.2 := dif_neg h1
      rw [e]
      constructor
      · rw [sB_0 W c ⟨n + 1, hn⟩]
        exact step4 (iblk4 W c 0 ⟨n + 1, hn⟩) (iblk4 W c 1 ⟨n + 1, hn⟩) _ q (fun R => g (W c main_v63) (W c main_v64) R q) (5000 * (n + 1)) ih0
          (fun r => blk_g' W c ⟨n + 1, hn⟩ (5000 * (n + 1)) rfl r q)
      · rw [sB_1 W c ⟨n + 1, hn⟩]
        exact step5 (iblk4 W c 0 ⟨n + 1, hn⟩) (iblk4 W c 1 ⟨n + 1, hn⟩) _ q (fun R => g (W c main_v63) (W c main_v64) R q) (5000 * (n + 1)) ih1
          (fun r => blk_g' W c ⟨n + 1, hn⟩ (5000 * (n + 1)) rfl r q)

/-! ## The two output rows -/

omit W c in
theorem g_congr (A : S50000x128.Idx → EReal) (b : S1x128.Idx → EReal) (R : ℕ) (q q' : S1x128.Idx) (h : (q 1).val = (q' 1).val) : g A b R q = g A b R q' := by
  unfold g
  have e1 : ∀ hR : R < 50000, cellW ⟨R, hR⟩ q = cellW ⟨R, hR⟩ q' := fun hR => by
    funext a; apply Fin.ext
    match a with
    | ⟨0, _⟩ => rfl
    | ⟨1, _⟩ => exact h
  have e2 : rowQ q = rowQ q' := by
    funext a; apply Fin.ext
    match a with
    | ⟨0, _⟩ => rfl
    | ⟨1, _⟩ => exact h
  by_cases hR : R < 50000
  · rw [dif_pos hR, dif_pos hR, e1 hR, e2]
  · rw [dif_neg hR, dif_neg hR]

omit W c in
/-- The column mean of (entry + bias) over the 50000 rows. -/
def meanRow (A : S50000x128.Idx → EReal) (b : S1x128.Idx → EReal) (q : S1x128.Idx) : EReal :=
  Ideal.div (∑ R ∈ Finset.range 50000, g A b R q) (Ideal.ofBits .f32 0x47435000#32)
omit W c in
/-- The column mean of squares minus the squared column mean. -/
def varRow (A : S50000x128.Idx → EReal) (b : S1x128.Idx → EReal) (q : S1x128.Idx) : EReal :=
  Ideal.div (∑ R ∈ Finset.range 50000, g A b R q * g A b R q) (Ideal.ofBits .f32 0x47435000#32) - meanRow A b q * meanRow A b q

omit W c in
theorem meanRow_congr (A : S50000x128.Idx → EReal) (b : S1x128.Idx → EReal) (q q' : S1x128.Idx) (h : (q 1).val = (q' 1).val) :
    meanRow A b q = meanRow A b q' := by
  unfold meanRow
  simp only [fun R => g_congr A b R q q' h]
omit W c in
theorem varRow_congr (A : S50000x128.Idx → EReal) (b : S1x128.Idx → EReal) (q q' : S1x128.Idx) (h : (q 1).val = (q' 1).val) :
    varRow A b q = varRow A b q' := by
  unfold varRow
  rw [meanRow_congr A b q q' h]
  simp only [fun R => g_congr A b R q q' h]

/-- After the tenth point the two output rows hold the mean and that variance. -/
theorem out_last (hn : 9 < cfg4.N) (q : S1x128.Idx) :
    ((outsAt4 W c 9 hn).1 q : EReal) = meanRow (W c main_v63) (W c main_v64) q ∧ ((outsAt4 W c 9 hn).2.1 q : EReal) = varRow (W c main_v63) (W c main_v64) q := by
  have hn' : 8 < cfg4.N := Nat.lt_of_succ_lt hn
  have h0 : ¬(8 + 1) % 10 = 0 := by decide
  have h1 : (8 + 1) % 10 = 9 := rfl
  have e : outsAt4 W c (8 + 1) hn = stepC4 W c ⟨8 + 1, hn⟩ h0 h1 (outsAt4 W c 8 hn').2.2.1 (outsAt4 W c 8 hn').2.2.2 := dif_pos h1
  obtain ⟨a0, a1⟩ := acc W c (8 + 1) hn q
  rw [show 5000 * (8 + 1) + 5000 = 50000 from rfl] at a0 a1
  have s0 : (outsAt4 W c (8 + 1) hn).2.2.1 = k4_pay4 (iblk4 W c 0 ⟨8 + 1, hn⟩) (iblk4 W c 1 ⟨8 + 1, hn⟩) (outsAt4 W c 8 hn').2.2.1 := by
    rw [e]; exact sC_0 W c ⟨8 + 1, hn⟩ h0 h1 _ _
  have s1 : (outsAt4 W c (8 + 1) hn).2.2.2 = k4_pay5 (iblk4 W c 0 ⟨8 + 1, hn⟩) (iblk4 W c 1 ⟨8 + 1, hn⟩) (outsAt4 W c 8 hn').2.2.2 := by
    rw [e]; exact sC_1 W c ⟨8 + 1, hn⟩ h0 h1 _ _
  have o2 : (outsAt4 W c (8 + 1) hn).1 = k4_pay6 ((outsAt4 W c (8 + 1) hn).2.2.1) := by
    rw [s0, e]; exact oC_2 W c ⟨8 + 1, hn⟩ h0 h1 _ _
  have o3 : (outsAt4 W c (8 + 1) hn).2.1 = k4_pay7 ((outsAt4 W c (8 + 1) hn).2.2.1) ((outsAt4 W c (8 + 1) hn).2.2.2) := by
    rw [s0, s1, e]; exact oC_3 W c ⟨8 + 1, hn⟩ h0 h1 _ _
  constructor
  · show ((outsAt4 W c (8 + 1) hn).1 q : EReal) = _
    rw [o2, pay6_apply, a0]; rfl
  · show ((outsAt4 W c (8 + 1) hn).2.1 q : EReal) = _
    rw [o3, pay7_apply, a0, a1]; rfl

theorem idx_out : ∀ t : Fin cfg4.N, win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

theorem nine_lt : 9 < cfg4.N := by have : cfg4.N = 10 := N_4; omega

theorem last_pt (t : Fin cfg4.N) (h : t.val % 10 = 9) : t = ⟨9, nine_lt⟩ := by
  apply Fin.ext
  have hN : t.val < 10 := lt_of_lt_of_eq t.isLt (show cfg4.N = 10 from N_4)
  show t.val = 9
  omega

/-- THE MEAN ROW after the region. -/
theorem final2 : (dat4 W c).arrAt 2 cfg4.N = meanRow (W c main_v63) (W c main_v64) := by
  refine (dat4 W c).arrAt_eq_of_cover 2 (meanRow (W c main_v63) (W c main_v64)) (fun t hf => ?_) (fun i => ?_)
  · have ht := last_pt t ((flush4_2 t).mp hf)
    obtain ⟨e0, e1, -, -⟩ := idx_out t
    show (cfg4.win 2).cut (grid4.coords t) ((dat4 W c).after 2 t) = _
    rw [after4_2]
    funext y
    have hy : (((cfg4.win 2).blk t).view.emb y 1).val = (y 1).val := by
      show win4_2.index t (1 : Fin 2) * 128 + 1 * (y 1).val = (y 1).val; omega
    show ((outsAt4 W c t.val t.isLt).1 y : EReal) = meanRow (W c main_v63) (W c main_v64) (((cfg4.win 2).blk t).view.emb y)
    subst ht
    rw [(out_last W c nine_lt y).1]
    exact meanRow_congr _ _ _ _ hy.symm
  · refine ⟨⟨9, nine_lt⟩, (flush4_2 _).mpr rfl, ?_⟩
    obtain ⟨e0, e1, -, -⟩ := idx_out ⟨9, nine_lt⟩
    show i ∈ ((View.whole main_v68_0).slice (win4_2.rect ⟨9, nine_lt⟩)).set
    rw [View.set_slice_whole, Rect.mem_set_unit]
    intro a
    have hi0 : (i 0).val < 1 := (i 0).isLt
    have hi1 : (i 1).val < 128 := (i 1).isLt
    match a with
    | ⟨0, _⟩ => show win4_2.index ⟨9, nine_lt⟩ (0 : Fin 2) * 1 ≤ (i 0).val ∧ (i 0).val < win4_2.index ⟨9, nine_lt⟩ (0 : Fin 2) * 1 + 1; omega
    | ⟨1, _⟩ => show win4_2.index ⟨9, nine_lt⟩ (1 : Fin 2) * 128 ≤ (i 1).val ∧ (i 1).val < win4_2.index ⟨9, nine_lt⟩ (1 : Fin 2) * 128 + 128; omega

/-- THE VARIANCE ROW after the region. -/
theorem final3 : (dat4 W c).arrAt 3 cfg4.N = varRow (W c main_v63) (W c main_v64) := by
  refine (dat4 W c).arrAt_eq_of_cover 3 (varRow (W c main_v63) (W c main_v64)) (fun t hf => ?_) (fun i => ?_)
  · have ht := last_pt t ((flush4_3 t).mp hf)
    obtain ⟨-, -, e0, e1⟩ := idx_out t
    show (cfg4.win 3).cut (grid4.coords t) ((dat4 W c).after 3 t) = _
    rw [after4_3]
    funext y
    have hy : (((cfg4.win 3).blk t).view.emb y 1).val = (y 1).val := by
      show win4_3.index t (1 : Fin 2) * 128 + 1 * (y 1).val = (y 1).val; omega
    show ((outsAt4 W c t.val t.isLt).2.1 y : EReal) = varRow (W c main_v63) (W c main_v64) (((cfg4.win 3).blk t).view.emb y)
    subst ht
    rw [(out_last W c nine_lt y).2]
    exact varRow_congr _ _ _ _ hy.symm
  · refine ⟨⟨9, nine_lt⟩, (flush4_3 _).mpr rfl, ?_⟩
    obtain ⟨-, -, e0, e1⟩ := idx_out ⟨9, nine_lt⟩
    show i ∈ ((View.whole main_v68_1).slice (win4_3.rect ⟨9, nine_lt⟩)).set
    rw [View.set_slice_whole, Rect.mem_set_unit]
    intro a
    have hi0 : (i 0).val < 1 := (i 0).isLt
    have hi1 : (i 1).val < 128 := (i 1).isLt
    match a with
    | ⟨0, _⟩ => show win4_3.index ⟨9, nine_lt⟩ (0 : Fin 2) * 1 ≤ (i 0).val ∧ (i 0).val < win4_3.index ⟨9, nine_lt⟩ (0 : Fin 2) * 1 + 1; omega
    | ⟨1, _⟩ => show win4_3.index ⟨9, nine_lt⟩ (1 : Fin 2) * 128 ≤ (i 1).val ∧ (i 1).val < win4_3.index ⟨9, nine_lt⟩ (1 : Fin 2) * 128 + 128; omega

end Cert.KernelIdeal.Value4

end
-- ==== Proof.KI_Value5.lean ====
/- The value of region 5: after its ten points the output array holds, at row r and column q, the entry of the rows
   array at (r, q) plus the bias at q, minus the mean at q, times the inverse square root of (variance at q + ε), times
   the gain at q, plus the offset at q — kept if positive, else scaled by the slope. Each point writes its block of 5000
   rows and the ten blocks tile the 50000 rows. -/
import proofs.«112204_j28269474742836_1_alg».proof.Proof.KI_Region5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value5

open Cert.KernelIdeal Cert.KernelIdeal.Gen Cert.KernelIdeal.Regions
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- One entry: normalise, apply gain and offset, then the leaky rectifier. -/
def nrmS (x b mu v g be al : EReal) : EReal :=
  Scalar.select (FloatOps.cmpf (F := Ideal) .ogt ((((x + b) - mu) * FloatOps.rsqrt (F := Ideal) (φ := .f32) (v + Ideal.ofBits .f32 0x3727C5AC#32)) * g + be) (Ideal.ofBits .f32 0x00000000#32))
    ((((x + b) - mu) * FloatOps.rsqrt (F := Ideal) (φ := .f32) (v + Ideal.ofBits .f32 0x3727C5AC#32)) * g + be)
    (al * ((((x + b) - mu) * FloatOps.rsqrt (F := Ideal) (φ := .f32) (v + Ideal.ofBits .f32 0x3727C5AC#32)) * g + be))

/-- Column `q` of a one-row array, from an index of the block / of the array. -/
abbrev rowOf (j : S5000x128.Idx) : S1x128.Idx := fun a => match a with
  | ⟨0, _⟩ => (⟨0, Nat.zero_lt_one⟩ : Fin 1)
  | ⟨1, _⟩ => ⟨(j 1).val, (j 1).isLt⟩
abbrev rowOfW (i : S50000x128.Idx) : S1x128.Idx := fun a => match a with
  | ⟨0, _⟩ => (⟨0, Nat.zero_lt_one⟩ : Fin 1)
  | ⟨1, _⟩ => ⟨(i 1).val, (i 1).isLt⟩
abbrev oneIdx : S1x1.Idx := fun a => match a with
  | ⟨0, _⟩ => (⟨0, Nat.zero_lt_one⟩ : Fin 1)
  | ⟨1, _⟩ => (⟨0, Nat.zero_lt_one⟩ : Fin 1)

/-- The whole-array function. -/
def nrm (X : S50000x128.Idx → EReal) (b mu v g be : S1x128.Idx → EReal) (al : S1x1.Idx → EReal) : S50000x128.Idx → EReal := fun i =>
  nrmS (X i) (b (rowOfW i)) (mu (rowOfW i)) (v (rowOfW i)) (g (rowOfW i)) (be (rowOfW i)) (al oneIdx)

theorem hz : (![0, 0] : Fin 2 → Nat) = fun _ => 0 := funext fun a => by fin_cases a <;> rfl

/-- The body's payload at an index of the block. -/
theorem pay_apply (x0 : Vec Ideal S5000x128 .f32) (x1 x2 x3 x4 x5 : Vec Ideal S1x128 .f32) (x6 : Vec Ideal S1x1 .f32) (j : S5000x128.Idx) :
    k5_pay1 (F := Ideal) x0 x1 x2 x3 x4 x5 x6 j = nrmS (x0 j) (x1 (rowOf j)) (x2 (rowOf j)) (x3 (rowOf j)) (x4 (rowOf j)) (x5 (rowOf j)) (x6 oneIdx) := by
  have hb : ∀ (x : Vec Ideal S1x128 .f32), broadcastTo S5000x128 x broadcasts_S1x128_S5000x128 j = x (rowOf j) := fun x =>
    broadcastTo_apply x _ j (rowOf j) (fun a => by fin_cases a <;> rfl)
  have ha : broadcastTo S5000x128 x6 broadcasts_S1x1_S5000x128 j = x6 oneIdx :=
    broadcastTo_apply x6 _ j oneIdx (fun a => by fin_cases a <;> rfl)
  unfold k5_pay1 nrmS
  simp only [shapeCast_self]
  show Scalar.select _ _ _ = _
  simp only [select_apply, cmpf_apply, mulf_apply, addf_apply, subf_apply, broadcast_apply, hb, ha]
  rfl

/-! ## From blocks to the array -/

theorem idx_facts0 : ∀ t : Fin cfg5.N, win5_0.index t (0 : Fin 2) = win5_7.index t (0 : Fin 2) ∧ win5_0.index t (1 : Fin 2) = 0
    ∧ win5_7.index t (1 : Fin 2) = 0 ∧ win5_7.index t (0 : Fin 2) ≤ 9 :=
  (by decide +kernel : ∀ t : Fin grid5.N, _)
theorem idx_facts1 : ∀ t : Fin cfg5.N, win5_1.index t (0 : Fin 2) = 0 ∧ win5_1.index t (1 : Fin 2) = 0 :=
  (by decide +kernel : ∀ t : Fin grid5.N, _)
theorem idx_facts2 : ∀ t : Fin cfg5.N, win5_2.index t (0 : Fin 2) = 0 ∧ win5_2.index t (1 : Fin 2) = 0 :=
  (by decide +kernel : ∀ t : Fin grid5.N, _)
theorem idx_facts3 : ∀ t : Fin cfg5.N, win5_3.index t (0 : Fin 2) = 0 ∧ win5_3.index t (1 : Fin 2) = 0 :=
  (by decide +kernel : ∀ t : Fin grid5.N, _)
theorem idx_facts4 : ∀ t : Fin cfg5.N, win5_4.index t (0 : Fin 2) = 0 ∧ win5_4.index t (1 : Fin 2) = 0 :=
  (by decide +kernel : ∀ t : Fin grid5.N, _)
theorem idx_facts5 : ∀ t : Fin cfg5.N, win5_5.index t (0 : Fin 2) = 0 ∧ win5_5.index t (1 : Fin 2) = 0 :=
  (by decide +kernel : ∀ t : Fin grid5.N, _)
theorem idx_facts6 : ∀ t : Fin cfg5.N, win5_6.index t (0 : Fin 2) = 0 ∧ win5_6.index t (1 : Fin 2) = 0 :=
  (by decide +kernel : ∀ t : Fin grid5.N, _)

theorem idx_onto : ∀ q0 : Fin 10, ∃ t : Fin cfg5.N, win5_7.index t = ![q0.val, 0] :=
  (by decide +kernel : ∀ q0 : Fin 10, ∃ t : Fin grid5.N, win5_7.index t = ![q0.val, 0])

set_option maxHeartbeats 4000000 in
/-- WHAT POINT `t` WRITES BACK is block `t` of the normalised array. -/
theorem flushed_eq (c : Dev nD) (t : Fin cfg5.N) :
    (dat5 V c).flushed 7 t = ((cfg5.win 7).blk t).view.read (Elt Ideal)
      (nrm (V c main_v63) (V c main_v64) (V c main_v68_0) (V c main_v68_1) (V c main_v65) (V c main_v66) (V c main_v67)) := by
  show (cfg5.win 7).cut (grid5.coords t) ((dat5 V c).after 7 t) = _
  rw [after5_7]
  unfold out5_7
  rw [View.canon_unit_zero hz]
  simp only [View.ld_unit_zero (S := S5000x128) hz, View.ld_unit_zero (S := S1x128) hz, View.ld_unit_zero (S := S1x1) hz]
  obtain ⟨e00, e01, e71, e70⟩ := idx_facts0 t
  obtain ⟨e10, e11⟩ := idx_facts1 t
  obtain ⟨e20, e21⟩ := idx_facts2 t
  obtain ⟨e30, e31⟩ := idx_facts3 t
  obtain ⟨e40, e41⟩ := idx_facts4 t
  obtain ⟨e50, e51⟩ := idx_facts5 t
  obtain ⟨e60, e61⟩ := idx_facts6 t
  funext j
  refine (pay_apply _ _ _ _ _ _ _ j).trans ?_
  have hj0 : (j 0).val < 5000 := (j 0).isLt
  have hj1 : (j 1).val < 128 := (j 1).isLt
  have h0 : ((cfg5.win 0).blk t).view.emb j = ((cfg5.win 7).blk t).view.emb j := by
    funext a; apply Fin.ext
    match a with
    | ⟨0, _⟩ => show win5_0.index t (0 : Fin 2) * 5000 + 1 * (j 0).val = win5_7.index t (0 : Fin 2) * 5000 + 1 * (j 0).val; omega
    | ⟨1, _⟩ => show win5_0.index t (1 : Fin 2) * 128 + 1 * (j 1).val = win5_7.index t (1 : Fin 2) * 128 + 1 * (j 1).val; omega
  have h1 : ((cfg5.win 1).blk t).view.emb (rowOf j) = rowOfW (((cfg5.win 7).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_7.index t (1 : Fin 2) * 128 + 1 * (j 1).val; omega
  have h2 : ((cfg5.win 2).blk t).view.emb (rowOf j) = rowOfW (((cfg5.win 7).blk t).view.emb j) := by
    funext a; apply Fin.ext
    match a with
    | ⟨0, _⟩ => show win5_2.index t (0 : Fin 2) * 1 + 1 * 0 = 0; omega
    | ⟨1, _⟩ => show win5_2.index t (1 : Fin 2) * 128 + 1 * (j 1).val = win5_7.index t (1 : Fin 2) * 128 + 1 * (j 1).val; omega
  have h3 : ((cfg5.win 3).blk t).view.emb (rowOf j) = rowOfW (((cfg5.win 7).blk t).view.emb j) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_7.index t (1 : Fin 2) * 128 + 1 * (j 1).val; omega
  have h4 : ((cfg5.win 4).blk t).view.emb (rowOf j) = rowOfW (((cfg5.win 7).blk t).view.emb j) := by
    funext a; apply Fin.ext
    match a with
    | ⟨0, _⟩ => show win5_4.index t (0 : Fin 2) * 1 + 1 * 0 = 0; omega
    | ⟨1, _⟩ => show win5_4.index t (1 : Fin 2) * 128 + 1 * (j 1).val = win5_7.index t (1 : Fin 2) * 128 + 1 * (j 1).val; omega
  have h5 : ((cfg5.win 5).blk t).view.emb (rowOf j) = rowOfW (((cfg5.win 7).blk t).view.emb j) := by
    funext a; apply Fin.ext
    match a with
    | ⟨0, _⟩ => show win5_5.index t (0 : Fin 2) * 1 + 1 * 0 = 0; omega
    | ⟨1, _⟩ => show win5_5.index t (1 : Fin 2) * 128 + 1 * (j 1).val = win5_7.index t (1 : Fin 2) * 128 + 1 * (j 1).val; omega
  have h6 : ((cfg5.win 6).blk t).view.emb oneIdx = oneIdx := by
    funext a; apply Fin.ext
    match a with
    | ⟨0, _⟩ => show win5_6.index t (0 : Fin 2) * 1 + 1 * 0 = 0; omega
    | ⟨1, _⟩ => show win5_6.index t (1 : Fin 2) * 1 + 1 * 0 = 0; omega
  have g0 : iblk5 V c 0 t j = V c main_v63 (((cfg5.win 7).blk t).view.emb j) := by
    show V c main_v63 (((cfg5.win 0).blk t).view.emb j) = _
    rw [h0]
  have g1 : iblk5 V c 1 t (rowOf j) = V c main_v64 (rowOfW (((cfg5.win 7).blk t).view.emb j)) := by
    show V c main_v64 (((cfg5.win 1).blk t).view.emb (rowOf j)) = _
    rw [h1]
  have g2 : iblk5 V c 2 t (rowOf j) = V c main_v68_0 (rowOfW (((cfg5.win 7).blk t).view.emb j)) := by
    show V c main_v68_0 (((cfg5.win 2).blk t).view.emb (rowOf j)) = _
    rw [h2]
  have g3 : iblk5 V c 3 t (rowOf j) = V c main_v68_1 (rowOfW (((cfg5.win 7).blk t).view.emb j)) := by
    show V c main_v68_1 (((cfg5.win 3).blk t).view.emb (rowOf j)) = _
    rw [h3]
  have g4 : iblk5 V c 4 t (rowOf j) = V c main_v65 (rowOfW (((cfg5.win 7).blk t).view.emb j)) := by
    show V c main_v65 (((cfg5.win 4).blk t).view.emb (rowOf j)) = _
    rw [h4]
  have g5 : iblk5 V c 5 t (rowOf j) = V c main_v66 (rowOfW (((cfg5.win 7).blk t).view.emb j)) := by
    show V c main_v66 (((cfg5.win 5).blk t).view.emb (rowOf j)) = _
    rw [h5]
  have g6 : iblk5 V c 6 t oneIdx = V c main_v67 oneIdx := by
    show V c main_v67 (((cfg5.win 6).blk t).view.emb oneIdx) = _
    rw [h6]
  rw [g0, g1, g2, g3, g4, g5, g6]
  rfl

theorem mem_blk (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v69).slice (win5_7.rect t)).set ↔ _
  rw [View.set_slice_whole, Rect.mem_set_unit]
  exact Iff.rfl

theorem cover (i : S50000x128.Idx) : ∃ t : Fin cfg5.N, (cfg5.win 7).flush t = true ∧ i ∈ ((cfg5.win 7).blk t).view.set := by
  have hi0 : (i 0).val < 50000 := (i 0).isLt
  have hi1 : (i 1).val < 128 := (i 1).isLt
  obtain ⟨t, ht⟩ := idx_onto ⟨(i 0).val / 5000, by omega⟩
  have q0 : win5_7.index t (0 : Fin 2) = (i 0).val / 5000 := congrFun ht 0
  have q1 : win5_7.index t (1 : Fin 2) = 0 := congrFun ht 1
  refine ⟨t, flush5_7 t, ?_⟩
  rw [mem_blk]
  intro a
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- THE OUTPUT ARRAY after the region. -/
theorem final (c : Dev nD) : (dat5 V c).arrAt 7 cfg5.N
    = nrm (V c main_v63) (V c main_v64) (V c main_v68_0) (V c main_v68_1) (V c main_v65) (V c main_v66) (V c main_v67) :=
  (dat5 V c).arrAt_eq_of_cover 7 _ (fun t _ => flushed_eq V c t) cover

end Cert.KernelIdeal.Value5

end
-- ==== Proof.KSpec.lean ====
/- The host side of the kernel program, stage by stage, as pure functions (at any float instance): the edge lists with a
   self-loop appended per node, the degrees and their inverse square roots, the edge weights, and the aggregation —
   gather along the sources, scale by the edge weights, scatter-add into the destinations. -/
import proofs.«112204_j28269474742836_1_alg».proof.Proof.Gen.KernelIdeal
import Idealize.ShloMosaic.PureOps.Ideal

noncomputable section

namespace Cert.KernelIdeal.KSpec

open Cert.KernelIdeal Cert.KernelIdeal.Gen Idealize.ShloMosaic

variable {F : FTy → Type} [FloatOps F]

abbrev Feat := (⟨S50000x128, .f32⟩ : BufTy).Contents (Elt F)
abbrev Edges := (⟨S2x800000, .i32⟩ : BufTy).Contents (Elt F)
abbrev EIdx := (⟨S850000, .i32⟩ : BufTy).Contents (Elt F)
abbrev EVal := (⟨S850000, .f32⟩ : BufTy).Contents (Elt F)
abbrev Node := (⟨S50000, .f32⟩ : BufTy).Contents (Elt F)

/-- Row `r` of the edge array, then one self-loop per node. -/
def srcIdx (ei : Edges (F := F)) : EIdx (F := F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0
def dstIdx (ei : Edges (F := F)) : EIdx (F := F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- An index list as gather indices: negative entries wrapped by the node count, as a column. -/
def wrapIdx (i : EIdx (F := F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)
/-- An index list as scatter indices: a column. -/
def colIdx (i : EIdx (F := F)) : (⟨S850000x1, .i32⟩ : BufTy).Contents (Elt F) :=
  broadcastInDim S850000x1 ![0] bcast_S850000_S850000x1_0 i

def ones : EVal (F := F) := broadcastInDim S850000 ![] bcast_S_S850000 (constant S_ .f32 0x3F800000#32)
def zerosN : Node (F := F) := broadcastInDim S50000 ![] bcast_S_S50000 (constant S_ .f32 0x00000000#32)

/-- A node's degree: the number of listed edges (self-loops included) that point at it. -/
def deg (ei : Edges (F := F)) : Node (F := F) :=
  Host.scatterAdd scatter_S50000_S850000x1_S850000_n_0_0_1 zerosN (colIdx (dstIdx ei)) ones
/-- Its inverse square root where the degree is positive, else zero. -/
def dinv (ei : Edges (F := F)) : Node (F := F) :=
  select (cmpf (F := F) .ogt (deg ei) zerosN) (Host.rsqrt (deg ei)) zerosN

/-- The reference's edge weight: source end's inverse root, times one, times the destination end's. -/
def normR (ei : Edges (F := F)) : EVal (F := F) :=
  mulf (mulf (Host.gather gather_S50000_S850000x1_S850000_n_0_n_n_0_1_1 (dinv ei) (wrapIdx (srcIdx ei))) ones)
    (Host.gather gather_S50000_S850000x1_S850000_n_0_n_n_0_1_1 (dinv ei) (wrapIdx (dstIdx ei)))
/-- The kernel program's edge weight: the same without the factor one. -/
def normK (ei : Edges (F := F)) : EVal (F := F) :=
  mulf (Host.gather gather_S50000_S850000x1_S850000_n_0_n_n_0_1_1 (dinv ei) (wrapIdx (srcIdx ei)))
    (Host.gather gather_S50000_S850000x1_S850000_n_0_n_n_0_1_1 (dinv ei) (wrapIdx (dstIdx ei)))

/-- Aggregation: every edge carries its source's row scaled by the edge's weight into its destination's row. -/
def agg (ei : Edges (F := F)) (w : EVal (F := F)) (h : Feat (F := F)) : Feat (F := F) :=
  Host.scatterAdd scatter_S50000x128_S850000x1_S850000x128_1_0_0_1
    (broadcastInDim S50000x128 ![] bcast_S_S50000x128 (constant S_ .f32 0x00000000#32)) (colIdx (dstIdx ei))
    (mulf (broadcastInDim S850000x128 ![0, 1] bcast_S850000x1_S850000x128_0_1 (broadcastInDim S850000x1 ![0] bcast_S850000_S850000x1_0 w))
      (Host.gather gather_S50000x128_S850000x1_S850000x128_1_0_n_n_0_1_1128 h (wrapIdx (srcIdx ei))))

end Cert.KernelIdeal.KSpec

end
-- ==== Proof.KI_Final.lean ====
/- The kernel program's result as one function of its arguments: each boundary's buffers read back stage by stage —
   a host stretch leaves what it does not write, a region leaves its input arrays and every array that is not one of
   its own —, the six regions' values (two dense products, two pairs of column statistics, two normalisations) and
   the host stretches between them (edge weights; gather, scale, scatter-add; reshapes of the small operands). -/
import proofs.«112204_j28269474742836_1_alg».proof.Proof.KI_Run
import proofs.«112204_j28269474742836_1_alg».proof.Proof.KI_Value0
import proofs.«112204_j28269474742836_1_alg».proof.Proof.KI_Value1
import proofs.«112204_j28269474742836_1_alg».proof.Proof.KI_Value2
import proofs.«112204_j28269474742836_1_alg».proof.Proof.KI_Value3
import proofs.«112204_j28269474742836_1_alg».proof.Proof.KI_Value4
import proofs.«112204_j28269474742836_1_alg».proof.Proof.KI_Value5
import proofs.«112204_j28269474742836_1_alg».proof.Proof.KSpec

set_option maxRecDepth 16384

noncomputable section

namespace Cert.KernelIdeal.Final

open Cert.KernelIdeal Cert.KernelIdeal.Gen Cert.KernelIdeal.Regions Cert.KernelIdeal.Run
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Reading a buffer back through the stages that do not change it -/

theorem r4_main_v5 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem r8_main_v5 : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_writes_sub hostOps1 _ hostOps1_writes (by decide)
    _ = W3 m ρ c (Proc.devRef .tc main_v5) := W4_of_ne m ρ c main_v5 (by decide)

theorem r4_main_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem r8_main_v6 : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_writes_sub hostOps1 _ hostOps1_writes (by decide)
    _ = W3 m ρ c (Proc.devRef .tc main_v6) := W4_of_ne m ρ c main_v6 (by decide)

theorem r4_main_v29 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem r8_main_v29 : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := StableHlo.after_of_writes_sub hostOps1 _ hostOps1_writes (by decide)
    _ = W3 m ρ c (Proc.devRef .tc main_v29) := W4_of_ne m ρ c main_v29 (by decide)

theorem r3_main_arg0 : W3 m ρ c (Proc.devRef .tc main_arg0) = W0 m ρ c (Proc.devRef .tc main_arg0) :=
  calc W3 m ρ c (Proc.devRef .tc main_arg0)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)

theorem r3_main_arg2 : W3 m ρ c (Proc.devRef .tc main_arg2) = W0 m ρ c (Proc.devRef .tc main_arg2) :=
  calc W3 m ρ c (Proc.devRef .tc main_arg2)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)

theorem r4_main_arg3 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)

theorem r4_main_arg4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)

theorem r4_main_arg5 : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)

theorem r4_main_arg6 : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)

theorem r6_main_v43 : W6 m ρ c (Proc.devRef .tc main_v43) = W5 m ρ c (Proc.devRef .tc main_v43) :=
  calc W6 m ρ c (Proc.devRef .tc main_v43)
    _ = W5 m ρ c (Proc.devRef .tc main_v43) := (W6_arr m ρ c 0).trans (((dat1 (V5 m ρ) c).arrAt_in 0 rfl _).trans (A_eq1 (V5 m ρ) c 0))

theorem r6_main_v44 : W6 m ρ c (Proc.devRef .tc main_v44) = W5 m ρ c (Proc.devRef .tc main_v44) :=
  calc W6 m ρ c (Proc.devRef .tc main_v44)
    _ = W5 m ρ c (Proc.devRef .tc main_v44) := (W6_arr m ρ c 1).trans (((dat1 (V5 m ρ) c).arrAt_in 1 rfl _).trans (A_eq1 (V5 m ρ) c 1))

theorem r6_main_v45 : W6 m ρ c (Proc.devRef .tc main_v45) = W5 m ρ c (Proc.devRef .tc main_v45) :=
  calc W6 m ρ c (Proc.devRef .tc main_v45)
    _ = W5 m ρ c (Proc.devRef .tc main_v45) := W6_of_ne m ρ c main_v45 (by decide)

theorem r6_main_v46 : W6 m ρ c (Proc.devRef .tc main_v46) = W5 m ρ c (Proc.devRef .tc main_v46) :=
  calc W6 m ρ c (Proc.devRef .tc main_v46)
    _ = W5 m ρ c (Proc.devRef .tc main_v46) := W6_of_ne m ρ c main_v46 (by decide)

theorem r6_main_v47 : W6 m ρ c (Proc.devRef .tc main_v47) = W5 m ρ c (Proc.devRef .tc main_v47) :=
  calc W6 m ρ c (Proc.devRef .tc main_v47)
    _ = W5 m ρ c (Proc.devRef .tc main_v47) := W6_of_ne m ρ c main_v47 (by decide)

theorem r7_main_arg7 : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)

theorem r8_main_arg8 : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)

theorem r8_main_arg9 : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)

theorem r8_main_arg10 : W8 m ρ c (Proc.devRef .tc main_arg10) = W0 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)

theorem r8_main_arg11 : W8 m ρ c (Proc.devRef .tc main_arg11) = W0 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)

theorem r10_main_v63 : W10 m ρ c (Proc.devRef .tc main_v63) = W9 m ρ c (Proc.devRef .tc main_v63) :=
  calc W10 m ρ c (Proc.devRef .tc main_v63)
    _ = W9 m ρ c (Proc.devRef .tc main_v63) := (W10_arr m ρ c 0).trans (((dat4 (V9 m ρ) c).arrAt_in 0 rfl _).trans (A_eq4 (V9 m ρ) c 0))

theorem r10_main_v64 : W10 m ρ c (Proc.devRef .tc main_v64) = W9 m ρ c (Proc.devRef .tc main_v64) :=
  calc W10 m ρ c (Proc.devRef .tc main_v64)
    _ = W9 m ρ c (Proc.devRef .tc main_v64) := (W10_arr m ρ c 1).trans (((dat4 (V9 m ρ) c).arrAt_in 1 rfl _).trans (A_eq4 (V9 m ρ) c 1))

theorem r10_main_v65 : W10 m ρ c (Proc.devRef .tc main_v65) = W9 m ρ c (Proc.devRef .tc main_v65) :=
  calc W10 m ρ c (Proc.devRef .tc main_v65)
    _ = W9 m ρ c (Proc.devRef .tc main_v65) := W10_of_ne m ρ c main_v65 (by decide)

theorem r10_main_v66 : W10 m ρ c (Proc.devRef .tc main_v66) = W9 m ρ c (Proc.devRef .tc main_v66) :=
  calc W10 m ρ c (Proc.devRef .tc main_v66)
    _ = W9 m ρ c (Proc.devRef .tc main_v66) := W10_of_ne m ρ c main_v66 (by decide)

theorem r10_main_v67 : W10 m ρ c (Proc.devRef .tc main_v67) = W9 m ρ c (Proc.devRef .tc main_v67) :=
  calc W10 m ρ c (Proc.devRef .tc main_v67)
    _ = W9 m ρ c (Proc.devRef .tc main_v67) := W10_of_ne m ρ c main_v67 (by decide)

/-! ## The host stretches, read over an arbitrary valuation at their start -/

set_option maxHeartbeats 4000000 in
omit m ρ c in
/-- The inverse square roots from the comparison, the square roots and the zero the call is given. -/
theorem dinv_of (V : Valuation τ sig (Elt Ideal)) (x : (⟨S50000, .i1⟩ : BufTy).Contents (Elt Ideal)) (y : Cert.KernelIdeal.KSpec.Node (F := Ideal)) (z : (⟨S_, .f32⟩ : BufTy).Contents (Elt Ideal))
    (h12 : V (Proc.devRef .tc main_v12) = x) (h13 : V (Proc.devRef .tc main_v13) = y) (hc : V (Proc.devRef .tc main_cst_2) = z) :
    @Eq (Cert.KernelIdeal.KSpec.Node (F := Ideal)) (StableHlo.after hostOps0_1 V (Proc.devRef .tc main_v14)) (select x y (broadcastInDim S50000 ![] bcast_S_S50000 z)) := by
  simp only [hostOps0_1]
  after_results
  rw [h12, h13, hc]
  rfl

set_option maxHeartbeats 4000000 in
omit m ρ c in
/-- An edge's weight from the two index lists and the inverse square roots. -/
theorem norm_of (V : Valuation τ sig (Elt Ideal)) (s d : Cert.KernelIdeal.KSpec.EIdx (F := Ideal)) (dv : Cert.KernelIdeal.KSpec.Node (F := Ideal))
    (h5 : V (Proc.devRef .tc main_v5) = s) (h6 : V (Proc.devRef .tc main_v6) = d) (h14 : V (Proc.devRef .tc main_v14) = dv) :
    @Eq (Cert.KernelIdeal.KSpec.EVal (F := Ideal)) (StableHlo.after hostOps0_2 V (Proc.devRef .tc main_v29))
      (mulf (F := Ideal) (φ := .f32) (Host.gather gather_S50000_S850000x1_S850000_n_0_n_n_0_1_1 dv (Cert.KernelIdeal.KSpec.wrapIdx s)) (Host.gather gather_S50000_S850000x1_S850000_n_0_n_n_0_1_1 dv (Cert.KernelIdeal.KSpec.wrapIdx d))) := by
  simp only [hostOps0_2]
  after_results
  rw [h5, h6, h14]
  rfl

/-- Gather along the sources, scale by the weights, scatter-add into the destinations. -/
def aggSD (s d : Cert.KernelIdeal.KSpec.EIdx (F := Ideal)) (w : Cert.KernelIdeal.KSpec.EVal (F := Ideal)) (h : Cert.KernelIdeal.KSpec.Feat (F := Ideal)) : Cert.KernelIdeal.KSpec.Feat (F := Ideal) :=
  Host.scatterAdd (F := Ideal) (φ := .f32) scatter_S50000x128_S850000x1_S850000x128_1_0_0_1
    (broadcastInDim S50000x128 ![] bcast_S_S50000x128 (constant (F := Ideal) S_ .f32 0x00000000#32)) (Cert.KernelIdeal.KSpec.colIdx d)
    (mulf (F := Ideal) (φ := .f32) (broadcastInDim S850000x128 ![0, 1] bcast_S850000x1_S850000x128_0_1 (broadcastInDim S850000x1 ![0] bcast_S850000_S850000x1_0 w))
      (Host.gather gather_S50000x128_S850000x1_S850000x128_1_0_n_n_0_1_1128 h (Cert.KernelIdeal.KSpec.wrapIdx s)))

omit m ρ c in
/-- With the two index lists those of an edge array, it is the aggregation over that edge array. -/
theorem aggSD_eq (ei : Cert.KernelIdeal.KSpec.Edges (F := Ideal)) (w : Cert.KernelIdeal.KSpec.EVal (F := Ideal)) (h : Cert.KernelIdeal.KSpec.Feat (F := Ideal)) :
    aggSD (Cert.KernelIdeal.KSpec.srcIdx ei) (Cert.KernelIdeal.KSpec.dstIdx ei) w h = Cert.KernelIdeal.KSpec.agg ei w h := rfl

set_option maxHeartbeats 4000000 in
omit m ρ c in
theorem agg1_of (V : Valuation τ sig (Elt Ideal)) (s d : Cert.KernelIdeal.KSpec.EIdx (F := Ideal)) (w : Cert.KernelIdeal.KSpec.EVal (F := Ideal)) (h : Cert.KernelIdeal.KSpec.Feat (F := Ideal))
    (h5 : V (Proc.devRef .tc main_v5) = s) (h6 : V (Proc.devRef .tc main_v6) = d) (h29 : V (Proc.devRef .tc main_v29) = w) (h30 : V (Proc.devRef .tc main_v30) = h) :
    @Eq (Cert.KernelIdeal.KSpec.Feat (F := Ideal)) (StableHlo.after hostOps1 V (Proc.devRef .tc main_v43)) (aggSD s d w h) := by
  simp only [hostOps1]
  after_results
  rw [h5, h6, h29, h30]
  rfl

set_option maxHeartbeats 4000000 in
omit m ρ c in
theorem agg2_of (V : Valuation τ sig (Elt Ideal)) (s d : Cert.KernelIdeal.KSpec.EIdx (F := Ideal)) (w : Cert.KernelIdeal.KSpec.EVal (F := Ideal)) (h : Cert.KernelIdeal.KSpec.Feat (F := Ideal))
    (h5 : V (Proc.devRef .tc main_v5) = s) (h6 : V (Proc.devRef .tc main_v6) = d) (h29 : V (Proc.devRef .tc main_v29) = w) (h50 : V (Proc.devRef .tc main_v50) = h) :
    @Eq (Cert.KernelIdeal.KSpec.Feat (F := Ideal)) (StableHlo.after hostOps4 V (Proc.devRef .tc main_v63)) (aggSD s d w h) := by
  simp only [hostOps4]
  after_results
  rw [h5, h6, h29, h50]
  rfl

/-! ## The host stretches before the first region: the edge lists, the degrees, the edge weights -/

theorem src1 : (W1 m ρ c (Proc.devRef .tc main_v5) : Cert.KernelIdeal.KSpec.EIdx (F := Ideal)) = Cert.KernelIdeal.KSpec.srcIdx (F := Ideal) (m ((c : Thread nD τ).loc main_arg1)) := by
  show StableHlo.after hostOps0 (W0 m ρ c) (Proc.devRef .tc main_v5) = _
  simp only [hostOps0]
  after_results
  rfl
theorem dst1 : (W1 m ρ c (Proc.devRef .tc main_v6) : Cert.KernelIdeal.KSpec.EIdx (F := Ideal)) = Cert.KernelIdeal.KSpec.dstIdx (F := Ideal) (m ((c : Thread nD τ).loc main_arg1)) := by
  show StableHlo.after hostOps0 (W0 m ρ c) (Proc.devRef .tc main_v6) = _
  simp only [hostOps0]
  after_results
  rfl
theorem cmp1 : (W1 m ρ c (Proc.devRef .tc main_v12) : (⟨S50000, .i1⟩ : BufTy).Contents (Elt Ideal)) = cmpf (F := Ideal) (φ := .f32) .ogt (Cert.KernelIdeal.KSpec.deg (F := Ideal) (m ((c : Thread nD τ).loc main_arg1))) (Cert.KernelIdeal.KSpec.zerosN (F := Ideal)) := by
  show StableHlo.after hostOps0 (W0 m ρ c) (Proc.devRef .tc main_v12) = _
  simp only [hostOps0]
  after_results
  rfl
theorem rs1 : (W1 m ρ c (Proc.devRef .tc main_v13) : Cert.KernelIdeal.KSpec.Node (F := Ideal)) = (Host.rsqrt (F := Ideal) (φ := .f32) (Cert.KernelIdeal.KSpec.deg (F := Ideal) (m ((c : Thread nD τ).loc main_arg1))) : Cert.KernelIdeal.KSpec.Node (F := Ideal)) := by
  show StableHlo.after hostOps0 (W0 m ρ c) (Proc.devRef .tc main_v13) = _
  simp only [hostOps0]
  after_results
  rfl
theorem c21 : (W1 m ρ c (Proc.devRef .tc main_cst_2) : (⟨S_, .f32⟩ : BufTy).Contents (Elt Ideal)) = constant (F := Ideal) S_ .f32 0x00000000#32 := by
  show StableHlo.after hostOps0 (W0 m ρ c) (Proc.devRef .tc main_cst_2) = _
  simp only [hostOps0]
  after_results

theorem src2 : W2 m ρ c (Proc.devRef .tc main_v5) = W1 m ρ c (Proc.devRef .tc main_v5) :=
  StableHlo.after_of_writes_sub hostOps0_1 _ hostOps0_1_writes (by decide)
theorem dst2 : W2 m ρ c (Proc.devRef .tc main_v6) = W1 m ρ c (Proc.devRef .tc main_v6) :=
  StableHlo.after_of_writes_sub hostOps0_1 _ hostOps0_1_writes (by decide)

theorem dinv2 : (W2 m ρ c (Proc.devRef .tc main_v14) : Cert.KernelIdeal.KSpec.Node (F := Ideal)) = Cert.KernelIdeal.KSpec.dinv (F := Ideal) (m ((c : Thread nD τ).loc main_arg1)) :=
  (dinv_of (W1 m ρ c) _ _ _ (cmp1 m ρ c) (rs1 m ρ c) (c21 m ρ c)).trans rfl

theorem src_eq : (W3 m ρ c (Proc.devRef .tc main_v5) : Cert.KernelIdeal.KSpec.EIdx (F := Ideal)) = Cert.KernelIdeal.KSpec.srcIdx (F := Ideal) (m ((c : Thread nD τ).loc main_arg1)) :=
  (StableHlo.after_of_writes_sub hostOps0_2 _ hostOps0_2_writes (by decide)).trans ((src2 m ρ c).trans (src1 m ρ c))
theorem dst_eq : (W3 m ρ c (Proc.devRef .tc main_v6) : Cert.KernelIdeal.KSpec.EIdx (F := Ideal)) = Cert.KernelIdeal.KSpec.dstIdx (F := Ideal) (m ((c : Thread nD τ).loc main_arg1)) :=
  (StableHlo.after_of_writes_sub hostOps0_2 _ hostOps0_2_writes (by decide)).trans ((dst2 m ρ c).trans (dst1 m ρ c))

theorem norm_eq : (W3 m ρ c (Proc.devRef .tc main_v29) : Cert.KernelIdeal.KSpec.EVal (F := Ideal)) = Cert.KernelIdeal.KSpec.normK (F := Ideal) (m ((c : Thread nD τ).loc main_arg1)) :=
  (norm_of (W2 m ρ c) _ _ _ ((src2 m ρ c).trans (src1 m ρ c)) ((dst2 m ρ c).trans (dst1 m ρ c)) (dinv2 m ρ c)).trans rfl

/-! ## The stages -/

/-- Layer 1's dense product. -/
theorem h1_eq : W4 m ρ c (Proc.devRef .tc main_v30)
    = Value0.mm (m ((c : Thread nD τ).loc main_arg0)) (m ((c : Thread nD τ).loc main_arg2)) := by
  refine (W4_arr m ρ c 2).trans ((Value0.final (V3 m ρ) c).trans ?_)
  show Value0.mm (W3 m ρ c (Proc.devRef .tc main_arg0)) (W3 m ρ c (Proc.devRef .tc main_arg2)) = _
  rw [r3_main_arg0, r3_main_arg2]

/-- Layer 1's aggregation. -/
theorem agg1_eq : @Eq (Cert.KernelIdeal.KSpec.Feat (F := Ideal)) (W5 m ρ c (Proc.devRef .tc main_v43))
    (aggSD (Cert.KernelIdeal.KSpec.srcIdx (m ((c : Thread nD τ).loc main_arg1))) (Cert.KernelIdeal.KSpec.dstIdx (m ((c : Thread nD τ).loc main_arg1))) (Cert.KernelIdeal.KSpec.normK (m ((c : Thread nD τ).loc main_arg1))) (W4 m ρ c (Proc.devRef .tc main_v30))) :=
  agg1_of (W4 m ρ c) _ _ _ _ ((r4_main_v5 m ρ c).trans (src_eq m ρ c)) ((r4_main_v6 m ρ c).trans (dst_eq m ρ c)) ((r4_main_v29 m ρ c).trans (norm_eq m ρ c)) rfl

theorem b1_eq : W5 m ρ c (Proc.devRef .tc main_v44) = shapeCast S1x128 (m ((c : Thread nD τ).loc main_arg3)) shapeCasts_S128_S1x128 := by
  show StableHlo.after hostOps1 (W4 m ρ c) (Proc.devRef .tc main_v44) = _
  simp only [hostOps1]; after_results; rw [r4_main_arg3]; rfl
theorem g1_eq : W5 m ρ c (Proc.devRef .tc main_v45) = shapeCast S1x128 (m ((c : Thread nD τ).loc main_arg4)) shapeCasts_S128_S1x128 := by
  show StableHlo.after hostOps1 (W4 m ρ c) (Proc.devRef .tc main_v45) = _
  simp only [hostOps1]; after_results; rw [r4_main_arg4]; rfl
theorem be1_eq : W5 m ρ c (Proc.devRef .tc main_v46) = shapeCast S1x128 (m ((c : Thread nD τ).loc main_arg5)) shapeCasts_S128_S1x128 := by
  show StableHlo.after hostOps1 (W4 m ρ c) (Proc.devRef .tc main_v46) = _
  simp only [hostOps1]; after_results; rw [r4_main_arg5]; rfl
theorem a1_eq : W5 m ρ c (Proc.devRef .tc main_v47) = shapeCast S1x1 (m ((c : Thread nD τ).loc main_arg6)) shapeCasts_S1_S1x1 := by
  show StableHlo.after hostOps1 (W4 m ρ c) (Proc.devRef .tc main_v47) = _
  simp only [hostOps1]; after_results; rw [r4_main_arg6]; rfl

/-- Layer 1's column statistics. -/
theorem mean1_eq : W6 m ρ c (Proc.devRef .tc main_v48_0)
    = Value1.meanRow (W5 m ρ c (Proc.devRef .tc main_v43)) (W5 m ρ c (Proc.devRef .tc main_v44)) :=
  (W6_arr m ρ c 2).trans (Value1.final2 (V5 m ρ) c)
theorem var1_eq : W6 m ρ c (Proc.devRef .tc main_v48_1)
    = Value1.varRow (W5 m ρ c (Proc.devRef .tc main_v43)) (W5 m ρ c (Proc.devRef .tc main_v44)) :=
  (W6_arr m ρ c 3).trans (Value1.final3 (V5 m ρ) c)

/-- Layer 1's normalisation. -/
theorem bn1_eq : W7 m ρ c (Proc.devRef .tc main_v49)
    = Value2.nrm (W5 m ρ c (Proc.devRef .tc main_v43)) (W5 m ρ c (Proc.devRef .tc main_v44))
        (Value1.meanRow (W5 m ρ c (Proc.devRef .tc main_v43)) (W5 m ρ c (Proc.devRef .tc main_v44)))
        (Value1.varRow (W5 m ρ c (Proc.devRef .tc main_v43)) (W5 m ρ c (Proc.devRef .tc main_v44)))
        (W5 m ρ c (Proc.devRef .tc main_v45)) (W5 m ρ c (Proc.devRef .tc main_v46)) (W5 m ρ c (Proc.devRef .tc main_v47)) := by
  refine (W7_arr m ρ c 7).trans ((Value2.final (V6 m ρ) c).trans ?_)
  show Value2.nrm (W6 m ρ c (Proc.devRef .tc main_v43)) (W6 m ρ c (Proc.devRef .tc main_v44)) (W6 m ρ c (Proc.devRef .tc main_v48_0))
      (W6 m ρ c (Proc.devRef .tc main_v48_1)) (W6 m ρ c (Proc.devRef .tc main_v45)) (W6 m ρ c (Proc.devRef .tc main_v46)) (W6 m ρ c (Proc.devRef .tc main_v47)) = _
  rw [r6_main_v43, r6_main_v44, r6_main_v45, r6_main_v46, r6_main_v47, mean1_eq, var1_eq]

/-- Layer 2's dense product. -/
theorem h2_eq : W8 m ρ c (Proc.devRef .tc main_v50)
    = Value3.mm (W7 m ρ c (Proc.devRef .tc main_v49)) (m ((c : Thread nD τ).loc main_arg7)) := by
  refine (W8_arr m ρ c 2).trans ((Value3.final (V7 m ρ) c).trans ?_)
  show Value3.mm (W7 m ρ c (Proc.devRef .tc main_v49)) (W7 m ρ c (Proc.devRef .tc main_arg7)) = _
  rw [r7_main_arg7]

/-- Layer 2's aggregation. -/
theorem agg2_eq : @Eq (Cert.KernelIdeal.KSpec.Feat (F := Ideal)) (W9 m ρ c (Proc.devRef .tc main_v63))
    (aggSD (Cert.KernelIdeal.KSpec.srcIdx (m ((c : Thread nD τ).loc main_arg1))) (Cert.KernelIdeal.KSpec.dstIdx (m ((c : Thread nD τ).loc main_arg1))) (Cert.KernelIdeal.KSpec.normK (m ((c : Thread nD τ).loc main_arg1))) (W8 m ρ c (Proc.devRef .tc main_v50))) :=
  agg2_of (W8 m ρ c) _ _ _ _ ((r8_main_v5 m ρ c).trans (src_eq m ρ c)) ((r8_main_v6 m ρ c).trans (dst_eq m ρ c)) ((r8_main_v29 m ρ c).trans (norm_eq m ρ c)) rfl

theorem b2_eq : W9 m ρ c (Proc.devRef .tc main_v64) = shapeCast S1x128 (m ((c : Thread nD τ).loc main_arg8)) shapeCasts_S128_S1x128 := by
  show StableHlo.after hostOps4 (W8 m ρ c) (Proc.devRef .tc main_v64) = _
  simp only [hostOps4]; after_results; rw [r8_main_arg8]; rfl
theorem g2_eq : W9 m ρ c (Proc.devRef .tc main_v65) = shapeCast S1x128 (m ((c : Thread nD τ).loc main_arg9)) shapeCasts_S128_S1x128 := by
  show StableHlo.after hostOps4 (W8 m ρ c) (Proc.devRef .tc main_v65) = _
  simp only [hostOps4]; after_results; rw [r8_main_arg9]; rfl
theorem be2_eq : W9 m ρ c (Proc.devRef .tc main_v66) = shapeCast S1x128 (m ((c : Thread nD τ).loc main_arg10)) shapeCasts_S128_S1x128 := by
  show StableHlo.after hostOps4 (W8 m ρ c) (Proc.devRef .tc main_v66) = _
  simp only [hostOps4]; after_results; rw [r8_main_arg10]; rfl
theorem a2_eq : W9 m ρ c (Proc.devRef .tc main_v67) = shapeCast S1x1 (m ((c : Thread nD τ).loc main_arg11)) shapeCasts_S1_S1x1 := by
  show StableHlo.after hostOps4 (W8 m ρ c) (Proc.devRef .tc main_v67) = _
  simp only [hostOps4]; after_results; rw [r8_main_arg11]; rfl

theorem mean2_eq : W10 m ρ c (Proc.devRef .tc main_v68_0)
    = Value4.meanRow (W9 m ρ c (Proc.devRef .tc main_v63)) (W9 m ρ c (Proc.devRef .tc main_v64)) :=
  (W10_arr m ρ c 2).trans (Value4.final2 (V9 m ρ) c)
theorem var2_eq : W10 m ρ c (Proc.devRef .tc main_v68_1)
    = Value4.varRow (W9 m ρ c (Proc.devRef .tc main_v63)) (W9 m ρ c (Proc.devRef .tc main_v64)) :=
  (W10_arr m ρ c 3).trans (Value4.final3 (V9 m ρ) c)

/-- THE RESULT of the kernel program. -/
theorem out_eq : W11 m ρ c (Proc.devRef .tc main_v69)
    = Value5.nrm (W9 m ρ c (Proc.devRef .tc main_v63)) (W9 m ρ c (Proc.devRef .tc main_v64))
        (Value4.meanRow (W9 m ρ c (Proc.devRef .tc main_v63)) (W9 m ρ c (Proc.devRef .tc main_v64)))
        (Value4.varRow (W9 m ρ c (Proc.devRef .tc main_v63)) (W9 m ρ c (Proc.devRef .tc main_v64)))
        (W9 m ρ c (Proc.devRef .tc main_v65)) (W9 m ρ c (Proc.devRef .tc main_v66)) (W9 m ρ c (Proc.devRef .tc main_v67)) := by
  refine (W11_arr m ρ c 7).trans ((Value5.final (V10 m ρ) c).trans ?_)
  show Value5.nrm (W10 m ρ c (Proc.devRef .tc main_v63)) (W10 m ρ c (Proc.devRef .tc main_v64)) (W10 m ρ c (Proc.devRef .tc main_v68_0))
      (W10 m ρ c (Proc.devRef .tc main_v68_1)) (W10 m ρ c (Proc.devRef .tc main_v65)) (W10 m ρ c (Proc.devRef .tc main_v66)) (W10 m ρ c (Proc.devRef .tc main_v67)) = _
  rw [r10_main_v63, r10_main_v64, r10_main_v65, r10_main_v66, r10_main_v67, mean2_eq, var2_eq]

end Cert.KernelIdeal.Final

end
-- ==== Proof.RefSpec.lean ====
/- The reference computation, stage by stage, as pure functions of the twelve argument arrays (at any float instance):
   the edge lists with a self-loop appended per node; the degree of a node as a scatter-add of ones over the destination
   list and its inverse square root where positive; an edge's weight as the product of its two ends' inverse roots; one
   graph-convolution layer — the dense product of the features with the weights, gathered along the sources, scaled by
   the edge weights, scatter-added into the destinations, plus the bias row —; and the column normalisation of the
   result by its own column mean and (biased) column variance, a gain and an offset, followed by the leaky rectifier. -/
import proofs.«112204_j28269474742836_1_alg».proof.Proof.Gen.ReferenceIdeal
import Idealize.ShloMosaic.PureOps.Ideal

noncomputable section

namespace Cert.ReferenceIdeal.Spec

open Cert.ReferenceIdeal Cert.ReferenceIdeal.Gen Idealize.ShloMosaic

variable {F : FTy → Type} [FloatOps F]

abbrev Feat := (⟨S50000x128, .f32⟩ : BufTy).Contents (Elt F)
abbrev Wts := (⟨S128x128, .f32⟩ : BufTy).Contents (Elt F)
abbrev Col := (⟨S128, .f32⟩ : BufTy).Contents (Elt F)
abbrev Edges := (⟨S2x800000, .i32⟩ : BufTy).Contents (Elt F)
abbrev EIdx := (⟨S850000, .i32⟩ : BufTy).Contents (Elt F)
abbrev EVal := (⟨S850000, .f32⟩ : BufTy).Contents (Elt F)
abbrev Node := (⟨S50000, .f32⟩ : BufTy).Contents (Elt F)

/-- Row `r` of the edge array, then one self-loop per node. -/
def srcIdx (ei : Edges (F := F)) : EIdx (F := F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0
def dstIdx (ei : Edges (F := F)) : EIdx (F := F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- An index list as gather indices: negative entries wrapped by the node count, as a column. -/
def wrapIdx (i : EIdx (F := F)) : (⟨S850000x1, .i32⟩ : BufTy).Contents (Elt F) :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)
/-- An index list as scatter indices: a column. -/
def colIdx (i : EIdx (F := F)) : (⟨S850000x1, .i32⟩ : BufTy).Contents (Elt F) :=
  broadcastInDim S850000x1 ![0] bcast_S850000_S850000x1_0 i

def ones : EVal (F := F) := broadcastInDim S850000 ![] bcast_S_S850000 (constant S_ .f32 0x3F800000#32)
def zerosN : Node (F := F) := broadcastInDim S50000 ![] bcast_S_S50000 (constant S_ .f32 0x00000000#32)

/-- A node's degree: the number of listed edges (self-loops included) that point at it. -/
def deg (ei : Edges (F := F)) : Node (F := F) :=
  Host.scatterAdd scatter_S50000_S850000x1_S850000_n_0_0_1 zerosN (colIdx (dstIdx ei)) ones
/-- Its inverse square root where the degree is positive, else zero. -/
def dinv (ei : Edges (F := F)) : Node (F := F) :=
  select (cmpf (F := F) .ogt (deg ei) zerosN) (Host.rsqrt (deg ei)) zerosN

/-- The reference's edge weight: source end's inverse root, times one, times the destination end's. -/
def normR (ei : Edges (F := F)) : EVal (F := F) :=
  mulf (mulf (Host.gather gather_S50000_S850000x1_S850000_n_0_n_n_0_1_1 (dinv ei) (wrapIdx (srcIdx ei))) ones)
    (Host.gather gather_S50000_S850000x1_S850000_n_0_n_n_0_1_1 (dinv ei) (wrapIdx (dstIdx ei)))
/-- The kernel program's edge weight: the same without the factor one. -/
def normK (ei : Edges (F := F)) : EVal (F := F) :=
  mulf (Host.gather gather_S50000_S850000x1_S850000_n_0_n_n_0_1_1 (dinv ei) (wrapIdx (srcIdx ei)))
    (Host.gather gather_S50000_S850000x1_S850000_n_0_n_n_0_1_1 (dinv ei) (wrapIdx (dstIdx ei)))

/-- Aggregation: every edge carries its source's row scaled by the edge's weight into its destination's row. -/
def agg (ei : Edges (F := F)) (w : EVal (F := F)) (h : Feat (F := F)) : Feat (F := F) :=
  Host.scatterAdd scatter_S50000x128_S850000x1_S850000x128_1_0_0_1
    (broadcastInDim S50000x128 ![] bcast_S_S50000x128 (constant S_ .f32 0x00000000#32)) (colIdx (dstIdx ei))
    (mulf (broadcastInDim S850000x128 ![0, 1] bcast_S850000x1_S850000x128_0_1 (broadcastInDim S850000x1 ![0] bcast_S850000_S850000x1_0 w))
      (Host.gather gather_S50000x128_S850000x1_S850000x128_1_0_n_n_0_1_1128 h (wrapIdx (srcIdx ei))))

/-- A row of 128 values repeated down the 50000 rows. -/
def rowB (v : Col (F := F)) : Feat (F := F) :=
  broadcastInDim S50000x128 ![0, 1] bcast_S1x128_S50000x128_0_1 (broadcastInDim S1x128 ![1] bcast_S128_S1x128_1 v)

/-- One graph-convolution layer of the reference. -/
def gcn (ei : Edges (F := F)) (x : Feat (F := F)) (W : Wts (F := F)) (b : Col (F := F)) : Feat (F := F) :=
  addf (agg ei (normR ei) (Host.dotGeneral dot_S50000x128_S128x128_S50000x128_1_0_0_1_n_n none x W)) (rowB b)

def fifty : Col (F := F) := broadcastInDim S128 ![] bcast_S_S128 (constant S_ .f32 0x47435000#32)
/-- The column means. -/
def mu (X : Feat (F := F)) : Col (F := F) :=
  Host.divf (Host.reduceAdd X (constant S_ .f32 0x00000000#32) reducesTo_S50000x128_S128_d0 h_S_) fifty
/-- The column means of the squared deviations. -/
def var (X : Feat (F := F)) : Col (F := F) :=
  Host.divf (Host.reduceAdd (mulf (subf X (rowB (mu X))) (subf X (rowB (mu X)))) (constant S_ .f32 0x00000000#32) reducesTo_S50000x128_S128_d0 h_S_) fifty

/-- Normalise the columns, apply gain and offset, then the leaky rectifier with slope `a`. -/
def bnp (X : Feat (F := F)) (g be : Col (F := F)) (a : (⟨S1, .f32⟩ : BufTy).Contents (Elt F)) : Feat (F := F) :=
  select
    (cmpf .ogt (addf (mulf (mulf (subf X (rowB (mu X))) (rowB (Host.rsqrt (addf (var X) (broadcastInDim S128 ![] bcast_S_S128 (constant S_ .f32 0x3727C5AC#32)))))) (rowB g)) (rowB be))
      (broadcastInDim S50000x128 ![] bcast_S_S50000x128 (constant S_ .f32 0x00000000#32)))
    (addf (mulf (mulf (subf X (rowB (mu X))) (rowB (Host.rsqrt (addf (var X) (broadcastInDim S128 ![] bcast_S_S128 (constant S_ .f32 0x3727C5AC#32)))))) (rowB g)) (rowB be))
    (mulf (broadcastInDim S50000x128 ![0, 1] bcast_S1x1_S50000x128_0_1 (broadcastInDim S1x1 ![1] bcast_S1_S1x1_1 a))
      (addf (mulf (mulf (subf X (rowB (mu X))) (rowB (Host.rsqrt (addf (var X) (broadcastInDim S128 ![] bcast_S_S128 (constant S_ .f32 0x3727C5AC#32)))))) (rowB g)) (rowB be)))

/-- The whole reference: two layers, each followed by the normalisation and rectifier. -/
def out (x : Feat (F := F)) (ei : Edges (F := F)) (W1 : Wts (F := F)) (b1 g1 be1 : Col (F := F)) (a1 : (⟨S1, .f32⟩ : BufTy).Contents (Elt F))
    (W2 : Wts (F := F)) (b2 g2 be2 : Col (F := F)) (a2 : (⟨S1, .f32⟩ : BufTy).Contents (Elt F)) : Feat (F := F) :=
  bnp (gcn ei (bnp (gcn ei x W1 b1) g1 be1 a1) W2 b2) g2 be2 a2

end Cert.ReferenceIdeal.Spec

end
-- ==== Proof.XSpec.lean ====
/- The kernel program's host-side functions are the reference's: the two programs print the same shapes and the same
   gather, scatter and broadcast records, each in its own namespace; definition by definition the two spellings agree. -/
import proofs.«112204_j28269474742836_1_alg».proof.Proof.KSpec
import proofs.«112204_j28269474742836_1_alg».proof.Proof.RefSpec

set_option maxRecDepth 16384

noncomputable section

namespace Cert.XSpec

open Idealize.ShloMosaic

theorem srcIdx_x (ei : Cert.ReferenceIdeal.Spec.Edges (F := Ideal)) : Cert.KernelIdeal.KSpec.srcIdx ei = Cert.ReferenceIdeal.Spec.srcIdx ei := rfl
theorem dstIdx_x (ei : Cert.ReferenceIdeal.Spec.Edges (F := Ideal)) : Cert.KernelIdeal.KSpec.dstIdx ei = Cert.ReferenceIdeal.Spec.dstIdx ei := rfl
theorem wrapIdx_x (i : Cert.ReferenceIdeal.Spec.EIdx (F := Ideal)) : Cert.KernelIdeal.KSpec.wrapIdx i = Cert.ReferenceIdeal.Spec.wrapIdx i := rfl
theorem colIdx_x (i : Cert.ReferenceIdeal.Spec.EIdx (F := Ideal)) : Cert.KernelIdeal.KSpec.colIdx i = Cert.ReferenceIdeal.Spec.colIdx i := rfl
theorem ones_x : Cert.KernelIdeal.KSpec.ones (F := Ideal) = Cert.ReferenceIdeal.Spec.ones := rfl
theorem zerosN_x : Cert.KernelIdeal.KSpec.zerosN (F := Ideal) = Cert.ReferenceIdeal.Spec.zerosN := rfl
theorem deg_x (ei : Cert.ReferenceIdeal.Spec.Edges (F := Ideal)) : Cert.KernelIdeal.KSpec.deg ei = Cert.ReferenceIdeal.Spec.deg ei := by
  unfold Cert.KernelIdeal.KSpec.deg Cert.ReferenceIdeal.Spec.deg
  rw [zerosN_x, ones_x, dstIdx_x, colIdx_x]
  rfl
theorem dinv_x (ei : Cert.ReferenceIdeal.Spec.Edges (F := Ideal)) : Cert.KernelIdeal.KSpec.dinv ei = Cert.ReferenceIdeal.Spec.dinv ei := by
  unfold Cert.KernelIdeal.KSpec.dinv Cert.ReferenceIdeal.Spec.dinv
  rw [deg_x, zerosN_x]
theorem normK_x (ei : Cert.ReferenceIdeal.Spec.Edges (F := Ideal)) : Cert.KernelIdeal.KSpec.normK ei = Cert.ReferenceIdeal.Spec.normK ei := by
  unfold Cert.KernelIdeal.KSpec.normK Cert.ReferenceIdeal.Spec.normK
  rw [dinv_x, srcIdx_x, dstIdx_x, wrapIdx_x, wrapIdx_x]
  rfl
theorem agg_x (ei : Cert.ReferenceIdeal.Spec.Edges (F := Ideal)) (w : Cert.ReferenceIdeal.Spec.EVal (F := Ideal)) (h : Cert.ReferenceIdeal.Spec.Feat (F := Ideal)) :
    Cert.KernelIdeal.KSpec.agg ei w h = Cert.ReferenceIdeal.Spec.agg ei w h := by
  unfold Cert.KernelIdeal.KSpec.agg Cert.ReferenceIdeal.Spec.agg
  rw [dstIdx_x, colIdx_x, srcIdx_x, wrapIdx_x]
  rfl

end Cert.XSpec

end
-- ==== Proof.LibRealStages.lean ====
/-
  Real stages inside the extended reals.

  A program run on real inputs stays real stage by stage: the coercion of the reals into the extended reals commutes
  with finite sums, with the quotient by a nonzero real, with the maximum and with the exponential. The three float
  patterns the programs spell are read here once: 0, 2 and 2^24 = 16777216.
-/
import Idealize.ShloMosaic.PureOps.Ideal.Laws

noncomputable section

open scoped BigOperators

namespace Cert.Combo.RealStages

open Idealize.ShloMosaic

/-- The coercion of the reals into the extended reals commutes with a finite sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of a real by a nonzero real, taken in the extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The maximum of two reals, taken in the extended reals, is the real maximum. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The pattern of the float `2.0` denotes the real 2. -/
theorem ofBits_two : Ideal.ofBits .f32 0x40000000#32 = ((2 : ℝ) : EReal) := by
  simp [Ideal.ofBits, Ideal.ieee, -EReal.coe_mul]; norm_num

/-- The pattern of the float `16777216.0` denotes the real 2^24. -/
theorem ofBits_two_pow_24 : Ideal.ofBits .f32 0x4B800000#32 = ((16777216 : ℝ) : EReal) := by
  simp [Ideal.ofBits, Ideal.ieee, -EReal.coe_mul]; norm_num

end Cert.Combo.RealStages

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibDegree.lean ====
import Idealize.ShloMosaic.PureOps.Ideal
import Idealize.ShloMosaic.Lib.ValueIdx
import proofs.«112204_j28269474742836_1_alg».proof.Proof.LibIndexOps
import proofs.«112204_j28269474742836_1_alg».proof.Proof.LibRealStages

/-!
# The inverse square root of a node's degree is a non-negative real

A node's degree is a scatter-add of ones into zeros along the destination words. When some edge's word names the node
(its self-loop), the degree is a real number at least one, so its inverse square root is a non-negative real: never
+∞, which is what the extended reals give `rsqrt 0`.
-/

noncomputable section

open scoped BigOperators

namespace Cert.Gcn.Deg

open Idealize.ShloMosaic Idealize.ShloMosaic.ValueIdx

/-- The pattern of the float `1.0` denotes the real 1. -/
theorem ofBits_one : Ideal.ofBits .f32 0x3F800000#32 = ((1 : ℝ) : EReal) := by
  simp [Ideal.ofBits, Ideal.ieee, -EReal.coe_mul]; norm_num

/-- A sum of ones over the selected edges is a real at least one when some edge is selected. -/
theorem count_real {M : Nat} (P : Fin M → Prop) [DecidablePred P] (j0 : Fin M) (h0 : P j0) :
    ∃ r : ℝ, 1 ≤ r ∧ (0 + ∑ j : Fin M, if P j then ((1 : ℝ) : EReal) else 0) = (r : EReal) := by
  refine ⟨∑ j : Fin M, if P j then (1 : ℝ) else 0, ?_, ?_⟩
  · have h := Finset.single_le_sum (f := fun j : Fin M => if P j then (1 : ℝ) else 0)
      (fun j _ => by split_ifs <;> norm_num) (Finset.mem_univ j0)
    rw [if_pos h0] at h
    exact h
  · rw [zero_add, ← Cert.Combo.RealStages.coe_sum]
    refine Finset.sum_congr rfl fun j _ => ?_
    split_ifs
    · rfl
    · exact EReal.coe_zero.symm

/-- The inverse square root of a real at least one is a non-negative real. -/
theorem rsqrt_real {r : ℝ} (h : 1 ≤ r) : 0 ≤ Ideal.rsqrt (r : EReal) ∧ Ideal.rsqrt (r : EReal) ≠ ⊤ := by
  rw [Ideal.rsqrt_coe, if_neg (by linarith), if_neg (by linarith)]
  exact ⟨EReal.coe_nonneg.mpr (inv_nonneg.mpr (Real.sqrt_nonneg r)), EReal.coe_ne_top _⟩

/-- THE DEGREE FACT. Ones scatter-added into zeros along the words `idx`: where every node is named by some word,
    the inverse square root of every entry is a non-negative real. -/
theorem rsqrt_deg {N M : Nat} (wf : ScatterDims.WF ⟨1, ![N]⟩ ⟨2, ![M, 1]⟩ ⟨1, ![M]⟩ [] [0] [0] 1)
    (zeros : (⟨1, ![N]⟩ : Shape).Idx → EReal) (hz : ∀ i, zeros i = 0)
    (ones : (⟨1, ![M]⟩ : Shape).Idx → EReal) (ho : ∀ j, ones j = ((1 : ℝ) : EReal))
    (idx : (⟨2, ![M, 1]⟩ : Shape).Idx → BitVec 32)
    (hself : ∀ n : Fin N, ∃ j : Fin M, (idx (ix2 j 0)).toInt = (n.val : Int)) (n : Fin N) :
    0 ≤ Ideal.rsqrt (Ideal.hostScatterAdd (Cert.LibIndexOps.scatFlat N M wf) zeros idx ones (ix1 n))
      ∧ Ideal.rsqrt (Ideal.hostScatterAdd (Cert.LibIndexOps.scatFlat N M wf) zeros idx ones (ix1 n)) ≠ ⊤ := by
  obtain ⟨j0, h0⟩ := hself n
  obtain ⟨r, hr, he⟩ := count_real (fun j : Fin M => (idx (ix2 j 0)).toInt = (n.val : Int)) j0 h0
  have hd : Ideal.hostScatterAdd (Cert.LibIndexOps.scatFlat N M wf) zeros idx ones (ix1 n) = (r : EReal) := by
    rw [Cert.LibIndexOps.scatterAddFlat_apply wf zeros idx ones n, hz, ← he]
    refine congrArg (fun s => 0 + s) (Finset.sum_congr rfl fun j _ => ?_)
    rw [ho]
  rw [hd]
  exact rsqrt_real hr

/-- A small natural number as a 32-bit word reads back signed as itself. -/
theorem toInt_ofNat_small (k : Nat) (h : k < 2147483648) : (BitVec.ofNat 32 k).toInt = (k : Int) := by
  have h1 : (BitVec.ofNat 32 k).toNat = k := by
    rw [BitVec.toNat_ofNat]; exact Nat.mod_eq_of_lt (by omega)
  unfold BitVec.toInt
  rw [h1, if_pos (by omega)]

end Cert.Gcn.Deg

end
-- ==== Proof.SpecReal.lean ====
/-
  Finite real entries, stage by stage, for the reference computation (the stages of RefSpec), at the ideal values.

  At the ideal values a float is an extended real. An entry is FINITE when it is the image of a real number. Sums,
  differences and products of finite entries are finite (the coercion of the reals commutes with them), a finite sum of
  finite entries is finite, a quotient by a nonzero real is finite, the inverse square root of a POSITIVE real is a
  positive real, and an operation that only moves entries about (gather, broadcast, select) keeps them finite. So every
  stage of the reference keeps finite entries when its arguments are finite:

  * a node's degree is a sum of ones, a real; where it is positive its inverse square root is a positive real, and
    elsewhere the reference puts zero: the inverse roots are non-negative reals;
  * an edge's weight is a product of two such, and the factor one between them changes nothing;
  * a layer is a finite sum of products of finite entries plus a finite entry;
  * a column's mean is a finite sum over 50000; its variance is a sum of squares of reals over 50000, a NON-NEGATIVE
    real, so adding the positive constant 10995116 / 2^40 (the float nearest 1e-5) gives a positive real, whose inverse
    square root is a real; the normalised, scaled, shifted and rectified entries are then finite.

  Last, the variance identity: over a column of N = 50000 reals x with mean m = (Σ x) / N,
      (Σ (x − m)²) / N = (Σ x²) / N − m²,
  because Σ (x − m)² = Σ x² − 2 m Σ x + N m² and Σ x = N m. It is proved in the reals and carried to the extended reals
  by the coercion.
-/
import proofs.«112204_j28269474742836_1_alg».proof.Proof.RefSpec
import proofs.«112204_j28269474742836_1_alg».proof.Proof.LibRealStages
import proofs.«112204_j28269474742836_1_alg».proof.Proof.LibDegree
import Idealize.ShloMosaic.PureOps.Ideal.Laws
import Idealize.ShloMosaic.Lib.ValueIdx
import Idealize.ShloMosaic.Lib.Pipeline.Value

noncomputable section

open scoped BigOperators

namespace Cert.ReferenceIdeal.SpecReal

open Cert.ReferenceIdeal Cert.ReferenceIdeal.Gen Cert.ReferenceIdeal.Spec Idealize.ShloMosaic Idealize.ShloMosaic.ValueIdx
open Cert.Combo.RealStages (coe_sum div_coe_coe)

/-! ## Finite entries -/

/-- Every entry is (the image of) a real number. -/
def IsReal {ι : Type*} (v : ι → EReal) : Prop := ∀ i, ∃ r : ℝ, v i = (r : EReal)
/-- Every entry is a non-negative real. -/
def IsNonnegReal {ι : Type*} (v : ι → EReal) : Prop := ∀ i, ∃ r : ℝ, 0 ≤ r ∧ v i = (r : EReal)
/-- Every entry is a positive real. -/
def IsPosReal {ι : Type*} (v : ι → EReal) : Prop := ∀ i, ∃ r : ℝ, 0 < r ∧ v i = (r : EReal)

theorem IsNonnegReal.isReal {ι : Type*} {v : ι → EReal} (h : IsNonnegReal v) : IsReal v := fun i => by
  obtain ⟨r, _, hr⟩ := h i; exact ⟨r, hr⟩
theorem IsPosReal.isNonnegReal {ι : Type*} {v : ι → EReal} (h : IsPosReal v) : IsNonnegReal v := fun i => by
  obtain ⟨r, h0, hr⟩ := h i; exact ⟨r, h0.le, hr⟩
theorem IsPosReal.isReal {ι : Type*} {v : ι → EReal} (h : IsPosReal v) : IsReal v := h.isNonnegReal.isReal

/-! ## One entry: the arithmetic of finite values -/

theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩
theorem real_sub {x y : EReal} (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩
/-- A finite sum of finite values is finite. -/
theorem real_sum {ι : Type*} (s : Finset ι) (f : ι → EReal) (hf : ∀ i, ∃ r : ℝ, f i = (r : EReal)) :
    ∃ r : ℝ, ∑ i ∈ s, f i = (r : EReal) := by
  choose g hg using hf
  refine ⟨∑ i ∈ s, g i, ?_⟩
  rw [← coe_sum]
  exact Finset.sum_congr rfl fun i _ => hg i
/-- A finite sum of non-negative reals is a non-negative real. -/
theorem nonneg_sum {ι : Type*} (s : Finset ι) (f : ι → EReal) (hf : ∀ i, ∃ r : ℝ, 0 ≤ r ∧ f i = (r : EReal)) :
    ∃ r : ℝ, 0 ≤ r ∧ ∑ i ∈ s, f i = (r : EReal) := by
  choose g hg0 hg using hf
  refine ⟨∑ i ∈ s, g i, Finset.sum_nonneg fun i _ => hg0 i, ?_⟩
  rw [← coe_sum]
  exact Finset.sum_congr rfl fun i _ => hg i
/-- The square of a finite value is a non-negative real. -/
theorem nonneg_mul_self {x : EReal} (hx : ∃ r : ℝ, x = (r : EReal)) : ∃ r : ℝ, 0 ≤ r ∧ x * x = (r : EReal) := by
  obtain ⟨a, rfl⟩ := hx; exact ⟨a * a, mul_self_nonneg a, (EReal.coe_mul a a).symm⟩
/-- The inverse square root of a positive real is a positive real (not the +∞ of a zero, nor the junk of a negative). -/
theorem rsqrt_pos_real {r : ℝ} (h : 0 < r) : ∃ t : ℝ, 0 < t ∧ Ideal.rsqrt (r : EReal) = (t : EReal) := by
  refine ⟨(Real.sqrt r)⁻¹, inv_pos.mpr (Real.sqrt_pos.mpr h), ?_⟩
  rw [Ideal.rsqrt_coe, if_neg (not_lt.mpr h.le), if_neg h.ne']
/-- "The inverse square root where the value is positive, else zero", of a finite value: a non-negative real. -/
theorem nonneg_select_rsqrt {x : EReal} (hx : ∃ r : ℝ, x = (r : EReal)) :
    ∃ t : ℝ, 0 ≤ t ∧ Scalar.select (Ideal.cmp .ogt x 0) (Ideal.rsqrt x) 0 = (t : EReal) := by
  obtain ⟨r, rfl⟩ := hx
  by_cases h : 0 < r
  · have hc : Ideal.cmp .ogt (r : EReal) 0 = 1#1 := by
      simp [Ideal.cmp, EReal.coe_pos.mpr h]
    rw [hc, select_one]
    obtain ⟨t, ht, he⟩ := rsqrt_pos_real h
    exact ⟨t, ht.le, he⟩
  · have hc : Ideal.cmp .ogt (r : EReal) 0 = 0#1 := by
      have : ¬ (0 : EReal) < (r : EReal) := fun h' => h (EReal.coe_pos.mp h')
      simp [Ideal.cmp, this]
    rw [hc, select_zero]
    exact ⟨0, le_rfl, EReal.coe_zero.symm⟩

/-! ## The four constants: 0, 1, 50000 and 10995116 / 2^40 -/

theorem ofBits_zero : Ideal.ofBits .f32 0x00000000#32 = ((0 : ℝ) : EReal) := by
  rw [Ideal.ofBits_zero_f32, EReal.coe_zero]
theorem ofBits_one : Ideal.ofBits .f32 0x3F800000#32 = ((1 : ℝ) : EReal) := Cert.Gcn.Deg.ofBits_one
/-- The pattern of the float `50000.0`: exponent 15, significand 12800000 / 2^23. -/
theorem ofBits_fifty : Ideal.ofBits .f32 0x47435000#32 = ((50000 : ℝ) : EReal) := by
  simp [Ideal.ofBits, Ideal.ieee, -EReal.coe_mul]; norm_num
/-- The real the pattern `0x3727C5AC` denotes: exponent −17, significand 10995116 / 2^23 — the float nearest 1e-5. -/
def epsR : ℝ := 10995116 / 1099511627776
theorem epsR_pos : 0 < epsR := by unfold epsR; norm_num
theorem ofBits_eps : Ideal.ofBits .f32 0x3727C5AC#32 = ((epsR : ℝ) : EReal) := by
  unfold epsR
  simp [Ideal.ofBits, Ideal.ieee, -EReal.coe_mul]; norm_num

/-! ## Whole arrays: each operation of the reference keeps finite entries -/

section Closure
variable {s t : Shape} {φ : FTy}

theorem isReal_addf {a b : FVec Ideal s φ} (ha : IsReal a) (hb : IsReal b) : IsReal (addf a b) :=
  fun i => real_add (ha i) (hb i)
theorem isReal_subf {a b : FVec Ideal s φ} (ha : IsReal a) (hb : IsReal b) : IsReal (subf a b) :=
  fun i => real_sub (ha i) (hb i)
theorem isReal_mulf {a b : FVec Ideal s φ} (ha : IsReal a) (hb : IsReal b) : IsReal (mulf a b) :=
  fun i => real_mul (ha i) (hb i)
/-- An entrywise square of finite entries has non-negative real entries. -/
theorem isNonnegReal_mulf_self {a : FVec Ideal s φ} (ha : IsReal a) : IsNonnegReal (mulf a a) :=
  fun i => nonneg_mul_self (ha i)
/-- A select reads one of its two branches at every index, whatever the condition. -/
theorem isReal_select (c : IVec s 1) {a b : s.Idx → EReal} (ha : IsReal a) (hb : IsReal b) : IsReal (select c a b) := fun i => by
  show ∃ r : ℝ, (if c i = 1 then a i else b i) = (r : EReal)
  split_ifs
  · exact ha i
  · exact hb i
/-- A broadcast reads the operand at some index. -/
theorem isReal_broadcastInDim (dims : Fin s.rank → Fin t.rank) (h : s.BroadcastsInDim t dims) {x : s.Idx → EReal}
    (hx : IsReal x) : IsReal (broadcastInDim t dims h x) := fun _ => hx _
theorem isNonnegReal_broadcastInDim (dims : Fin s.rank → Fin t.rank) (h : s.BroadcastsInDim t dims) {x : s.Idx → EReal}
    (hx : IsNonnegReal x) : IsNonnegReal (broadcastInDim t dims h x) := fun _ => hx _
theorem isPosReal_broadcastInDim (dims : Fin s.rank → Fin t.rank) (h : s.BroadcastsInDim t dims) {x : s.Idx → EReal}
    (hx : IsPosReal x) : IsPosReal (broadcastInDim t dims h x) := fun _ => hx _
/-- A gather reads the operand at some index, whatever the index words. -/
theorem isReal_gather {si : Shape} {w : Nat} (d : GatherDims s si t) {x : s.Idx → EReal} (idx : IVec si w)
    (hx : IsReal x) : IsReal (Host.gather d x idx) := fun _ => hx _
theorem isNonnegReal_gather {si : Shape} {w : Nat} (d : GatherDims s si t) {x : s.Idx → EReal} (idx : IVec si w)
    (hx : IsNonnegReal x) : IsNonnegReal (Host.gather d x idx) := fun _ => hx _
/-- A scatter-add's entry is the operand's plus a finite sum of updates: finite, at any dimension numbers and index words. -/
theorem isReal_scatterAdd {si u : Shape} {w : Nat} (d : ScatterDims s si u) {x : FVec Ideal s φ} (idx : IVec si w)
    {upd : FVec Ideal u φ} (hx : IsReal x) (hu : IsReal upd) : IsReal (Host.scatterAdd d x idx upd) := fun i => by
  show ∃ r : ℝ, Ideal.hostScatterAdd d x idx upd i = (r : EReal)
  unfold Ideal.hostScatterAdd
  exact real_add (hx i) (real_sum _ _ hu)
/-- A dot's entry is a finite sum of products. -/
theorem isReal_dotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) := fun j => by
  show ∃ r : ℝ, FloatOps.dotGeneral d prec .single lhs rhs j = (r : EReal)
  rw [Ideal.dotGeneral_apply]
  exact real_sum _ _ fun k => real_mul (hl _) (hr _)
/-- A sum-reduction's entry is the initial value plus a finite sum of entries. -/
theorem isReal_reduceAdd {u : Shape} {axes : List (Fin s.rank)} {x : FVec Ideal s φ} {init : u.Idx → Ideal φ}
    (h : s.ReducesTo axes t) (hu : 0 < u.numel) (hx : IsReal x) (hi : IsReal init) :
    IsReal (Host.reduceAdd x init h hu) := fun j => by
  show ∃ r : ℝ, Ideal.hostReduceAdd h x (init (Shape.Idx.first hu)) j = (r : EReal)
  unfold Ideal.hostReduceAdd
  exact real_add (hi _) (real_sum _ _ hx)
theorem isNonnegReal_reduceAdd {u : Shape} {axes : List (Fin s.rank)} {x : FVec Ideal s φ} {init : u.Idx → Ideal φ}
    (h : s.ReducesTo axes t) (hu : 0 < u.numel) (hx : IsNonnegReal x) (hi : IsNonnegReal init) :
    IsNonnegReal (Host.reduceAdd x init h hu) := fun j => by
  show ∃ r : ℝ, 0 ≤ r ∧ Ideal.hostReduceAdd h x (init (Shape.Idx.first hu)) j = (r : EReal)
  unfold Ideal.hostReduceAdd
  obtain ⟨a, ha0, ha⟩ := hi (Shape.Idx.first hu)
  obtain ⟨b, hb0, hb⟩ := nonneg_sum (Finset.univ.filter fun i => h.drop i = j) x hx
  exact ⟨a + b, add_nonneg ha0 hb0, by rw [ha, hb, EReal.coe_add]⟩
/-- A quotient by an array of nonzero reals. -/
theorem isReal_divf {x y : FVec Ideal s φ} (hx : IsReal x) (hy : ∀ i, ∃ c : ℝ, c ≠ 0 ∧ y i = (c : EReal)) :
    IsReal (Host.divf x y) := fun i => by
  obtain ⟨a, ha⟩ := hx i
  obtain ⟨c, hc, hyc⟩ := hy i
  refine ⟨a / c, ?_⟩
  show Ideal.div (x i) (y i) = _
  rw [ha, hyc]
  exact div_coe_coe a hc
/-- A quotient of non-negative reals by positive reals. -/
theorem isNonnegReal_divf {x y : FVec Ideal s φ} (hx : IsNonnegReal x) (hy : IsPosReal y) :
    IsNonnegReal (Host.divf x y) := fun i => by
  obtain ⟨a, ha0, ha⟩ := hx i
  obtain ⟨c, hc, hyc⟩ := hy i
  refine ⟨a / c, div_nonneg ha0 hc.le, ?_⟩
  show Ideal.div (x i) (y i) = _
  rw [ha, hyc]
  exact div_coe_coe a hc.ne'
/-- A non-negative real plus a positive real is a positive real. -/
theorem isPosReal_addf {a b : FVec Ideal s φ} (ha : IsNonnegReal a) (hb : IsPosReal b) : IsPosReal (addf a b) := fun i => by
  obtain ⟨x, hx0, hx⟩ := ha i
  obtain ⟨y, hy0, hy⟩ := hb i
  refine ⟨x + y, add_pos_of_nonneg_of_pos hx0 hy0, ?_⟩
  show a i + b i = _
  rw [hx, hy, EReal.coe_add]
/-- The inverse square root of positive reals: positive reals. -/
theorem isPosReal_rsqrt {x : FVec Ideal s φ} (hx : IsPosReal x) : IsPosReal (Host.rsqrt x) := fun i => by
  obtain ⟨r, hr0, hr⟩ := hx i
  show ∃ t : ℝ, 0 < t ∧ Ideal.rsqrt (x i) = (t : EReal)
  rw [hr]
  exact rsqrt_pos_real hr0

/-- The splat of the pattern of `0.0` … -/
theorem isReal_constant_zero : IsReal (constant (F := Ideal) s .f32 0x00000000#32) := fun _ => ⟨0, ofBits_zero⟩
theorem isNonnegReal_constant_zero : IsNonnegReal (constant (F := Ideal) s .f32 0x00000000#32) :=
  fun _ => ⟨0, le_rfl, ofBits_zero⟩
/-- … of `1.0` … -/
theorem isReal_constant_one : IsReal (constant (F := Ideal) s .f32 0x3F800000#32) := fun _ => ⟨1, ofBits_one⟩
/-- … of `50000.0` … -/
theorem isPosReal_constant_fifty : IsPosReal (constant (F := Ideal) s .f32 0x47435000#32) :=
  fun _ => ⟨50000, by norm_num, ofBits_fifty⟩
theorem isReal_constant_fifty : IsReal (constant (F := Ideal) s .f32 0x47435000#32) := isPosReal_constant_fifty.isReal
/-- … and of the float nearest 1e-5 have real entries, the last two positive. -/
theorem isPosReal_constant_eps : IsPosReal (constant (F := Ideal) s .f32 0x3727C5AC#32) :=
  fun _ => ⟨epsR, epsR_pos, ofBits_eps⟩
theorem isReal_constant_eps : IsReal (constant (F := Ideal) s .f32 0x3727C5AC#32) := isPosReal_constant_eps.isReal

end Closure

/-! ## Three readings at an index, stated for arbitrary arrays (each holds by unfolding the operation once) -/

section Readings
variable {s t : Shape} {φ : FTy}

/-- A broadcast splat constant reads the value of its pattern everywhere. -/
theorem bcast_constant_apply (dims : Fin s.rank → Fin t.rank) (h : s.BroadcastsInDim t dims) (b : BitVec φ.bits) (j : t.Idx) :
    broadcastInDim t dims h (constant (F := Ideal) s φ b) j = Ideal.ofBits φ b := rfl
/-- The host's quotient at an index. -/
theorem hostDivf_apply (a b : FVec Ideal s φ) (i : s.Idx) : Host.divf a b i = Ideal.div (a i) (b i) := rfl
/-- The host's sum-reduction is the ideal sum from the initial value's one element. -/
theorem hostReduceAdd_eq {u : Shape} {axes : List (Fin s.rank)} (x : FVec Ideal s φ) (init : u.Idx → Ideal φ)
    (h : s.ReducesTo axes t) (hu : 0 < u.numel) :
    Host.reduceAdd x init h hu = Ideal.hostReduceAdd h x (init (Shape.Idx.first hu)) := rfl
/-- A splat constant at an index. -/
theorem constant_apply' (b : BitVec φ.bits) (i : s.Idx) : constant (F := Ideal) s φ b i = Ideal.ofBits φ b := rfl

/-- "The inverse square root where positive, else zero", over an array of finite entries and an array of zeros: non-negative
    reals. -/
theorem isNonnegReal_select_rsqrt {d z : FVec Ideal s φ} (hd : IsReal d) (hz : ∀ i, z i = 0) :
    IsNonnegReal (select (cmpf .ogt d z) (Host.rsqrt d) z) := fun i => by
  show ∃ t : ℝ, 0 ≤ t ∧ Scalar.select (Ideal.cmp .ogt (d i) (z i)) (Ideal.rsqrt (d i)) (z i) = (t : EReal)
  rw [hz i]
  exact nonneg_select_rsqrt (hd i)
/-- A factor of ones between two factors changes nothing. -/
theorem mulf_mulf_ones {a b o : FVec Ideal s φ} (ho : ∀ j, o j = 1) : mulf (mulf a o) b = mulf a b := by
  funext j
  rw [mulf_apply, mulf_apply, mulf_apply, ho j, mul_one]

end Readings

/-! ## The stages of the reference -/

section Stages

/-- The node-length zeros read 0 … -/
theorem zerosN_apply (i : S50000.Idx) : zerosN (F := Ideal) i = 0 := by
  unfold zerosN
  rw [bcast_constant_apply]
  exact Ideal.ofBits_zero_f32
/-- … and the edge-length ones read 1. -/
theorem ones_apply (j : S850000.Idx) : ones (F := Ideal) j = 1 := by
  unfold ones
  rw [bcast_constant_apply, ofBits_one, EReal.coe_one]
theorem isReal_zerosN : IsReal (zerosN (F := Ideal)) := isReal_broadcastInDim _ _ isReal_constant_zero
theorem isReal_ones : IsReal (ones (F := Ideal)) := isReal_broadcastInDim _ _ isReal_constant_one

/-- A node's degree is a sum of ones: a real. -/
theorem isReal_deg (ei : Edges (F := Ideal)) : IsReal (deg ei) :=
  isReal_scatterAdd _ _ isReal_zerosN isReal_ones

/-- Its inverse square root where it is positive, zero elsewhere: a non-negative real at every node. -/
theorem isNonnegReal_dinv (ei : Edges (F := Ideal)) : IsNonnegReal (dinv ei) :=
  isNonnegReal_select_rsqrt (isReal_deg ei) zerosN_apply
theorem isReal_dinv (ei : Edges (F := Ideal)) : IsReal (dinv ei) := (isNonnegReal_dinv ei).isReal

/-- An edge's weight, in the reference's spelling, is a product of finite values. -/
theorem isReal_normR (ei : Edges (F := Ideal)) : IsReal (normR ei) :=
  isReal_mulf (isReal_mulf (isReal_gather _ _ (isReal_dinv ei)) isReal_ones) (isReal_gather _ _ (isReal_dinv ei))
theorem isReal_normK (ei : Edges (F := Ideal)) : IsReal (normK ei) :=
  isReal_mulf (isReal_gather _ _ (isReal_dinv ei)) (isReal_gather _ _ (isReal_dinv ei))

/-- The factor one changes nothing: the two spellings of the edge weight are one array. -/
theorem normR_eq_normK (ei : Edges (F := Ideal)) : normR ei = normK ei :=
  mulf_mulf_ones ones_apply

/-- A row repeated down the rows keeps finite entries. -/
theorem isReal_rowB {v : Col (F := Ideal)} (hv : IsReal v) : IsReal (rowB v) :=
  isReal_broadcastInDim _ _ (isReal_broadcastInDim _ _ hv)

/-- The aggregation of finite rows with finite weights is finite. -/
theorem isReal_agg (ei : Edges (F := Ideal)) {w : EVal (F := Ideal)} {h : Feat (F := Ideal)} (hw : IsReal w) (hh : IsReal h) :
    IsReal (agg ei w h) :=
  isReal_scatterAdd _ _ (isReal_broadcastInDim _ _ isReal_constant_zero)
    (isReal_mulf (isReal_broadcastInDim _ _ (isReal_broadcastInDim _ _ hw)) (isReal_gather _ _ hh))

/-- One layer on finite features, weights and bias is finite. -/
theorem isReal_gcn (ei : Edges (F := Ideal)) {x : Feat (F := Ideal)} {W : Wts (F := Ideal)} {b : Col (F := Ideal)}
    (hx : IsReal x) (hW : IsReal W) (hb : IsReal b) : IsReal (gcn ei x W b) :=
  isReal_addf (isReal_agg ei (isReal_normR ei) (isReal_dotGeneral _ _ hx hW)) (isReal_rowB hb)

/-- The divisor row reads 50000. -/
theorem fifty_apply (q : S128.Idx) : fifty (F := Ideal) q = ((50000 : ℝ) : EReal) := by
  unfold fifty
  rw [bcast_constant_apply]
  exact ofBits_fifty
theorem isPosReal_fifty : IsPosReal (fifty (F := Ideal)) := isPosReal_broadcastInDim _ _ isPosReal_constant_fifty

/-- The column means of finite entries are finite. -/
theorem isReal_mu {X : Feat (F := Ideal)} (hX : IsReal X) : IsReal (mu X) :=
  isReal_divf (isReal_reduceAdd _ _ hX isReal_constant_zero)
    (fun q => ⟨50000, by norm_num, fifty_apply q⟩)

/-- The column variances of finite entries are NON-NEGATIVE reals: sums of squares of reals, over 50000. -/
theorem isNonnegReal_var {X : Feat (F := Ideal)} (hX : IsReal X) : IsNonnegReal (var X) :=
  isNonnegReal_divf
    (isNonnegReal_reduceAdd _ _ (isNonnegReal_mulf_self (isReal_subf hX (isReal_rowB (isReal_mu hX)))) isNonnegReal_constant_zero)
    isPosReal_fifty
theorem isReal_var {X : Feat (F := Ideal)} (hX : IsReal X) : IsReal (var X) := (isNonnegReal_var hX).isReal

/-- Variance plus the positive constant is a positive real … -/
theorem isPosReal_var_add_eps {X : Feat (F := Ideal)} (hX : IsReal X) :
    IsPosReal (addf (var X) (broadcastInDim S128 ![] bcast_S_S128 (constant (F := Ideal) S_ .f32 0x3727C5AC#32))) :=
  isPosReal_addf (isNonnegReal_var hX) (isPosReal_broadcastInDim _ _ isPosReal_constant_eps)
/-- … so its inverse square root is a positive real. -/
theorem isPosReal_rstd {X : Feat (F := Ideal)} (hX : IsReal X) :
    IsPosReal (Host.rsqrt (addf (var X) (broadcastInDim S128 ![] bcast_S_S128 (constant (F := Ideal) S_ .f32 0x3727C5AC#32)))) :=
  isPosReal_rsqrt (isPosReal_var_add_eps hX)

/-- The normalised, scaled and shifted entries are finite. -/
theorem isReal_bnAffine {X : Feat (F := Ideal)} {g be : Col (F := Ideal)} (hX : IsReal X) (hg : IsReal g) (hbe : IsReal be) :
    IsReal (addf (mulf (mulf (subf X (rowB (mu X)))
      (rowB (Host.rsqrt (addf (var X) (broadcastInDim S128 ![] bcast_S_S128 (constant (F := Ideal) S_ .f32 0x3727C5AC#32))))))
      (rowB g)) (rowB be)) :=
  isReal_addf (isReal_mulf (isReal_mulf (isReal_subf hX (isReal_rowB (isReal_mu hX))) (isReal_rowB (isPosReal_rstd hX).isReal))
    (isReal_rowB hg)) (isReal_rowB hbe)

/-- The normalisation followed by the leaky rectifier keeps finite entries. -/
theorem isReal_bnp {X : Feat (F := Ideal)} {g be : Col (F := Ideal)} {a : (⟨S1, .f32⟩ : BufTy).Contents (Elt Ideal)}
    (hX : IsReal X) (hg : IsReal g) (hbe : IsReal be) (ha : IsReal a) : IsReal (bnp X g be a) :=
  isReal_select _ (isReal_bnAffine hX hg hbe)
    (isReal_mulf (isReal_broadcastInDim _ _ (isReal_broadcastInDim _ _ ha)) (isReal_bnAffine hX hg hbe))

/-- The whole reference on finite arguments has finite entries. -/
theorem isReal_out {x : Feat (F := Ideal)} (ei : Edges (F := Ideal)) {W1 : Wts (F := Ideal)} {b1 g1 be1 : Col (F := Ideal)}
    {a1 : (⟨S1, .f32⟩ : BufTy).Contents (Elt Ideal)} {W2 : Wts (F := Ideal)} {b2 g2 be2 : Col (F := Ideal)}
    {a2 : (⟨S1, .f32⟩ : BufTy).Contents (Elt Ideal)}
    (hx : IsReal x) (hW1 : IsReal W1) (hb1 : IsReal b1) (hg1 : IsReal g1) (hbe1 : IsReal be1) (ha1 : IsReal a1)
    (hW2 : IsReal W2) (hb2 : IsReal b2) (hg2 : IsReal g2) (hbe2 : IsReal be2) (ha2 : IsReal a2) :
    IsReal (out x ei W1 b1 g1 be1 a1 W2 b2 g2 be2 a2) :=
  isReal_bnp (isReal_gcn ei (isReal_bnp (isReal_gcn ei hx hW1 hb1) hg1 hbe1 ha1) hW2 hb2) hg2 hbe2 ha2

end Stages

/-! ## The variance identity -/

section Variance

/-- The entry of row `k` in column `q`. -/
abbrev cell (q : S128.Idx) (k : Fin 50000) : S50000x128.Idx := fun a => match a with
  | ⟨0, _⟩ => ⟨k.val, k.isLt⟩
  | ⟨1, _⟩ => ⟨(q 0).val, (q 0).isLt⟩

/-- The column of an entry, as an index of a 128-row; and that column seen in the one-row matrix. -/
abbrev colOf (i : S50000x128.Idx) : S128.Idx := fun a => match a with
  | ⟨0, _⟩ => ⟨(i 1).val, (i 1).isLt⟩
abbrev colMid (i : S50000x128.Idx) : S1x128.Idx := fun a => match a with
  | ⟨0, _⟩ => ⟨0, Nat.one_pos⟩
  | ⟨1, _⟩ => ⟨(i 1).val, (i 1).isLt⟩

/-- A row repeated down the rows reads, at an entry, the row's value in the entry's column. -/
theorem rowB_apply (v : Col (F := Ideal)) (i : S50000x128.Idx) : rowB v i = v (colOf i) := by
  unfold rowB
  rw [broadcastInDim_apply ![0, 1] bcast_S1x128_S50000x128_0_1 _ i (colMid i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  exact broadcastInDim_apply ![1] bcast_S128_S1x128_1 v (colMid i) (colOf i) (fun a => match a with
    | ⟨0, _⟩ => by show (i 1).val = if (128 : Nat) = 1 then 0 else (i 1).val; rw [if_neg (by decide)])
theorem rowB_cell (v : Col (F := Ideal)) (q : S128.Idx) (k : Fin 50000) : rowB v (cell q k) = v q := by
  rw [rowB_apply]
  exact congrArg v (funext fun a => Fin.ext (by match a with | ⟨0, _⟩ => rfl))

/-- The sum of the entries that reduce to column `q` is the sum over the 50000 rows of that column's entries. -/
theorem colReduce_apply (Y : S50000x128.Idx → EReal) (init : EReal) (q : S128.Idx) :
    Ideal.hostReduceAdd reducesTo_S50000x128_S128_d0 Y init q = init + ∑ k : Fin 50000, Y (cell q k) := by
  rw [Ideal.hostReduceAdd_single reducesTo_S50000x128_S128_d0 (by decide)]
  refine congrArg (_ + ·) (Finset.sum_congr rfl fun k _ => ?_)
  exact congrArg Y (funext fun a => Fin.ext (by match a with | ⟨0, _⟩ => rfl | ⟨1, _⟩ => rfl))
/-- The reference's column sum from the zero constant, read the same way. -/
theorem colSum_apply (Y : Feat (F := Ideal)) (q : S128.Idx) :
    Host.reduceAdd Y (constant (F := Ideal) S_ .f32 0x00000000#32) reducesTo_S50000x128_S128_d0 h_S_ q
      = 0 + ∑ k : Fin 50000, Y (cell q k) := by
  rw [hostReduceAdd_eq, colReduce_apply, constant_apply', Ideal.ofBits_zero_f32]

/-- The column mean: the column's sum over 50000. -/
theorem mu_apply (X : Feat (F := Ideal)) (q : S128.Idx) :
    mu X q = Ideal.div (0 + ∑ k : Fin 50000, X (cell q k)) ((50000 : ℝ) : EReal) := by
  unfold mu
  rw [hostDivf_apply, colSum_apply, fifty_apply]
/-- The column variance: the sum of the column's squared deviations from its mean, over 50000. -/
theorem var_apply (X : Feat (F := Ideal)) (q : S128.Idx) :
    var X q = Ideal.div (0 + ∑ k : Fin 50000, (X (cell q k) - mu X q) * (X (cell q k) - mu X q)) ((50000 : ℝ) : EReal) := by
  unfold var
  rw [hostDivf_apply, colSum_apply, fifty_apply]
  refine congrArg (fun s => Ideal.div (0 + s) ((50000 : ℝ) : EReal)) (Finset.sum_congr rfl fun k _ => ?_)
  rw [mulf_apply, subf_apply, rowB_cell]

/-- IN THE REALS: over `N` reals with mean `m`, the mean of the squared deviations is the mean of the squares minus the
    squared mean. Expand the square, sum term by term, and use Σ x = N m. -/
theorem real_var_identity {N : ℕ} {c : ℝ} (hc : (N : ℝ) = c) (hc0 : c ≠ 0) (x : Fin N → ℝ) (m : ℝ) (hm : m = (∑ k, x k) / c) :
    (∑ k, (x k - m) * (x k - m)) / c = (∑ k, x k * x k) / c - m * m := by
  have hS : ∑ k, x k = c * m := by rw [hm]; field_simp
  have e : ∀ k, (x k - m) * (x k - m) = x k * x k - 2 * m * x k + m * m := fun k => by ring
  rw [Finset.sum_congr rfl fun k _ => e k, Finset.sum_add_distrib, Finset.sum_sub_distrib, ← Finset.mul_sum, hS,
    Finset.sum_const, Finset.card_univ, Fintype.card_fin, nsmul_eq_mul, hc]
  field_simp
  ring

/-- THE VARIANCE IDENTITY, entry by entry, over the 50000 rows of a column: the reference's variance is the mean of the
    squares minus the square of the mean. -/
theorem var_eq_meanSq_sub_sqMean {X : Feat (F := Ideal)} (hX : IsReal X) (q : S128.Idx) :
    var X q = Ideal.div (0 + ∑ k : Fin 50000, X (cell q k) * X (cell q k)) ((50000 : ℝ) : EReal) - mu X q * mu X q := by
  choose x hx using hX
  have h50 : (50000 : ℝ) ≠ 0 := by norm_num
  obtain ⟨m, hm⟩ : ∃ m : ℝ, m = (∑ k : Fin 50000, x (cell q k)) / 50000 := ⟨_, rfl⟩
  have hS : (∑ k : Fin 50000, X (cell q k)) = ((∑ k : Fin 50000, x (cell q k) : ℝ) : EReal) := by
    rw [← coe_sum]
    exact Finset.sum_congr rfl fun k _ => hx (cell q k)
  have hmu : mu X q = (m : EReal) := by
    rw [mu_apply, zero_add, hS, div_coe_coe _ h50, hm]
  have hL : (∑ k : Fin 50000, (X (cell q k) - (m : EReal)) * (X (cell q k) - (m : EReal)))
      = ((∑ k : Fin 50000, (x (cell q k) - m) * (x (cell q k) - m) : ℝ) : EReal) := by
    rw [← coe_sum]
    refine Finset.sum_congr rfl fun k _ => ?_
    rw [hx, ← EReal.coe_sub, ← EReal.coe_mul]
  have hR : (∑ k : Fin 50000, X (cell q k) * X (cell q k))
      = ((∑ k : Fin 50000, x (cell q k) * x (cell q k) : ℝ) : EReal) := by
    rw [← coe_sum]
    refine Finset.sum_congr rfl fun k _ => ?_
    rw [hx, ← EReal.coe_mul]
  rw [var_apply, hmu, zero_add, zero_add, hL, hR, div_coe_coe _ h50, div_coe_coe _ h50, ← EReal.coe_mul, ← EReal.coe_sub]
  exact congrArg (fun r : ℝ => (r : EReal))
    (real_var_identity (N := 50000) (by norm_num) h50 (fun k => x (cell q k)) m hm)

/-- The same with the column sum of squares as the host's sum-reduction from 0 spells it: the initial value plus the sum
    over the entries that reduce to the column. -/
theorem var_eq_reduce {X : Feat (F := Ideal)} (hX : IsReal X) (q : S128.Idx) :
    var X q = Ideal.div (Ideal.hostReduceAdd reducesTo_S50000x128_S128_d0 (fun i => X i * X i) 0 q) ((50000 : ℝ) : EReal)
      - mu X q * mu X q := by
  rw [colReduce_apply]
  exact var_eq_meanSq_sub_sqMean hX q

/-- The same as an equation between arrays, in the reference's own operations: the variance row is the row of the column
    means of the squares minus the entrywise square of the row of means. -/
theorem var_eq_vec {X : Feat (F := Ideal)} (hX : IsReal X) :
    var X = subf (Host.divf (Host.reduceAdd (mulf X X) (constant (F := Ideal) S_ .f32 0x00000000#32)
      reducesTo_S50000x128_S128_d0 h_S_) (fifty (F := Ideal))) (mulf (mu X) (mu X)) := by
  funext q
  rw [subf_apply, hostDivf_apply, colSum_apply, fifty_apply, mulf_apply, var_eq_meanSq_sub_sqMean hX q]
  refine congrArg (fun s => Ideal.div (0 + s) ((50000 : ℝ) : EReal) - mu X q * mu X q) (Finset.sum_congr rfl fun k _ => ?_)
  rw [mulf_apply]

end Variance

end Cert.ReferenceIdeal.SpecReal

end
-- ==== Proof.Bridge.lean ====
/-
  One layer of the kernel program's values is one layer of the reference, at the ideal values and on finite arguments.

  The kernel program's three regions of a layer compute, from the aggregated array A (the weighted sum over the edges of
  the rows of the dense product) and the bias row b: the dense product itself, entry (r, q) = Σ_k x(r, k) · W(k, q); the
  column means and "mean of squares minus squared mean" of the entries A(r, q) + b(q) over the 50000 rows; and, entry by
  entry, the normalisation ((A + b − mean) · rsqrt(variance + ε)) · gain + offset followed by the leaky rectifier.

  The reference computes the same dense product as a dot over the shared axis, adds the bias row to A, takes the column
  means, takes the column means of the SQUARED DEVIATIONS from the mean, and normalises the same way. The two agree
  because (1) the dot at an entry is that sum over k; (2) the factor one in the reference's edge weight changes nothing;
  (3) the sum over the first 50000 naturals with the entry read where the row exists is the sum over the 50000 rows;
  (4) for finite entries the mean of the squared deviations is the mean of the squares minus the squared mean; and
  (5) a row of 128 values seen as a 1×128 array reads the same value in each column, and a one-element array read
  through any broadcast or reshape reads its one element.
-/
import proofs.«112204_j28269474742836_1_alg».proof.Proof.SpecReal
import proofs.«112204_j28269474742836_1_alg».proof.Proof.KI_Value0
import proofs.«112204_j28269474742836_1_alg».proof.Proof.KI_Value1
import proofs.«112204_j28269474742836_1_alg».proof.Proof.KI_Value2
import proofs.«112204_j28269474742836_1_alg».proof.Proof.KI_Value3
import proofs.«112204_j28269474742836_1_alg».proof.Proof.KI_Value4
import proofs.«112204_j28269474742836_1_alg».proof.Proof.KI_Value5

noncomputable section

open scoped BigOperators

namespace Cert.Bridge

open Cert.ReferenceIdeal Cert.ReferenceIdeal.Gen Cert.ReferenceIdeal.Spec Cert.ReferenceIdeal.SpecReal
open Idealize.ShloMosaic Idealize.ShloMosaic.ValueIdx

/-! ## The dense product -/

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- Entry (row of `i`, `k`) of the left operand and entry (`k`, column of `i`) of the right. -/
abbrev lidx (i : S50000x128.Idx) (k : Fin 128) : S50000x128.Idx := fun a => match a with
  | ⟨0, _⟩ => ⟨(i 0).val, (i 0).isLt⟩
  | ⟨1, _⟩ => ⟨k.val, k.isLt⟩
abbrev ridx (i : S50000x128.Idx) (k : Fin 128) : S128x128.Idx := fun a => match a with
  | ⟨0, _⟩ => ⟨k.val, k.isLt⟩
  | ⟨1, _⟩ => ⟨(i 1).val, (i 1).isLt⟩

/-- The reference's dot at an entry is the sum over the shared axis of the products. -/
theorem dot_apply (x : Feat (F := Ideal)) (W : Wts (F := Ideal)) (i : S50000x128.Idx) :
    Host.dotGeneral (F := Ideal) (φ₁ := .f32) (φ₂ := .f32) dot_S50000x128_S128x128_S50000x128_1_0_0_1_n_n none x W i = ∑ k : Fin 128, x (lidx i k) * W (ridx i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx i k := funext fun a => Fin.ext (by
    match a with
    | ⟨0, _⟩ => exact lhs_0 _ _
    | ⟨1, _⟩ => exact (lhs_1 _ _).trans hk)
  have er : dot_S50000x128_S128x128_S50000x128_1_0_0_1_n_n.rhsIdx i ((ValueIdx.contrEquiv1 dot_S50000x128_S128x128_S50000x128_1_0_0_1_n_n 128 rfl rfl).symm k) = ridx i k := funext fun a => Fin.ext (by
    match a with
    | ⟨0, _⟩ => exact (rhs_0 _ _).trans hk
    | ⟨1, _⟩ => exact rhs_1 _ _)
  rw [el, er]

/-- The kernel program's dense product is the reference's dot. -/
theorem mm_eq (x : Feat (F := Ideal)) (W : Wts (F := Ideal)) :
    Cert.KernelIdeal.Value0.mm x W = Host.dotGeneral (F := Ideal) (φ₁ := .f32) (φ₂ := .f32) dot_S50000x128_S128x128_S50000x128_1_0_0_1_n_n none x W := by
  funext i
  rw [dot_apply]
  unfold Cert.KernelIdeal.Value0.mm
  refine Finset.sum_congr rfl fun k _ => ?_
  have el : (fun a => match a with | ⟨0, _⟩ => ⟨(i 0).val, (i 0).isLt⟩ | ⟨1, _⟩ => ⟨k.val, k.isLt⟩ : S50000x128.Idx) = lidx i k :=
    funext fun a => Fin.ext (by match a with | ⟨0, _⟩ => rfl | ⟨1, _⟩ => rfl)
  have er : (fun a => match a with | ⟨0, _⟩ => ⟨k.val, k.isLt⟩ | ⟨1, _⟩ => ⟨(i 1).val, (i 1).isLt⟩ : S128x128.Idx) = ridx i k :=
    funext fun a => Fin.ext (by match a with | ⟨0, _⟩ => rfl | ⟨1, _⟩ => rfl)
  exact congrArg₂ (fun p r : EReal => p * r) (congrArg x (funext fun a => Fin.ext (by match a with | ⟨0, _⟩ => rfl | ⟨1, _⟩ => rfl)))
    (congrArg W (funext fun a => Fin.ext (by match a with | ⟨0, _⟩ => rfl | ⟨1, _⟩ => rfl)))

/-! ## Rows of 128 values and the one-element array, as the kernel program passes them -/

/-- A row of 128 values as a 1×128 array. -/
abbrev rowK (v : Col (F := Ideal)) : Cert.KernelIdeal.S1x128.Idx → EReal :=
  shapeCast Cert.KernelIdeal.S1x128 v Cert.KernelIdeal.Gen.shapeCasts_S128_S1x128
/-- A one-element array as a 1×1 array. -/
abbrev oneK (a : (⟨S1, .f32⟩ : BufTy).Contents (Elt Ideal)) : Cert.KernelIdeal.S1x1.Idx → EReal :=
  shapeCast Cert.KernelIdeal.S1x1 a Cert.KernelIdeal.Gen.shapeCasts_S1_S1x1

/-- The 1×128 array reads the row's value in the index's column. -/
theorem rowK_apply (v : Col (F := Ideal)) (q : Cert.KernelIdeal.S1x128.Idx) :
    rowK v q = v (Cert.KernelIdeal.Value1.colOf q) :=
  Cert.KernelIdeal.Value1.addUnit_apply v q
theorem colOf_rowOfW (i : S50000x128.Idx) :
    Cert.KernelIdeal.Value1.colOf (Cert.KernelIdeal.Value2.rowOfW i) = colOf i :=
  funext fun c => Fin.ext (by match c with | ⟨0, _⟩ => rfl)
theorem rowK_rowOfW (v : Col (F := Ideal)) (i : S50000x128.Idx) :
    rowK v (Cert.KernelIdeal.Value2.rowOfW i) = v (colOf i) :=
  (rowK_apply v _).trans (congrArg v (colOf_rowOfW i))

/-- The one index of a one-element array. -/
abbrev i0 : S1.Idx := fun c => match c with
  | ⟨0, _⟩ => ⟨0, Nat.one_pos⟩
/-- A one-element array has one index. -/
theorem s1_idx_eq (i1 i2 : S1.Idx) : i1 = i2 := funext fun c => Fin.ext (by
  match c with
  | ⟨0, _⟩ =>
    have h1 : (i1 0).val < 1 := (i1 0).isLt
    have h2 : (i2 0).val < 1 := (i2 0).isLt
    show (i1 0).val = (i2 0).val
    omega)
/-- So the 1×1 array reads its one element … -/
theorem oneK_apply (a : (⟨S1, .f32⟩ : BufTy).Contents (Elt Ideal)) (j : Cert.KernelIdeal.S1x1.Idx) (i0 : S1.Idx) :
    oneK a j = a i0 :=
  (shapeCast_addUnit_apply (n := 1) ![1] a Cert.KernelIdeal.Gen.shapeCasts_S1_S1x1 j).trans (congrArg a (s1_idx_eq _ _))
/-- … and so does the one-element array broadcast over the whole array. -/
theorem slope_apply (a : (⟨S1, .f32⟩ : BufTy).Contents (Elt Ideal)) (i : S50000x128.Idx) (i0 : S1.Idx) :
    broadcastInDim S50000x128 ![0, 1] bcast_S1x1_S50000x128_0_1 (broadcastInDim S1x1 ![1] bcast_S1_S1x1_1 a) i = a i0 :=
  congrArg a (s1_idx_eq _ _)

/-- The host's inverse square root at an index. -/
theorem hostRsqrt_apply {s : Shape} {φ : FTy} (v : FVec Ideal s φ) (j : s.Idx) : Host.rsqrt v j = Ideal.rsqrt (v j) := rfl

/-! ## One layer, for an arbitrary aggregated array -/

section Core
variable (A X : Feat (F := Ideal)) (b g be : Col (F := Ideal)) (a : (⟨S1, .f32⟩ : BufTy).Contents (Elt Ideal))

/-- Where the row exists, "entry plus bias" is the reference's entry. -/
theorem g_eq (hXA : ∀ i, X i = A i + b (colOf i)) (i : S50000x128.Idx) (k : Fin 50000) :
    Cert.KernelIdeal.Value1.g A (rowK b) k.val (Cert.KernelIdeal.Value2.rowOfW i) = X (cell (colOf i) k) := by
  unfold Cert.KernelIdeal.Value1.g
  rw [dif_pos k.isLt, hXA (cell (colOf i) k), rowK_apply]
  have e1 : Cert.KernelIdeal.Value1.cellW ⟨k.val, k.isLt⟩ (Cert.KernelIdeal.Value2.rowOfW i) = cell (colOf i) k :=
    funext fun c => Fin.ext (by match c with | ⟨0, _⟩ => rfl | ⟨1, _⟩ => rfl)
  have e2 : Cert.KernelIdeal.Value1.colOf (Cert.KernelIdeal.Value1.rowQ (Cert.KernelIdeal.Value2.rowOfW i)) = colOf (cell (colOf i) k) :=
    funext fun c => Fin.ext (by match c with | ⟨0, _⟩ => rfl)
  rw [e1, e2]

/-- The kernel program's mean row is the reference's column mean. -/
theorem mean_eq (hXA : ∀ i, X i = A i + b (colOf i)) (i : S50000x128.Idx) :
    Cert.KernelIdeal.Value1.meanRow A (rowK b) (Cert.KernelIdeal.Value2.rowOfW i) = mu X (colOf i) := by
  unfold Cert.KernelIdeal.Value1.meanRow
  rw [mu_apply, zero_add, ofBits_fifty,
    ← Fin.sum_univ_eq_sum_range (fun R => Cert.KernelIdeal.Value1.g A (rowK b) R (Cert.KernelIdeal.Value2.rowOfW i)) 50000]
  exact congrArg (fun s => Ideal.div s ((50000 : ℝ) : EReal)) (Finset.sum_congr rfl fun k _ => g_eq A X b hXA i k)

/-- The kernel program's variance row — mean of squares minus squared mean — is the reference's column variance, for
    finite entries. -/
theorem var_eq (hX : IsReal X) (hXA : ∀ i, X i = A i + b (colOf i)) (i : S50000x128.Idx) :
    Cert.KernelIdeal.Value1.varRow A (rowK b) (Cert.KernelIdeal.Value2.rowOfW i) = var X (colOf i) := by
  unfold Cert.KernelIdeal.Value1.varRow
  rw [mean_eq A X b hXA i, var_eq_meanSq_sub_sqMean hX (colOf i), zero_add, ofBits_fifty,
    ← Fin.sum_univ_eq_sum_range (fun R => Cert.KernelIdeal.Value1.g A (rowK b) R (Cert.KernelIdeal.Value2.rowOfW i)
      * Cert.KernelIdeal.Value1.g A (rowK b) R (Cert.KernelIdeal.Value2.rowOfW i)) 50000]
  refine congrArg (fun s => Ideal.div s ((50000 : ℝ) : EReal) - mu X (colOf i) * mu X (colOf i))
    (Finset.sum_congr rfl fun k _ => ?_)
  rw [g_eq A X b hXA i k]

/-- One entry of the reference's normalisation: the same scalar expression as the kernel program's. -/
theorem bnp_apply (i : S50000x128.Idx) (i0 : S1.Idx) :
    bnp X g be a i = Cert.KernelIdeal.Value2.nrmS (X i) 0 (mu X (colOf i)) (var X (colOf i)) (g (colOf i)) (be (colOf i)) (a i0) := by
  unfold bnp Cert.KernelIdeal.Value2.nrmS
  simp only [select_apply, cmpf_apply, mulf_apply, addf_apply, subf_apply, rowB_apply, bcast_constant_apply,
    hostRsqrt_apply, slope_apply a i i0, Ideal.rsqrt_def, add_zero]

end Core

section Layer
variable (A X : Feat (F := Ideal)) (b g be : Col (F := Ideal)) (a : (⟨S1, .f32⟩ : BufTy).Contents (Elt Ideal))

/-- ONE LAYER for an arbitrary aggregated array `A`: if `X` has finite entries and is `A` plus the bias row, the kernel
    program's normalised array — from its own mean and variance rows — is the reference's. -/
theorem layer_core (hX : IsReal X) (hXA : ∀ i, X i = A i + b (colOf i)) :
    Cert.KernelIdeal.Value2.nrm A (rowK b) (Cert.KernelIdeal.Value1.meanRow A (rowK b))
        (Cert.KernelIdeal.Value1.varRow A (rowK b)) (rowK g) (rowK be) (oneK a)
      = bnp X g be a := by
  funext i
  unfold Cert.KernelIdeal.Value2.nrm
  rw [mean_eq A X b hXA i, var_eq A X b hX hXA i, rowK_rowOfW b i, rowK_rowOfW g i, rowK_rowOfW be i,
    oneK_apply a Cert.KernelIdeal.Value2.oneIdx i0, bnp_apply X g be a i i0]
  unfold Cert.KernelIdeal.Value2.nrmS
  rw [hXA i, add_zero]

end Layer

/-- ONE LAYER of the kernel program's values is one layer of the reference, on finite arguments. -/
theorem layer (ei : Edges (F := Ideal)) (x : Feat (F := Ideal)) (W : Wts (F := Ideal)) (b g be : Col (F := Ideal))
    (a : (⟨S1, .f32⟩ : BufTy).Contents (Elt Ideal))
    (hx : IsReal x) (hW : IsReal W) (hb : IsReal b) (hg : IsReal g) (hbe : IsReal be) (ha : IsReal a) :
    Cert.KernelIdeal.Value2.nrm (agg ei (normK ei) (Cert.KernelIdeal.Value0.mm x W)) (rowK b)
        (Cert.KernelIdeal.Value1.meanRow (agg ei (normK ei) (Cert.KernelIdeal.Value0.mm x W)) (rowK b))
        (Cert.KernelIdeal.Value1.varRow (agg ei (normK ei) (Cert.KernelIdeal.Value0.mm x W)) (rowK b)) (rowK g) (rowK be) (oneK a)
      = bnp (gcn ei x W b) g be a := by
  rw [mm_eq x W, ← normR_eq_normK ei]
  refine layer_core _ (gcn ei x W b) b g be a (isReal_gcn ei hx hW hb) (fun i => ?_)
  unfold gcn
  rw [addf_apply, rowB_apply]

/-! ## The second layer's regions compute the same functions -/

theorem mm3_eq : @Cert.KernelIdeal.Value3.mm = @Cert.KernelIdeal.Value0.mm := rfl
theorem meanRow4_eq : @Cert.KernelIdeal.Value4.meanRow = @Cert.KernelIdeal.Value1.meanRow := rfl
theorem varRow4_eq : @Cert.KernelIdeal.Value4.varRow = @Cert.KernelIdeal.Value1.varRow := rfl
theorem nrm5_eq : @Cert.KernelIdeal.Value5.nrm = @Cert.KernelIdeal.Value2.nrm := rfl

/-- The same for the second layer's three regions. -/
theorem layer' (ei : Edges (F := Ideal)) (x : Feat (F := Ideal)) (W : Wts (F := Ideal)) (b g be : Col (F := Ideal))
    (a : (⟨S1, .f32⟩ : BufTy).Contents (Elt Ideal))
    (hx : IsReal x) (hW : IsReal W) (hb : IsReal b) (hg : IsReal g) (hbe : IsReal be) (ha : IsReal a) :
    Cert.KernelIdeal.Value5.nrm (agg ei (normK ei) (Cert.KernelIdeal.Value3.mm x W)) (rowK b)
        (Cert.KernelIdeal.Value4.meanRow (agg ei (normK ei) (Cert.KernelIdeal.Value3.mm x W)) (rowK b))
        (Cert.KernelIdeal.Value4.varRow (agg ei (normK ei) (Cert.KernelIdeal.Value3.mm x W)) (rowK b)) (rowK g) (rowK be) (oneK a)
      = bnp (gcn ei x W b) g be a := by
  rw [mm3_eq, meanRow4_eq, varRow4_eq, nrm5_eq]
  exact layer ei x W b g be a hx hW hb hg hbe ha

end Cert.Bridge

end
-- ==== Proof.RefRead.lean ====
/- The fold of the reference's 192 operations, read back with sharing, at any float instance. The line is cut into four
   consecutive stretches — the first layer's graph convolution (ending at `main_v47`), its column normalisation and
   rectifier (ending at `main_v78`), the second layer's graph convolution (ending at `main_v122`), and its normalisation
   and rectifier (ending at `main_v153`) —, and the fold over the line is the four folds composed. Each stretch's last
   result is one stage of `Spec` (`Spec.gcn` or `Spec.bnp`) applied to the contents, at the stretch's start, of the few
   buffers it reads from outside itself; no stretch changes an argument, and the second changes neither of the two
   sliced rows of the edge array the first leaves behind for the third. Composed: after the whole line the result
   buffer holds `Spec.out` of the twelve arguments' contents at its start, and every argument holds what it held. Each
   stage's term is written once per stretch, with the earlier stage as a variable, not inlined into the later one. -/
import proofs.«112204_j28269474742836_1_alg».proof.Proof.RefRunA
import proofs.«112204_j28269474742836_1_alg».proof.Proof.RefSpec

noncomputable section

namespace Cert.ReferenceIdeal.ReadA

open Cert.ReferenceIdeal Cert.ReferenceIdeal.Gen Cert.ReferenceIdeal.ValueA Idealize.ShloMosaic Idealize.ShloMosaic.TcCoe Idealize.SL.Sem Idealize.ShloMosaic.StableHlo

variable {F : FTy → Type} [FloatOps F]

/-! ## The four stretches of the line -/

/-- The first layer's graph convolution: operations 1–61, the last writing `main_v47`. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v7 main_v22 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v30 main_v32 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v33 (broadcastInDim S850000 ![] bcast_S_S850000 : (⟨S_, .i32⟩ : BufTy).Contents (Elt F) → (⟨S850000, .i32⟩ : BufTy).Contents (Elt F)),
    binary main_v5 main_v33 main_v34 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v35 (broadcastInDim S850000 ![] bcast_S_S850000 : (⟨S_, .i32⟩ : BufTy).Contents (Elt F) → (⟨S850000, .i32⟩ : BufTy).Contents (Elt F)),
    binary main_v5 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v31 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v32 main_v40 (broadcastInDim S850000x128 ![0, 1] bcast_S850000x1_S850000x128_0_1 : (⟨S850000x1, .f32⟩ : BufTy).Contents (Elt F) → (⟨S850000x128, .f32⟩ : BufTy).Contents (Elt F)),
    binary main_v40 main_v39 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- The first layer's column normalisation and rectifier: operations 62–98, the last writing `main_v78`. -/
abbrev opsB : List (HloOp τ sig (Elt F)) :=
  [ nullary main_cst_9 (constant S_ .f32 0x00000000#32),
    binary main_v47 main_cst_9 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v49 (broadcastInDim S128 ![] bcast_S_S128 : (⟨S_, .f32⟩ : BufTy).Contents (Elt F) → (⟨S128, .f32⟩ : BufTy).Contents (Elt F)),
    binary main_v48 main_v49 main_v50 (Host.divf : (⟨S128, .f32⟩ : BufTy).Contents (Elt F) → (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v47 main_v52 main_v53 (subf : (⟨S50000x128, .f32⟩ : BufTy).Contents (Elt F) → (⟨S50000x128, .f32⟩ : BufTy).Contents (Elt F) → (⟨S50000x128, .f32⟩ : BufTy).Contents (Elt F)),
    binary main_v53 main_v53 main_v54 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v54 main_cst_11 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v56 (broadcastInDim S128 ![] bcast_S_S128 : (⟨S_, .f32⟩ : BufTy).Contents (Elt F) → (⟨S128, .f32⟩ : BufTy).Contents (Elt F)),
    binary main_v55 main_v56 main_v57 (Host.divf : (⟨S128, .f32⟩ : BufTy).Contents (Elt F) → (⟨S128, .f32⟩ : BufTy).Contents (Elt F) → (⟨S128, .f32⟩ : BufTy).Contents (Elt F)),
    unary main_v50 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v47 main_v59 main_v60 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v61 (broadcastInDim S128 ![] bcast_S_S128 : (⟨S_, .f32⟩ : BufTy).Contents (Elt F) → (⟨S128, .f32⟩ : BufTy).Contents (Elt F)),
    binary main_v57 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg4 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    unary main_cst_14 main_v73 (broadcastInDim S50000x128 ![] bcast_S_S50000x128 : (⟨S_, .f32⟩ : BufTy).Contents (Elt F) → (⟨S50000x128, .f32⟩ : BufTy).Contents (Elt F)),
    binary main_v72 main_v73 main_v74 (cmpf .ogt : (⟨S50000x128, .f32⟩ : BufTy).Contents (Elt F) → (⟨S50000x128, .f32⟩ : BufTy).Contents (Elt F) → (⟨S50000x128, .i1⟩ : BufTy).Contents (Elt F)),
    unary main_arg6 main_v75 (broadcastInDim S1x1 ![1] bcast_S1_S1x1_1 : (⟨S1, .f32⟩ : BufTy).Contents (Elt F) → (⟨S1x1, .f32⟩ : BufTy).Contents (Elt F)),
    unary main_v75 main_v76 (broadcastInDim S50000x128 ![0, 1] bcast_S1x1_S50000x128_0_1 : (⟨S1x1, .f32⟩ : BufTy).Contents (Elt F) → (⟨S50000x128, .f32⟩ : BufTy).Contents (Elt F)),
    binary main_v76 main_v72 main_v77 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v74) (TRef.of (T := ⟨S50000x128, .f32⟩) main_v72) (TRef.of (T := ⟨S50000x128, .f32⟩) main_v77) (TRef.of (T := ⟨S50000x128, .f32⟩) main_v78) select ]

/-- The second layer's graph convolution: operations 99–155, the last writing `main_v122`. -/
abbrev opsC : List (HloOp τ sig (Elt F)) :=
  [ nullary main_v79 (iotaInDim S50000 32 0),
    binary main_v1 main_v79 main_v80 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v79 main_v81 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_15 (constant S_ .f32 0x3F800000#32),
    unary main_cst_15 main_v82 (broadcastInDim S850000 ![] bcast_S_S850000 : (⟨S_, .f32⟩ : BufTy).Contents (Elt F) → (⟨S850000, .f32⟩ : BufTy).Contents (Elt F)),
    nullary main_cst_16 (constant S_ .f32 0x00000000#32),
    unary main_cst_16 main_v83 (broadcastInDim S50000 ![] bcast_S_S50000 : (⟨S_, .f32⟩ : BufTy).Contents (Elt F) → (⟨S50000, .f32⟩ : BufTy).Contents (Elt F)),
    unary main_v81 main_v84 (broadcastInDim S850000x1 ![0] bcast_S850000_S850000x1_0 : (⟨S850000, .i32⟩ : BufTy).Contents (Elt F) → (⟨S850000x1, .i32⟩ : BufTy).Contents (Elt F)),
    ternary main_v83 main_v84 main_v82 main_v85 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_17 (constant S_ .f32 0x00000000#32),
    unary main_cst_17 main_v86 (broadcastInDim S50000 ![] bcast_S_S50000 : (⟨S_, .f32⟩ : BufTy).Contents (Elt F) → (⟨S50000, .f32⟩ : BufTy).Contents (Elt F)),
    binary main_v85 main_v86 main_v87 (cmpf .ogt : (⟨S50000, .f32⟩ : BufTy).Contents (Elt F) → (⟨S50000, .f32⟩ : BufTy).Contents (Elt F) → (⟨S50000, .i1⟩ : BufTy).Contents (Elt F)),
    unary main_v85 main_v88 (Host.rsqrt : (⟨S50000, .f32⟩ : BufTy).Contents (Elt F) → (⟨S50000, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v87) (TRef.of (T := ⟨S50000, .f32⟩) main_v88) (TRef.of (T := ⟨S50000, .f32⟩) main_call2_v1) (TRef.of (T := ⟨S50000, .f32⟩) main_v89) select,
    nullary main_c_19 (constantI S_ 32 0#32),
    unary main_c_19 main_v90 (broadcastInDim S850000 ![] bcast_S_S850000 : (⟨S_, .i32⟩ : BufTy).Contents (Elt F) → (⟨S850000, .i32⟩ : BufTy).Contents (Elt F)),
    binary main_v80 main_v90 main_v91 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v92 (broadcastInDim S850000 ![] bcast_S_S850000 : (⟨S_, .i32⟩ : BufTy).Contents (Elt F) → (⟨S850000, .i32⟩ : BufTy).Contents (Elt F)),
    binary main_v80 main_v92 main_v93 (addi : (⟨S850000, .i32⟩ : BufTy).Contents (Elt F) → (⟨S850000, .i32⟩ : BufTy).Contents (Elt F) → (⟨S850000, .i32⟩ : BufTy).Contents (Elt F)),
    ternary main_v91 main_v93 main_v80 main_v94 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v94 main_v95 (broadcastInDim S850000x1 ![0] bcast_S850000_S850000x1_0 : (⟨S850000, .i32⟩ : BufTy).Contents (Elt F) → (⟨S850000x1, .i32⟩ : BufTy).Contents (Elt F)),
    binary main_v89 main_v95 main_v96 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v96 main_v82 main_v97 (mulf : (⟨S850000, .f32⟩ : BufTy).Contents (Elt F) → (⟨S850000, .f32⟩ : BufTy).Contents (Elt F) → (⟨S850000, .f32⟩ : BufTy).Contents (Elt F)),
    nullary main_c_21 (constantI S_ 32 0#32),
    unary main_c_21 main_v98 (broadcastInDim S850000 ![] bcast_S_S850000 : (⟨S_, .i32⟩ : BufTy).Contents (Elt F) → (⟨S850000, .i32⟩ : BufTy).Contents (Elt F)),
    binary main_v81 main_v98 main_v99 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v100 (broadcastInDim S850000 ![] bcast_S_S850000 : (⟨S_, .i32⟩ : BufTy).Contents (Elt F) → (⟨S850000, .i32⟩ : BufTy).Contents (Elt F)),
    binary main_v81 main_v100 main_v101 (addi : (⟨S850000, .i32⟩ : BufTy).Contents (Elt F) → (⟨S850000, .i32⟩ : BufTy).Contents (Elt F) → (⟨S850000, .i32⟩ : BufTy).Contents (Elt F)),
    ternary main_v99 main_v101 main_v81 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v102 main_v103 (broadcastInDim S850000x1 ![0] bcast_S850000_S850000x1_0 : (⟨S850000, .i32⟩ : BufTy).Contents (Elt F) → (⟨S850000x1, .i32⟩ : BufTy).Contents (Elt F)),
    binary main_v89 main_v103 main_v104 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v97 main_v104 main_v105 (mulf : (⟨S850000, .f32⟩ : BufTy).Contents (Elt F) → (⟨S850000, .f32⟩ : BufTy).Contents (Elt F) → (⟨S850000, .f32⟩ : BufTy).Contents (Elt F)),
    binary main_v78 main_arg7 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v105 main_v107 (broadcastInDim S850000x1 ![0] bcast_S850000_S850000x1_0 : (⟨S850000, .f32⟩ : BufTy).Contents (Elt F) → (⟨S850000x1, .f32⟩ : BufTy).Contents (Elt F)),
    nullary main_c_23 (constantI S_ 32 0#32),
    unary main_c_23 main_v108 (broadcastInDim S850000 ![] bcast_S_S850000 : (⟨S_, .i32⟩ : BufTy).Contents (Elt F) → (⟨S850000, .i32⟩ : BufTy).Contents (Elt F)),
    binary main_v80 main_v108 main_v109 (cmpi .slt : (⟨S850000, .i32⟩ : BufTy).Contents (Elt F) → (⟨S850000, .i32⟩ : BufTy).Contents (Elt F) → (⟨S850000, .i1⟩ : BufTy).Contents (Elt F)),
    nullary main_c_24 (constantI S_ 32 50000#32),
    unary main_c_24 main_v110 (broadcastInDim S850000 ![] bcast_S_S850000 : (⟨S_, .i32⟩ : BufTy).Contents (Elt F) → (⟨S850000, .i32⟩ : BufTy).Contents (Elt F)),
    binary main_v80 main_v110 main_v111 (addi : (⟨S850000, .i32⟩ : BufTy).Contents (Elt F) → (⟨S850000, .i32⟩ : BufTy).Contents (Elt F) → (⟨S850000, .i32⟩ : BufTy).Contents (Elt F)),
    ternary main_v109 main_v111 main_v80 main_v112 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v112 main_v113 (broadcastInDim S850000x1 ![0] bcast_S850000_S850000x1_0 : (⟨S850000, .i32⟩ : BufTy).Contents (Elt F) → (⟨S850000x1, .i32⟩ : BufTy).Contents (Elt F)),
    binary main_v106 main_v113 main_v114 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v107 main_v115 (broadcastInDim S850000x128 ![0, 1] bcast_S850000x1_S850000x128_0_1 : (⟨S850000x1, .f32⟩ : BufTy).Contents (Elt F) → (⟨S850000x128, .f32⟩ : BufTy).Contents (Elt F)),
    binary main_v115 main_v114 main_v116 (mulf : (⟨S850000x128, .f32⟩ : BufTy).Contents (Elt F) → (⟨S850000x128, .f32⟩ : BufTy).Contents (Elt F) → (⟨S850000x128, .f32⟩ : BufTy).Contents (Elt F)),
    nullary main_cst_25 (constant S_ .f32 0x00000000#32),
    unary main_cst_25 main_v117 (broadcastInDim S50000x128 ![] bcast_S_S50000x128 : (⟨S_, .f32⟩ : BufTy).Contents (Elt F) → (⟨S50000x128, .f32⟩ : BufTy).Contents (Elt F)),
    unary main_v81 main_v118 (broadcastInDim S850000x1 ![0] bcast_S850000_S850000x1_0 : (⟨S850000, .i32⟩ : BufTy).Contents (Elt F) → (⟨S850000x1, .i32⟩ : BufTy).Contents (Elt F)),
    ternary main_v117 main_v118 main_v116 main_v119 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v120 (broadcastInDim S1x128 ![1] bcast_S128_S1x128_1 : (⟨S128, .f32⟩ : BufTy).Contents (Elt F) → (⟨S1x128, .f32⟩ : BufTy).Contents (Elt F)),
    unary main_v120 main_v121 (broadcastInDim S50000x128 ![0, 1] bcast_S1x128_S50000x128_0_1 : (⟨S1x128, .f32⟩ : BufTy).Contents (Elt F) → (⟨S50000x128, .f32⟩ : BufTy).Contents (Elt F)),
    binary main_v119 main_v121 main_v122 (addf : (⟨S50000x128, .f32⟩ : BufTy).Contents (Elt F) → (⟨S50000x128, .f32⟩ : BufTy).Contents (Elt F) → (⟨S50000x128, .f32⟩ : BufTy).Contents (Elt F)) ]

/-- The second layer's column normalisation and rectifier: operations 156–192, the last writing `main_v153`. -/
abbrev opsD : List (HloOp τ sig (Elt F)) :=
  [ nullary main_cst_26 (constant S_ .f32 0x00000000#32),
    binary main_v122 main_cst_26 main_v123 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_27 (constant S_ .f32 0x47435000#32),
    unary main_cst_27 main_v124 (broadcastInDim S128 ![] bcast_S_S128 : (⟨S_, .f32⟩ : BufTy).Contents (Elt F) → (⟨S128, .f32⟩ : BufTy).Contents (Elt F)),
    binary main_v123 main_v124 main_v125 (Host.divf : (⟨S128, .f32⟩ : BufTy).Contents (Elt F) → (⟨S128, .f32⟩ : BufTy).Contents (Elt F) → (⟨S128, .f32⟩ : BufTy).Contents (Elt F)),
    unary main_v125 main_v126 (broadcastInDim S1x128 ![1] bcast_S128_S1x128_1 : (⟨S128, .f32⟩ : BufTy).Contents (Elt F) → (⟨S1x128, .f32⟩ : BufTy).Contents (Elt F)),
    unary main_v126 main_v127 (broadcastInDim S50000x128 ![0, 1] bcast_S1x128_S50000x128_0_1 : (⟨S1x128, .f32⟩ : BufTy).Contents (Elt F) → (⟨S50000x128, .f32⟩ : BufTy).Contents (Elt F)),
    binary main_v122 main_v127 main_v128 (subf : (⟨S50000x128, .f32⟩ : BufTy).Contents (Elt F) → (⟨S50000x128, .f32⟩ : BufTy).Contents (Elt F) → (⟨S50000x128, .f32⟩ : BufTy).Contents (Elt F)),
    binary main_v128 main_v128 main_v129 (mulf : (⟨S50000x128, .f32⟩ : BufTy).Contents (Elt F) → (⟨S50000x128, .f32⟩ : BufTy).Contents (Elt F) → (⟨S50000x128, .f32⟩ : BufTy).Contents (Elt F)),
    nullary main_cst_28 (constant S_ .f32 0x00000000#32),
    binary main_v129 main_cst_28 main_v130 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_29 (constant S_ .f32 0x47435000#32),
    unary main_cst_29 main_v131 (broadcastInDim S128 ![] bcast_S_S128 : (⟨S_, .f32⟩ : BufTy).Contents (Elt F) → (⟨S128, .f32⟩ : BufTy).Contents (Elt F)),
    binary main_v130 main_v131 main_v132 (Host.divf : (⟨S128, .f32⟩ : BufTy).Contents (Elt F) → (⟨S128, .f32⟩ : BufTy).Contents (Elt F) → (⟨S128, .f32⟩ : BufTy).Contents (Elt F)),
    unary main_v125 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v122 main_v134 main_v135 (subf : (⟨S50000x128, .f32⟩ : BufTy).Contents (Elt F) → (⟨S50000x128, .f32⟩ : BufTy).Contents (Elt F) → (⟨S50000x128, .f32⟩ : BufTy).Contents (Elt F)),
    nullary main_cst_30 (constant S_ .f32 0x3727C5AC#32),
    unary main_cst_30 main_v136 (broadcastInDim S128 ![] bcast_S_S128 : (⟨S_, .f32⟩ : BufTy).Contents (Elt F) → (⟨S128, .f32⟩ : BufTy).Contents (Elt F)),
    binary main_v132 main_v136 main_v137 (addf : (⟨S128, .f32⟩ : BufTy).Contents (Elt F) → (⟨S128, .f32⟩ : BufTy).Contents (Elt F) → (⟨S128, .f32⟩ : BufTy).Contents (Elt F)),
    unary main_v137 main_v138 (Host.rsqrt : (⟨S128, .f32⟩ : BufTy).Contents (Elt F) → (⟨S128, .f32⟩ : BufTy).Contents (Elt F)),
    unary main_v138 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v135 main_v140 main_v141 (mulf : (⟨S50000x128, .f32⟩ : BufTy).Contents (Elt F) → (⟨S50000x128, .f32⟩ : BufTy).Contents (Elt F) → (⟨S50000x128, .f32⟩ : BufTy).Contents (Elt F)),
    unary main_arg9 main_v142 (broadcastInDim S1x128 ![1] bcast_S128_S1x128_1 : (⟨S128, .f32⟩ : BufTy).Contents (Elt F) → (⟨S1x128, .f32⟩ : BufTy).Contents (Elt F)),
    unary main_v142 main_v143 (broadcastInDim S50000x128 ![0, 1] bcast_S1x128_S50000x128_0_1 : (⟨S1x128, .f32⟩ : BufTy).Contents (Elt F) → (⟨S50000x128, .f32⟩ : BufTy).Contents (Elt F)),
    binary main_v141 main_v143 main_v144 (mulf : (⟨S50000x128, .f32⟩ : BufTy).Contents (Elt F) → (⟨S50000x128, .f32⟩ : BufTy).Contents (Elt F) → (⟨S50000x128, .f32⟩ : BufTy).Contents (Elt F)),
    unary main_arg10 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (addf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    unary main_cst_31 main_v148 (broadcastInDim S50000x128 ![] bcast_S_S50000x128 : (⟨S_, .f32⟩ : BufTy).Contents (Elt F) → (⟨S50000x128, .f32⟩ : BufTy).Contents (Elt F)),
    binary main_v147 main_v148 main_v149 (cmpf .ogt : (⟨S50000x128, .f32⟩ : BufTy).Contents (Elt F) → (⟨S50000x128, .f32⟩ : BufTy).Contents (Elt F) → (⟨S50000x128, .i1⟩ : BufTy).Contents (Elt F)),
    unary main_arg11 main_v150 (broadcastInDim S1x1 ![1] bcast_S1_S1x1_1 : (⟨S1, .f32⟩ : BufTy).Contents (Elt F) → (⟨S1x1, .f32⟩ : BufTy).Contents (Elt F)),
    unary main_v150 main_v151 (broadcastInDim S50000x128 ![0, 1] bcast_S1x1_S50000x128_0_1 : (⟨S1x1, .f32⟩ : BufTy).Contents (Elt F) → (⟨S50000x128, .f32⟩ : BufTy).Contents (Elt F)),
    binary main_v151 main_v147 main_v152 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v149) (TRef.of (T := ⟨S50000x128, .f32⟩) main_v147) (TRef.of (T := ⟨S50000x128, .f32⟩) main_v152) (TRef.of (T := ⟨S50000x128, .f32⟩) main_v153) select ]

set_option maxRecDepth 8192 in
/-- The line is its four stretches, in order. -/
theorem ops_eq : (ops : List (HloOp τ sig (Elt F))) = opsA ++ (opsB ++ (opsC ++ opsD)) := rfl

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents after each stretch, from contents `V0` at the start of the line. -/
def VA (V0 : Valuation τ sig (Elt F)) : Valuation τ sig (Elt F) := after opsA V0
@[inherit_doc VA] def VB (V0 : Valuation τ sig (Elt F)) : Valuation τ sig (Elt F) := after opsB (VA V0)
@[inherit_doc VA] def VC (V0 : Valuation τ sig (Elt F)) : Valuation τ sig (Elt F) := after opsC (VB V0)
@[inherit_doc VA] def VD (V0 : Valuation τ sig (Elt F)) : Valuation τ sig (Elt F) := after opsD (VC V0)

theorem after_ops (V0 : Valuation τ sig (Elt F)) : after ops V0 = VD V0 := by
  rw [ops_eq, after_append, after_append, after_append]; rfl

/-! ## What each stretch writes last, as a function of what it reads

Each stretch's last result is one stage of the reference computation applied to the contents, at the stretch's start,
of the buffers it reads from outside itself: unfold the fold over the stretch's own operations, and what is left is
the stage's defining term. -/

/-- Row 0 / row 1 of the edge array as a list of 800000 entries: what the first stretch leaves in `main_v1` / `main_v3`,
    which the third stretch reads again. -/
def row0 (ei : Spec.Edges (F := F)) : (⟨S800000, .i32⟩ : BufTy).Contents (Elt F) :=
  shapeCast S800000 (extractStridedSlice S1x800000 ![0, 0] ei slices_S2x800000_S1x800000_0_0) shapeCasts_S1x800000_S800000
@[inherit_doc row0] def row1 (ei : Spec.Edges (F := F)) : (⟨S800000, .i32⟩ : BufTy).Contents (Elt F) :=
  shapeCast S800000 (extractStridedSlice S1x800000 ![1, 0] ei slices_S2x800000_S1x800000_1_0) shapeCasts_S1x800000_S800000

set_option maxRecDepth 8192 in
/-- Stretch A: the first layer's graph convolution of the features `main_arg0` along the edges `main_arg1`. -/
theorem readA (V : Valuation τ sig (Elt F)) :
    after opsA V (Proc.devRef .tc main_v47)
      = Spec.gcn (V (Proc.devRef .tc main_arg1)) (V (Proc.devRef .tc main_arg0)) (V (Proc.devRef .tc main_arg2)) (V (Proc.devRef .tc main_arg3)) := by
  after_results_simp
  rfl

set_option maxRecDepth 8192 in
/-- Stretch A leaves the two rows of the edge array in `main_v1` and `main_v3`. -/
theorem readA_v1 (V : Valuation τ sig (Elt F)) : after opsA V (Proc.devRef .tc main_v1) = row0 (V (Proc.devRef .tc main_arg1)) := by
  after_results_simp
  rfl
set_option maxRecDepth 8192 in
@[inherit_doc readA_v1]
theorem readA_v3 (V : Valuation τ sig (Elt F)) : after opsA V (Proc.devRef .tc main_v3) = row1 (V (Proc.devRef .tc main_arg1)) := by
  after_results_simp
  rfl

set_option maxRecDepth 8192 in
/-- Stretch B: the column normalisation and rectifier of what `main_v47` holds. -/
theorem readB (V : Valuation τ sig (Elt F)) :
    after opsB V (Proc.devRef .tc main_v78)
      = Spec.bnp (V (Proc.devRef .tc main_v47)) (V (Proc.devRef .tc main_arg4)) (V (Proc.devRef .tc main_arg5)) (V (Proc.devRef .tc main_arg6)) := by
  after_results_simp
  rfl

/-- The one-pass unfolding does not reach the operands of a `concatenate` (they sit in a list of shape-indexed values):
    the same rewriting there, one result at a time. -/
local macro "after_results_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxRecDepth 8192 in
/-- Stretch C: the second layer's graph convolution of what `main_v78` holds, along the edge array `ei` whose two rows
    `main_v1` and `main_v3` hold (the stretch joins them to a fresh list of self-loops, as the first did). -/
theorem readC (V : Valuation τ sig (Elt F)) (ei : Spec.Edges (F := F))
    (h1 : V (Proc.devRef .tc main_v1) = row0 ei) (h3 : V (Proc.devRef .tc main_v3) = row1 ei) :
    after opsC V (Proc.devRef .tc main_v122)
      = Spec.gcn ei (V (Proc.devRef .tc main_v78)) (V (Proc.devRef .tc main_arg7)) (V (Proc.devRef .tc main_arg8)) := by
  after_results_simp
  after_results_rest
  rw [h1, h3]
  rfl

set_option maxRecDepth 8192 in
/-- Stretch D: the column normalisation and rectifier of what `main_v122` holds. -/
theorem readD (V : Valuation τ sig (Elt F)) :
    after opsD V (Proc.devRef .tc main_v153)
      = Spec.bnp (V (Proc.devRef .tc main_v122)) (V (Proc.devRef .tc main_arg9)) (V (Proc.devRef .tc main_arg10)) (V (Proc.devRef .tc main_arg11)) := by
  after_results_simp
  rfl

/-! ## What each stretch leaves alone -/

/-! Stretch A writes none of these buffers: each keeps its contents. -/
theorem keepA_arg0 (V : Valuation τ sig (Elt F)) : after opsA V (Proc.devRef .tc main_arg0) = V (Proc.devRef .tc main_arg0) := by after_results_simp
theorem keepA_arg1 (V : Valuation τ sig (Elt F)) : after opsA V (Proc.devRef .tc main_arg1) = V (Proc.devRef .tc main_arg1) := by after_results_simp
theorem keepA_arg2 (V : Valuation τ sig (Elt F)) : after opsA V (Proc.devRef .tc main_arg2) = V (Proc.devRef .tc main_arg2) := by after_results_simp
theorem keepA_arg3 (V : Valuation τ sig (Elt F)) : after opsA V (Proc.devRef .tc main_arg3) = V (Proc.devRef .tc main_arg3) := by after_results_simp
theorem keepA_arg4 (V : Valuation τ sig (Elt F)) : after opsA V (Proc.devRef .tc main_arg4) = V (Proc.devRef .tc main_arg4) := by after_results_simp
theorem keepA_arg5 (V : Valuation τ sig (Elt F)) : after opsA V (Proc.devRef .tc main_arg5) = V (Proc.devRef .tc main_arg5) := by after_results_simp
theorem keepA_arg6 (V : Valuation τ sig (Elt F)) : after opsA V (Proc.devRef .tc main_arg6) = V (Proc.devRef .tc main_arg6) := by after_results_simp
theorem keepA_arg7 (V : Valuation τ sig (Elt F)) : after opsA V (Proc.devRef .tc main_arg7) = V (Proc.devRef .tc main_arg7) := by after_results_simp
theorem keepA_arg8 (V : Valuation τ sig (Elt F)) : after opsA V (Proc.devRef .tc main_arg8) = V (Proc.devRef .tc main_arg8) := by after_results_simp
theorem keepA_arg9 (V : Valuation τ sig (Elt F)) : after opsA V (Proc.devRef .tc main_arg9) = V (Proc.devRef .tc main_arg9) := by after_results_simp
theorem keepA_arg10 (V : Valuation τ sig (Elt F)) : after opsA V (Proc.devRef .tc main_arg10) = V (Proc.devRef .tc main_arg10) := by after_results_simp
theorem keepA_arg11 (V : Valuation τ sig (Elt F)) : after opsA V (Proc.devRef .tc main_arg11) = V (Proc.devRef .tc main_arg11) := by after_results_simp

/-! Stretch B writes none of these buffers: each keeps its contents. -/
theorem keepB_arg0 (V : Valuation τ sig (Elt F)) : after opsB V (Proc.devRef .tc main_arg0) = V (Proc.devRef .tc main_arg0) := by after_results_simp
theorem keepB_arg1 (V : Valuation τ sig (Elt F)) : after opsB V (Proc.devRef .tc main_arg1) = V (Proc.devRef .tc main_arg1) := by after_results_simp
theorem keepB_arg2 (V : Valuation τ sig (Elt F)) : after opsB V (Proc.devRef .tc main_arg2) = V (Proc.devRef .tc main_arg2) := by after_results_simp
theorem keepB_arg3 (V : Valuation τ sig (Elt F)) : after opsB V (Proc.devRef .tc main_arg3) = V (Proc.devRef .tc main_arg3) := by after_results_simp
theorem keepB_arg4 (V : Valuation τ sig (Elt F)) : after opsB V (Proc.devRef .tc main_arg4) = V (Proc.devRef .tc main_arg4) := by after_results_simp
theorem keepB_arg5 (V : Valuation τ sig (Elt F)) : after opsB V (Proc.devRef .tc main_arg5) = V (Proc.devRef .tc main_arg5) := by after_results_simp
theorem keepB_arg6 (V : Valuation τ sig (Elt F)) : after opsB V (Proc.devRef .tc main_arg6) = V (Proc.devRef .tc main_arg6) := by after_results_simp
theorem keepB_arg7 (V : Valuation τ sig (Elt F)) : after opsB V (Proc.devRef .tc main_arg7) = V (Proc.devRef .tc main_arg7) := by after_results_simp
theorem keepB_arg8 (V : Valuation τ sig (Elt F)) : after opsB V (Proc.devRef .tc main_arg8) = V (Proc.devRef .tc main_arg8) := by after_results_simp
theorem keepB_arg9 (V : Valuation τ sig (Elt F)) : after opsB V (Proc.devRef .tc main_arg9) = V (Proc.devRef .tc main_arg9) := by after_results_simp
theorem keepB_arg10 (V : Valuation τ sig (Elt F)) : after opsB V (Proc.devRef .tc main_arg10) = V (Proc.devRef .tc main_arg10) := by after_results_simp
theorem keepB_arg11 (V : Valuation τ sig (Elt F)) : after opsB V (Proc.devRef .tc main_arg11) = V (Proc.devRef .tc main_arg11) := by after_results_simp
theorem keepB_v1 (V : Valuation τ sig (Elt F)) : after opsB V (Proc.devRef .tc main_v1) = V (Proc.devRef .tc main_v1) := by after_results_simp
theorem keepB_v3 (V : Valuation τ sig (Elt F)) : after opsB V (Proc.devRef .tc main_v3) = V (Proc.devRef .tc main_v3) := by after_results_simp

/-! Stretch C writes none of these buffers: each keeps its contents. -/
theorem keepC_arg0 (V : Valuation τ sig (Elt F)) : after opsC V (Proc.devRef .tc main_arg0) = V (Proc.devRef .tc main_arg0) := by after_results_simp
theorem keepC_arg1 (V : Valuation τ sig (Elt F)) : after opsC V (Proc.devRef .tc main_arg1) = V (Proc.devRef .tc main_arg1) := by after_results_simp
theorem keepC_arg2 (V : Valuation τ sig (Elt F)) : after opsC V (Proc.devRef .tc main_arg2) = V (Proc.devRef .tc main_arg2) := by after_results_simp
theorem keepC_arg3 (V : Valuation τ sig (Elt F)) : after opsC V (Proc.devRef .tc main_arg3) = V (Proc.devRef .tc main_arg3) := by after_results_simp
theorem keepC_arg4 (V : Valuation τ sig (Elt F)) : after opsC V (Proc.devRef .tc main_arg4) = V (Proc.devRef .tc main_arg4) := by after_results_simp
theorem keepC_arg5 (V : Valuation τ sig (Elt F)) : after opsC V (Proc.devRef .tc main_arg5) = V (Proc.devRef .tc main_arg5) := by after_results_simp
theorem keepC_arg6 (V : Valuation τ sig (Elt F)) : after opsC V (Proc.devRef .tc main_arg6) = V (Proc.devRef .tc main_arg6) := by after_results_simp
theorem keepC_arg7 (V : Valuation τ sig (Elt F)) : after opsC V (Proc.devRef .tc main_arg7) = V (Proc.devRef .tc main_arg7) := by after_results_simp
theorem keepC_arg8 (V : Valuation τ sig (Elt F)) : after opsC V (Proc.devRef .tc main_arg8) = V (Proc.devRef .tc main_arg8) := by after_results_simp
theorem keepC_arg9 (V : Valuation τ sig (Elt F)) : after opsC V (Proc.devRef .tc main_arg9) = V (Proc.devRef .tc main_arg9) := by after_results_simp
theorem keepC_arg10 (V : Valuation τ sig (Elt F)) : after opsC V (Proc.devRef .tc main_arg10) = V (Proc.devRef .tc main_arg10) := by after_results_simp
theorem keepC_arg11 (V : Valuation τ sig (Elt F)) : after opsC V (Proc.devRef .tc main_arg11) = V (Proc.devRef .tc main_arg11) := by after_results_simp

/-! Stretch D writes none of these buffers: each keeps its contents. -/
theorem keepD_arg0 (V : Valuation τ sig (Elt F)) : after opsD V (Proc.devRef .tc main_arg0) = V (Proc.devRef .tc main_arg0) := by after_results_simp
theorem keepD_arg1 (V : Valuation τ sig (Elt F)) : after opsD V (Proc.devRef .tc main_arg1) = V (Proc.devRef .tc main_arg1) := by after_results_simp
theorem keepD_arg2 (V : Valuation τ sig (Elt F)) : after opsD V (Proc.devRef .tc main_arg2) = V (Proc.devRef .tc main_arg2) := by after_results_simp
theorem keepD_arg3 (V : Valuation τ sig (Elt F)) : after opsD V (Proc.devRef .tc main_arg3) = V (Proc.devRef .tc main_arg3) := by after_results_simp
theorem keepD_arg4 (V : Valuation τ sig (Elt F)) : after opsD V (Proc.devRef .tc main_arg4) = V (Proc.devRef .tc main_arg4) := by after_results_simp
theorem keepD_arg5 (V : Valuation τ sig (Elt F)) : after opsD V (Proc.devRef .tc main_arg5) = V (Proc.devRef .tc main_arg5) := by after_results_simp
theorem keepD_arg6 (V : Valuation τ sig (Elt F)) : after opsD V (Proc.devRef .tc main_arg6) = V (Proc.devRef .tc main_arg6) := by after_results_simp
theorem keepD_arg7 (V : Valuation τ sig (Elt F)) : after opsD V (Proc.devRef .tc main_arg7) = V (Proc.devRef .tc main_arg7) := by after_results_simp
theorem keepD_arg8 (V : Valuation τ sig (Elt F)) : after opsD V (Proc.devRef .tc main_arg8) = V (Proc.devRef .tc main_arg8) := by after_results_simp
theorem keepD_arg9 (V : Valuation τ sig (Elt F)) : after opsD V (Proc.devRef .tc main_arg9) = V (Proc.devRef .tc main_arg9) := by after_results_simp
theorem keepD_arg10 (V : Valuation τ sig (Elt F)) : after opsD V (Proc.devRef .tc main_arg10) = V (Proc.devRef .tc main_arg10) := by after_results_simp
theorem keepD_arg11 (V : Valuation τ sig (Elt F)) : after opsD V (Proc.devRef .tc main_arg11) = V (Proc.devRef .tc main_arg11) := by after_results_simp

/-! ## The stages composed -/

theorem VA_arg0 (V0 : Valuation τ sig (Elt F)) : VA V0 (Proc.devRef .tc main_arg0) = V0 (Proc.devRef .tc main_arg0) := keepA_arg0 V0
theorem VB_arg0 (V0 : Valuation τ sig (Elt F)) : VB V0 (Proc.devRef .tc main_arg0) = V0 (Proc.devRef .tc main_arg0) := (keepB_arg0 (VA V0)).trans (VA_arg0 V0)
theorem VC_arg0 (V0 : Valuation τ sig (Elt F)) : VC V0 (Proc.devRef .tc main_arg0) = V0 (Proc.devRef .tc main_arg0) := (keepC_arg0 (VB V0)).trans (VB_arg0 V0)
theorem VD_arg0 (V0 : Valuation τ sig (Elt F)) : VD V0 (Proc.devRef .tc main_arg0) = V0 (Proc.devRef .tc main_arg0) := (keepD_arg0 (VC V0)).trans (VC_arg0 V0)
theorem VA_arg1 (V0 : Valuation τ sig (Elt F)) : VA V0 (Proc.devRef .tc main_arg1) = V0 (Proc.devRef .tc main_arg1) := keepA_arg1 V0
theorem VB_arg1 (V0 : Valuation τ sig (Elt F)) : VB V0 (Proc.devRef .tc main_arg1) = V0 (Proc.devRef .tc main_arg1) := (keepB_arg1 (VA V0)).trans (VA_arg1 V0)
theorem VC_arg1 (V0 : Valuation τ sig (Elt F)) : VC V0 (Proc.devRef .tc main_arg1) = V0 (Proc.devRef .tc main_arg1) := (keepC_arg1 (VB V0)).trans (VB_arg1 V0)
theorem VD_arg1 (V0 : Valuation τ sig (Elt F)) : VD V0 (Proc.devRef .tc main_arg1) = V0 (Proc.devRef .tc main_arg1) := (keepD_arg1 (VC V0)).trans (VC_arg1 V0)
theorem VA_arg2 (V0 : Valuation τ sig (Elt F)) : VA V0 (Proc.devRef .tc main_arg2) = V0 (Proc.devRef .tc main_arg2) := keepA_arg2 V0
theorem VB_arg2 (V0 : Valuation τ sig (Elt F)) : VB V0 (Proc.devRef .tc main_arg2) = V0 (Proc.devRef .tc main_arg2) := (keepB_arg2 (VA V0)).trans (VA_arg2 V0)
theorem VC_arg2 (V0 : Valuation τ sig (Elt F)) : VC V0 (Proc.devRef .tc main_arg2) = V0 (Proc.devRef .tc main_arg2) := (keepC_arg2 (VB V0)).trans (VB_arg2 V0)
theorem VD_arg2 (V0 : Valuation τ sig (Elt F)) : VD V0 (Proc.devRef .tc main_arg2) = V0 (Proc.devRef .tc main_arg2) := (keepD_arg2 (VC V0)).trans (VC_arg2 V0)
theorem VA_arg3 (V0 : Valuation τ sig (Elt F)) : VA V0 (Proc.devRef .tc main_arg3) = V0 (Proc.devRef .tc main_arg3) := keepA_arg3 V0
theorem VB_arg3 (V0 : Valuation τ sig (Elt F)) : VB V0 (Proc.devRef .tc main_arg3) = V0 (Proc.devRef .tc main_arg3) := (keepB_arg3 (VA V0)).trans (VA_arg3 V0)
theorem VC_arg3 (V0 : Valuation τ sig (Elt F)) : VC V0 (Proc.devRef .tc main_arg3) = V0 (Proc.devRef .tc main_arg3) := (keepC_arg3 (VB V0)).trans (VB_arg3 V0)
theorem VD_arg3 (V0 : Valuation τ sig (Elt F)) : VD V0 (Proc.devRef .tc main_arg3) = V0 (Proc.devRef .tc main_arg3) := (keepD_arg3 (VC V0)).trans (VC_arg3 V0)
theorem VA_arg4 (V0 : Valuation τ sig (Elt F)) : VA V0 (Proc.devRef .tc main_arg4) = V0 (Proc.devRef .tc main_arg4) := keepA_arg4 V0
theorem VB_arg4 (V0 : Valuation τ sig (Elt F)) : VB V0 (Proc.devRef .tc main_arg4) = V0 (Proc.devRef .tc main_arg4) := (keepB_arg4 (VA V0)).trans (VA_arg4 V0)
theorem VC_arg4 (V0 : Valuation τ sig (Elt F)) : VC V0 (Proc.devRef .tc main_arg4) = V0 (Proc.devRef .tc main_arg4) := (keepC_arg4 (VB V0)).trans (VB_arg4 V0)
theorem VD_arg4 (V0 : Valuation τ sig (Elt F)) : VD V0 (Proc.devRef .tc main_arg4) = V0 (Proc.devRef .tc main_arg4) := (keepD_arg4 (VC V0)).trans (VC_arg4 V0)
theorem VA_arg5 (V0 : Valuation τ sig (Elt F)) : VA V0 (Proc.devRef .tc main_arg5) = V0 (Proc.devRef .tc main_arg5) := keepA_arg5 V0
theorem VB_arg5 (V0 : Valuation τ sig (Elt F)) : VB V0 (Proc.devRef .tc main_arg5) = V0 (Proc.devRef .tc main_arg5) := (keepB_arg5 (VA V0)).trans (VA_arg5 V0)
theorem VC_arg5 (V0 : Valuation τ sig (Elt F)) : VC V0 (Proc.devRef .tc main_arg5) = V0 (Proc.devRef .tc main_arg5) := (keepC_arg5 (VB V0)).trans (VB_arg5 V0)
theorem VD_arg5 (V0 : Valuation τ sig (Elt F)) : VD V0 (Proc.devRef .tc main_arg5) = V0 (Proc.devRef .tc main_arg5) := (keepD_arg5 (VC V0)).trans (VC_arg5 V0)
theorem VA_arg6 (V0 : Valuation τ sig (Elt F)) : VA V0 (Proc.devRef .tc main_arg6) = V0 (Proc.devRef .tc main_arg6) := keepA_arg6 V0
theorem VB_arg6 (V0 : Valuation τ sig (Elt F)) : VB V0 (Proc.devRef .tc main_arg6) = V0 (Proc.devRef .tc main_arg6) := (keepB_arg6 (VA V0)).trans (VA_arg6 V0)
theorem VC_arg6 (V0 : Valuation τ sig (Elt F)) : VC V0 (Proc.devRef .tc main_arg6) = V0 (Proc.devRef .tc main_arg6) := (keepC_arg6 (VB V0)).trans (VB_arg6 V0)
theorem VD_arg6 (V0 : Valuation τ sig (Elt F)) : VD V0 (Proc.devRef .tc main_arg6) = V0 (Proc.devRef .tc main_arg6) := (keepD_arg6 (VC V0)).trans (VC_arg6 V0)
theorem VA_arg7 (V0 : Valuation τ sig (Elt F)) : VA V0 (Proc.devRef .tc main_arg7) = V0 (Proc.devRef .tc main_arg7) := keepA_arg7 V0
theorem VB_arg7 (V0 : Valuation τ sig (Elt F)) : VB V0 (Proc.devRef .tc main_arg7) = V0 (Proc.devRef .tc main_arg7) := (keepB_arg7 (VA V0)).trans (VA_arg7 V0)
theorem VC_arg7 (V0 : Valuation τ sig (Elt F)) : VC V0 (Proc.devRef .tc main_arg7) = V0 (Proc.devRef .tc main_arg7) := (keepC_arg7 (VB V0)).trans (VB_arg7 V0)
theorem VD_arg7 (V0 : Valuation τ sig (Elt F)) : VD V0 (Proc.devRef .tc main_arg7) = V0 (Proc.devRef .tc main_arg7) := (keepD_arg7 (VC V0)).trans (VC_arg7 V0)
theorem VA_arg8 (V0 : Valuation τ sig (Elt F)) : VA V0 (Proc.devRef .tc main_arg8) = V0 (Proc.devRef .tc main_arg8) := keepA_arg8 V0
theorem VB_arg8 (V0 : Valuation τ sig (Elt F)) : VB V0 (Proc.devRef .tc main_arg8) = V0 (Proc.devRef .tc main_arg8) := (keepB_arg8 (VA V0)).trans (VA_arg8 V0)
theorem VC_arg8 (V0 : Valuation τ sig (Elt F)) : VC V0 (Proc.devRef .tc main_arg8) = V0 (Proc.devRef .tc main_arg8) := (keepC_arg8 (VB V0)).trans (VB_arg8 V0)
theorem VD_arg8 (V0 : Valuation τ sig (Elt F)) : VD V0 (Proc.devRef .tc main_arg8) = V0 (Proc.devRef .tc main_arg8) := (keepD_arg8 (VC V0)).trans (VC_arg8 V0)
theorem VA_arg9 (V0 : Valuation τ sig (Elt F)) : VA V0 (Proc.devRef .tc main_arg9) = V0 (Proc.devRef .tc main_arg9) := keepA_arg9 V0
theorem VB_arg9 (V0 : Valuation τ sig (Elt F)) : VB V0 (Proc.devRef .tc main_arg9) = V0 (Proc.devRef .tc main_arg9) := (keepB_arg9 (VA V0)).trans (VA_arg9 V0)
theorem VC_arg9 (V0 : Valuation τ sig (Elt F)) : VC V0 (Proc.devRef .tc main_arg9) = V0 (Proc.devRef .tc main_arg9) := (keepC_arg9 (VB V0)).trans (VB_arg9 V0)
theorem VD_arg9 (V0 : Valuation τ sig (Elt F)) : VD V0 (Proc.devRef .tc main_arg9) = V0 (Proc.devRef .tc main_arg9) := (keepD_arg9 (VC V0)).trans (VC_arg9 V0)
theorem VA_arg10 (V0 : Valuation τ sig (Elt F)) : VA V0 (Proc.devRef .tc main_arg10) = V0 (Proc.devRef .tc main_arg10) := keepA_arg10 V0
theorem VB_arg10 (V0 : Valuation τ sig (Elt F)) : VB V0 (Proc.devRef .tc main_arg10) = V0 (Proc.devRef .tc main_arg10) := (keepB_arg10 (VA V0)).trans (VA_arg10 V0)
theorem VC_arg10 (V0 : Valuation τ sig (Elt F)) : VC V0 (Proc.devRef .tc main_arg10) = V0 (Proc.devRef .tc main_arg10) := (keepC_arg10 (VB V0)).trans (VB_arg10 V0)
theorem VD_arg10 (V0 : Valuation τ sig (Elt F)) : VD V0 (Proc.devRef .tc main_arg10) = V0 (Proc.devRef .tc main_arg10) := (keepD_arg10 (VC V0)).trans (VC_arg10 V0)
theorem VA_arg11 (V0 : Valuation τ sig (Elt F)) : VA V0 (Proc.devRef .tc main_arg11) = V0 (Proc.devRef .tc main_arg11) := keepA_arg11 V0
theorem VB_arg11 (V0 : Valuation τ sig (Elt F)) : VB V0 (Proc.devRef .tc main_arg11) = V0 (Proc.devRef .tc main_arg11) := (keepB_arg11 (VA V0)).trans (VA_arg11 V0)
theorem VC_arg11 (V0 : Valuation τ sig (Elt F)) : VC V0 (Proc.devRef .tc main_arg11) = V0 (Proc.devRef .tc main_arg11) := (keepC_arg11 (VB V0)).trans (VB_arg11 V0)
theorem VD_arg11 (V0 : Valuation τ sig (Elt F)) : VD V0 (Proc.devRef .tc main_arg11) = V0 (Proc.devRef .tc main_arg11) := (keepD_arg11 (VC V0)).trans (VC_arg11 V0)

theorem VA_v47 (V0 : Valuation τ sig (Elt F)) :
    VA V0 (Proc.devRef .tc main_v47) = Spec.gcn (V0 (Proc.devRef .tc main_arg1)) (V0 (Proc.devRef .tc main_arg0)) (V0 (Proc.devRef .tc main_arg2)) (V0 (Proc.devRef .tc main_arg3)) :=
  readA V0
theorem VB_v78 (V0 : Valuation τ sig (Elt F)) :
    VB V0 (Proc.devRef .tc main_v78) = Spec.bnp (VA V0 (Proc.devRef .tc main_v47)) (VA V0 (Proc.devRef .tc main_arg4)) (VA V0 (Proc.devRef .tc main_arg5)) (VA V0 (Proc.devRef .tc main_arg6)) :=
  readB (VA V0)
theorem VC_v122 (V0 : Valuation τ sig (Elt F)) :
    VC V0 (Proc.devRef .tc main_v122) = Spec.gcn (V0 (Proc.devRef .tc main_arg1)) (VB V0 (Proc.devRef .tc main_v78)) (VB V0 (Proc.devRef .tc main_arg7)) (VB V0 (Proc.devRef .tc main_arg8)) :=
  readC (VB V0) (V0 (Proc.devRef .tc main_arg1)) ((keepB_v1 (VA V0)).trans (readA_v1 V0)) ((keepB_v3 (VA V0)).trans (readA_v3 V0))
theorem VD_v153 (V0 : Valuation τ sig (Elt F)) :
    VD V0 (Proc.devRef .tc main_v153) = Spec.bnp (VC V0 (Proc.devRef .tc main_v122)) (VC V0 (Proc.devRef .tc main_arg9)) (VC V0 (Proc.devRef .tc main_arg10)) (VC V0 (Proc.devRef .tc main_arg11)) :=
  readD (VC V0)

/-- The whole line's result: the reference computation `Spec.out` of the twelve arguments' contents at its start. -/
theorem read (V0 : Valuation τ sig (Elt F)) :
    after ops V0 (Proc.devRef .tc main_v153)
      = Spec.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) := by
  rw [after_ops, VD_v153, VC_v122, VB_v78, VA_v47, VC_arg9, VC_arg10, VC_arg11, VB_arg7, VB_arg8, VA_arg4, VA_arg5, VA_arg6]
  rfl

/-! The line leaves every argument as it found it. -/
theorem arg0 (V0 : Valuation τ sig (Elt F)) : after ops V0 (Proc.devRef .tc main_arg0) = V0 (Proc.devRef .tc main_arg0) := by
  rw [after_ops]; exact VD_arg0 V0
theorem arg1 (V0 : Valuation τ sig (Elt F)) : after ops V0 (Proc.devRef .tc main_arg1) = V0 (Proc.devRef .tc main_arg1) := by
  rw [after_ops]; exact VD_arg1 V0
theorem arg2 (V0 : Valuation τ sig (Elt F)) : after ops V0 (Proc.devRef .tc main_arg2) = V0 (Proc.devRef .tc main_arg2) := by
  rw [after_ops]; exact VD_arg2 V0
theorem arg3 (V0 : Valuation τ sig (Elt F)) : after ops V0 (Proc.devRef .tc main_arg3) = V0 (Proc.devRef .tc main_arg3) := by
  rw [after_ops]; exact VD_arg3 V0
theorem arg4 (V0 : Valuation τ sig (Elt F)) : after ops V0 (Proc.devRef .tc main_arg4) = V0 (Proc.devRef .tc main_arg4) := by
  rw [after_ops]; exact VD_arg4 V0
theorem arg5 (V0 : Valuation τ sig (Elt F)) : after ops V0 (Proc.devRef .tc main_arg5) = V0 (Proc.devRef .tc main_arg5) := by
  rw [after_ops]; exact VD_arg5 V0
theorem arg6 (V0 : Valuation τ sig (Elt F)) : after ops V0 (Proc.devRef .tc main_arg6) = V0 (Proc.devRef .tc main_arg6) := by
  rw [after_ops]; exact VD_arg6 V0
theorem arg7 (V0 : Valuation τ sig (Elt F)) : after ops V0 (Proc.devRef .tc main_arg7) = V0 (Proc.devRef .tc main_arg7) := by
  rw [after_ops]; exact VD_arg7 V0
theorem arg8 (V0 : Valuation τ sig (Elt F)) : after ops V0 (Proc.devRef .tc main_arg8) = V0 (Proc.devRef .tc main_arg8) := by
  rw [after_ops]; exact VD_arg8 V0
theorem arg9 (V0 : Valuation τ sig (Elt F)) : after ops V0 (Proc.devRef .tc main_arg9) = V0 (Proc.devRef .tc main_arg9) := by
  rw [after_ops]; exact VD_arg9 V0
theorem arg10 (V0 : Valuation τ sig (Elt F)) : after ops V0 (Proc.devRef .tc main_arg10) = V0 (Proc.devRef .tc main_arg10) := by
  rw [after_ops]; exact VD_arg10 V0
theorem arg11 (V0 : Valuation τ sig (Elt F)) : after ops V0 (Proc.devRef .tc main_arg11) = V0 (Proc.devRef .tc main_arg11) := by
  rw [after_ops]; exact VD_arg11 V0

end Cert.ReferenceIdeal.ReadA

end
-- ==== Proof.RefRun.lean ====
/- The reference program's run, read back as one function of its arguments: on every device, from any memory with zero
   counters, every weakly fair execution of @main terminates with the result buffer `main_v153` holding the reference
   computation `Spec.out` of the twelve arguments' launch contents, and with every argument unchanged. The run itself
   ends each TensorCore buffer at the fold of the 192 operations' results over the launch contents; that fold, at the
   result buffer, is `Spec.out` of the contents of the arguments, and at an argument is what was there. -/
import proofs.«112204_j28269474742836_1_alg».proof.Proof.RefRunA
import proofs.«112204_j28269474742836_1_alg».proof.Proof.RefRead

noncomputable section

namespace Cert.ReferenceIdeal.RunA

open Cert.ReferenceIdeal Cert.ReferenceIdeal.Gen Cert.ReferenceIdeal.ValueA Idealize.ShloMosaic Idealize.ShloMosaic.TcCoe Idealize.SL.Sem Idealize.ShloMosaic.StableHlo

variable {F : FTy → Type} [FloatOps F]

/-- On every device, for any float values, from any memory with zero counters: every weakly fair execution of @main
    terminates with the result at `Spec.out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v153)
        = Spec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v153).trans (ReadA.read (launchContents m c)),
      (h c main_arg0).trans (ReadA.arg0 (launchContents m c)),
      (h c main_arg1).trans (ReadA.arg1 (launchContents m c)),
      (h c main_arg2).trans (ReadA.arg2 (launchContents m c)),
      (h c main_arg3).trans (ReadA.arg3 (launchContents m c)),
      (h c main_arg4).trans (ReadA.arg4 (launchContents m c)),
      (h c main_arg5).trans (ReadA.arg5 (launchContents m c)),
      (h c main_arg6).trans (ReadA.arg6 (launchContents m c)),
      (h c main_arg7).trans (ReadA.arg7 (launchContents m c)),
      (h c main_arg8).trans (ReadA.arg8 (launchContents m c)),
      (h c main_arg9).trans (ReadA.arg9 (launchContents m c)),
      (h c main_arg10).trans (ReadA.arg10 (launchContents m c)),
      (h c main_arg11).trans (ReadA.arg11 (launchContents m c))⟩)
    (fold m ρ)

end Cert.ReferenceIdeal.RunA

end
-- ==== Proof.PreReal.lean ====
/- The precondition `finite_inputs` decoded at the ideal instance, where a float is an extended real: it is the
   conjunction, over the eleven float arguments, of "every entry's absolute value is below +∞" — the all-reduction by
   `and` of the comparison of `|x|` with the splat of the pattern of +∞. An extended real whose absolute value
   `max x (-x)` is below `⊤` is neither `⊤` nor `⊥`, so it is a real number: when the precondition evaluates to one,
   every entry of every float argument is a real. (The integer edge array is not constrained.) -/
import proofs.«112204_j28269474742836_1_alg».proof.Defs
import proofs.«112204_j28269474742836_1_alg».proof.Proof.Gen.Pre_finite_inputs
import proofs.«112204_j28269474742836_1_alg».proof.Proof.SpecReal
import Idealize.ShloMosaic.Lib.ReduceAll

noncomputable section

namespace Cert.PreReal

open Idealize.ShloMosaic Idealize.ShloMosaic.ValueIdx Cert.Pre_finite_inputs Cert.ReferenceIdeal.SpecReal

/-- A rank-0 array has one index. -/
instance : Subsingleton S_.Idx := ⟨fun _ _ => funext fun d => d.elim0⟩

/-- The f32 pattern of +∞ denotes the top extended real. -/
theorem ofBits_inf : Ideal.ofBits .f32 0x7F800000#32 = (⊤ : EReal) := by
  simp [Ideal.ofBits, Ideal.ieee]

/-- An extended real whose absolute value `max a (-a)` compares below `⊤` is a real number: at `⊤` and at `⊥` the
    absolute value is `⊤`, which is not below itself. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One conjunct of the precondition, at any shape: if the all-reduction by `and` of `|x| < +∞` is one, every entry of
    `x` is a real number. -/
theorem isReal_of_all_abs_lt_inf {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) : IsReal x := fun i => by
  have hi := Host.reduce_andi_all _ _ hr hu ix0 e i
  have hi' : Ideal.cmp .olt (max (x i) (-(x i))) (Ideal.ofBits .f32 0x7F800000#32) = 1#1 := hi
  rw [ofBits_inf] at hi'
  exact real_of_abs_lt_top _ hi'

/-- The precondition decoded: when `finite_inputs` of the twelve arguments is one, every entry of each of the eleven
    float arguments is a real number. -/
theorem real_of_pre (a0 : FVec Ideal S50000x128 .f32) (a1 : IVec S2x800000 32) (a2 : FVec Ideal S128x128 .f32)
    (a3 a4 a5 : FVec Ideal S128 .f32) (a6 : FVec Ideal S1 .f32) (a7 : FVec Ideal S128x128 .f32)
    (a8 a9 a10 : FVec Ideal S128 .f32) (a11 : FVec Ideal S1 .f32)
    (h : Cert.Pre_finite_inputs.fn (F := Ideal) a0 a1 a2 a3 a4 a5 a6 a7 a8 a9 a10 a11 = fun _ => 1#1) :
    IsReal a0 ∧ IsReal a2 ∧ IsReal a3 ∧ IsReal a4 ∧ IsReal a5 ∧ IsReal a6 ∧ IsReal a7 ∧ IsReal a8 ∧ IsReal a9
      ∧ IsReal a10 ∧ IsReal a11 := by
  have e := congrFun h ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h2⟩, h3⟩, h4⟩, h5⟩, h6⟩, h7⟩, h8⟩, h9⟩, h10⟩, h11⟩ := e
  exact ⟨isReal_of_all_abs_lt_inf _ _ _ _ h0, isReal_of_all_abs_lt_inf _ _ _ _ h2, isReal_of_all_abs_lt_inf _ _ _ _ h3,
    isReal_of_all_abs_lt_inf _ _ _ _ h4, isReal_of_all_abs_lt_inf _ _ _ _ h5, isReal_of_all_abs_lt_inf _ _ _ _ h6,
    isReal_of_all_abs_lt_inf _ _ _ _ h7, isReal_of_all_abs_lt_inf _ _ _ _ h8, isReal_of_all_abs_lt_inf _ _ _ _ h9,
    isReal_of_all_abs_lt_inf _ _ _ _ h10, isReal_of_all_abs_lt_inf _ _ _ _ h11⟩

end Cert.PreReal

end
-- ==== Proof.lean ====
/- Two programs compute a two-layer graph convolution with column normalisation: per layer, the dense product of the
   node features with a weight matrix, the aggregation of each node's neighbours' rows scaled by the symmetric degree
   normalisation (self-loops included), a bias row, the normalisation of every column by its own mean and (biased)
   variance over the 50000 nodes with a gain and an offset, and a leaky rectifier. The kernel program computes the
   product, the column statistics and the normalisation in kernel regions over blocks of 5000 rows and takes the
   variance as the mean of squares minus the squared mean; the reference computes everything on the host and takes the
   variance as the mean of squared deviations. On finite inputs every intermediate entry is a real number, where the two
   variances agree, so the two results are equal entry by entry.
   The three frames: each kernel program's run is assembled region by region (each region's body at every grid point,
   the statistics kernel's running sums carried in its scratch rows), the reference's run is the fold of its host
   operations; no argument array is written. The idealisation rewrote nothing. -/
import proofs.«112204_j28269474742836_1_alg».proof.Defs
import proofs.«112204_j28269474742836_1_alg».proof.Proof.Gen.Kernel
import proofs.«112204_j28269474742836_1_alg».proof.Proof.Gen.KernelIdeal
import proofs.«112204_j28269474742836_1_alg».proof.Proof.Gen.ReferenceIdeal
import proofs.«112204_j28269474742836_1_alg».proof.Proof.Gen.Pre_finite_inputs
import proofs.«112204_j28269474742836_1_alg».proof.Proof.K_Run
import proofs.«112204_j28269474742836_1_alg».proof.Proof.KI_Run
import proofs.«112204_j28269474742836_1_alg».proof.Proof.KI_Final
import proofs.«112204_j28269474742836_1_alg».proof.Proof.XSpec
import proofs.«112204_j28269474742836_1_alg».proof.Proof.Bridge
import proofs.«112204_j28269474742836_1_alg».proof.Proof.RefRun
import proofs.«112204_j28269474742836_1_alg».proof.Proof.PreReal

set_option maxRecDepth 16384

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.RunA.run (F := Ideal) m ρ)
theorem preserves : Cert.preserves_Kernel_KernelIdeal := trivial

open Cert.ReferenceIdeal.Spec Cert.ReferenceIdeal.SpecReal in
/-- The kernel program's result is the reference's function of the arguments, when every float argument is real. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h0 : IsReal ((m ((c.tc : Thread Cert.KernelIdeal.nD Cert.KernelIdeal.τ).loc Cert.KernelIdeal.main_arg0)) : Feat (F := Ideal))) (h2 : IsReal ((m ((c.tc : Thread Cert.KernelIdeal.nD Cert.KernelIdeal.τ).loc Cert.KernelIdeal.main_arg2)) : Wts (F := Ideal)))
    (h3 : IsReal ((m ((c.tc : Thread Cert.KernelIdeal.nD Cert.KernelIdeal.τ).loc Cert.KernelIdeal.main_arg3)) : Col (F := Ideal))) (h4 : IsReal ((m ((c.tc : Thread Cert.KernelIdeal.nD Cert.KernelIdeal.τ).loc Cert.KernelIdeal.main_arg4)) : Col (F := Ideal))) (h5 : IsReal ((m ((c.tc : Thread Cert.KernelIdeal.nD Cert.KernelIdeal.τ).loc Cert.KernelIdeal.main_arg5)) : Col (F := Ideal)))
    (h6 : IsReal ((m ((c.tc : Thread Cert.KernelIdeal.nD Cert.KernelIdeal.τ).loc Cert.KernelIdeal.main_arg6)) : (⟨Cert.ReferenceIdeal.S1, .f32⟩ : BufTy).Contents (Elt Ideal)))
    (h7 : IsReal ((m ((c.tc : Thread Cert.KernelIdeal.nD Cert.KernelIdeal.τ).loc Cert.KernelIdeal.main_arg7)) : Wts (F := Ideal)))
    (h8 : IsReal ((m ((c.tc : Thread Cert.KernelIdeal.nD Cert.KernelIdeal.τ).loc Cert.KernelIdeal.main_arg8)) : Col (F := Ideal))) (h9 : IsReal ((m ((c.tc : Thread Cert.KernelIdeal.nD Cert.KernelIdeal.τ).loc Cert.KernelIdeal.main_arg9)) : Col (F := Ideal))) (h10 : IsReal ((m ((c.tc : Thread Cert.KernelIdeal.nD Cert.KernelIdeal.τ).loc Cert.KernelIdeal.main_arg10)) : Col (F := Ideal)))
    (h11 : IsReal ((m ((c.tc : Thread Cert.KernelIdeal.nD Cert.KernelIdeal.τ).loc Cert.KernelIdeal.main_arg11)) : (⟨Cert.ReferenceIdeal.S1, .f32⟩ : BufTy).Contents (Elt Ideal))) :
    Cert.KernelIdeal.Run.W11 (F := Ideal) m ρ c (Proc.devRef .tc Cert.KernelIdeal.main_v69)
      = out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  have L1 := Cert.Bridge.layer (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) h0 h2 h3 h4 h5 h6
  have hY : IsReal (bnp (gcn (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) :=
    isReal_bnp (isReal_gcn _ h0 h2 h3) h4 h5 h6
  have L2 := Cert.Bridge.layer' (m ((c.tc : Thread Cert.KernelIdeal.nD Cert.KernelIdeal.τ).loc Cert.KernelIdeal.main_arg1)) (bnp (gcn (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) hY h7 h8 h9 h10 h11
  rw [Cert.KernelIdeal.Final.out_eq, Cert.KernelIdeal.Final.agg2_eq, Cert.KernelIdeal.Final.b2_eq, Cert.KernelIdeal.Final.g2_eq,
    Cert.KernelIdeal.Final.be2_eq, Cert.KernelIdeal.Final.a2_eq, Cert.KernelIdeal.Final.h2_eq, Cert.KernelIdeal.Final.bn1_eq,
    Cert.KernelIdeal.Final.agg1_eq, Cert.KernelIdeal.Final.b1_eq, Cert.KernelIdeal.Final.g1_eq, Cert.KernelIdeal.Final.be1_eq,
    Cert.KernelIdeal.Final.a1_eq, Cert.KernelIdeal.Final.h1_eq]
  simp only [Cert.KernelIdeal.Final.aggSD_eq, Cert.XSpec.normK_x, Cert.XSpec.agg_x]
  refine Eq.trans ?_ L2
  rw [← L1]

/-- Both idealised programs, from memories that agree on the arguments, end with the same result: the reference's
    function of the arguments — the reference by its run, the kernel program by the two layers' bridges. -/
theorem algebraic : Cert.algebraic_KernelIdeal_ReferenceIdeal := by
  intro m ρ m' ρ' hpre hagree
  refine ⟨fun c => Cert.ReferenceIdeal.Spec.out (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)), ?_, ?_⟩
  · refine (θ_run Cert.KernelIdeal.defs _ _).mono (fun r h c => ⟨?_,
      (h c _ (Cert.KernelIdeal.Run.mem_uc Cert.KernelIdeal.main_arg0 (by decide))).trans (Cert.KernelIdeal.Run.W11_main_arg0 m ρ c),
      (h c _ (Cert.KernelIdeal.Run.mem_uc Cert.KernelIdeal.main_arg1 (by decide))).trans (Cert.KernelIdeal.Run.W11_main_arg1 m ρ c),
      (h c _ (Cert.KernelIdeal.Run.mem_uc Cert.KernelIdeal.main_arg2 (by decide))).trans (Cert.KernelIdeal.Run.W11_main_arg2 m ρ c),
      (h c _ (Cert.KernelIdeal.Run.mem_uc Cert.KernelIdeal.main_arg3 (by decide))).trans (Cert.KernelIdeal.Run.W11_main_arg3 m ρ c),
      (h c _ (Cert.KernelIdeal.Run.mem_uc Cert.KernelIdeal.main_arg4 (by decide))).trans (Cert.KernelIdeal.Run.W11_main_arg4 m ρ c),
      (h c _ (Cert.KernelIdeal.Run.mem_uc Cert.KernelIdeal.main_arg5 (by decide))).trans (Cert.KernelIdeal.Run.W11_main_arg5 m ρ c),
      (h c _ (Cert.KernelIdeal.Run.mem_uc Cert.KernelIdeal.main_arg6 (by decide))).trans (Cert.KernelIdeal.Run.W11_main_arg6 m ρ c),
      (h c _ (Cert.KernelIdeal.Run.mem_uc Cert.KernelIdeal.main_arg7 (by decide))).trans (Cert.KernelIdeal.Run.W11_main_arg7 m ρ c),
      (h c _ (Cert.KernelIdeal.Run.mem_uc Cert.KernelIdeal.main_arg8 (by decide))).trans (Cert.KernelIdeal.Run.W11_main_arg8 m ρ c),
      (h c _ (Cert.KernelIdeal.Run.mem_uc Cert.KernelIdeal.main_arg9 (by decide))).trans (Cert.KernelIdeal.Run.W11_main_arg9 m ρ c),
      (h c _ (Cert.KernelIdeal.Run.mem_uc Cert.KernelIdeal.main_arg10 (by decide))).trans (Cert.KernelIdeal.Run.W11_main_arg10 m ρ c),
      (h c _ (Cert.KernelIdeal.Run.mem_uc Cert.KernelIdeal.main_arg11 (by decide))).trans (Cert.KernelIdeal.Run.W11_main_arg11 m ρ c)⟩)
      (Cert.KernelIdeal.Run.run (F := Ideal) m ρ)
    refine (h c _ (Cert.KernelIdeal.Run.mem_uc Cert.KernelIdeal.main_v69 (by decide))).trans ?_
    obtain ⟨e0, e1, e2, e3, e4, e5, e6, e7, e8, e9, e10, e11⟩ := hagree c
    obtain ⟨r0, r2, r3, r4, r5, r6, r7, r8, r9, r10, r11⟩ := Cert.PreReal.real_of_pre _ _ _ _ _ _ _ _ _ _ _ _ (hpre c)
    beta_reduce
    rw [e0, e1, e2, e3, e4, e5, e6, e7, e8, e9, e10, e11]
    exact kernel_value m ρ c r0 r2 r3 r4 r5 r6 r7 r8 r9 r10 r11
  · exact Cert.ReferenceIdeal.RunA.run (F := Ideal) m' ρ'

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
